-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S3200000x4 : Shape := ⟨2, ![3200000, 4]⟩
abbrev S100000 : Shape := ⟨1, ![100000]⟩
abbrev S26x11 : Shape := ⟨2, ![26, 11]⟩
abbrev S11 : Shape := ⟨1, ![11]⟩
abbrev S11x5 : Shape := ⟨2, ![11, 5]⟩
abbrev S5 : Shape := ⟨1, ![5]⟩
abbrev S5x1 : Shape := ⟨2, ![5, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S3200000x4 : S_.BroadcastsInDim S3200000x4 (![] : Fin 0 → Fin S3200000x4.rank)
  reducesTo_S3200000x4_S_d0_1 : S3200000x4.ReducesTo [0, 1] S_
  bcast_S_S26x11 : S_.BroadcastsInDim S26x11 (![] : Fin 0 → Fin S26x11.rank)
  reducesTo_S26x11_S_d0_1 : S26x11.ReducesTo [0, 1] S_
  bcast_S_S11 : S_.BroadcastsInDim S11 (![] : Fin 0 → Fin S11.rank)
  reducesTo_S11_S_d0 : S11.ReducesTo [0] S_
  bcast_S_S11x5 : S_.BroadcastsInDim S11x5 (![] : Fin 0 → Fin S11x5.rank)
  reducesTo_S11x5_S_d0_1 : S11x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S11x5 .f32) (main_arg17 : FVec F S5 .f32) (main_arg18 : FVec F S5x1 .f32) (main_arg19 : FVec F S1 .f32) (main_v63 : IVec S_ 1) (main_v67 : IVec S_ 1) : IVec S_ 1 :=
  let main_v68 : IVec S_ 1 := andi main_v63 main_v67
  let main_v69 : FVec F S11x5 .f32 := Host.absf main_arg16
  let main_cst_26 : FVec F S_ .f32 := constant S_ .f32 0x7F800000#32
  let main_v70 : FVec F S11x5 .f32 := broadcastInDim S11x5 ![] bcast_S_S11x5 main_cst_26
  let main_v71 : IVec S11x5 1 := cmpf .olt main_v69 main_v70
  let main_c_27 : IVec S_ 1 := constantI S_ 1 1#1
  let main_v72 : IVec S_ 1 := (fun x v => Host.reduce IntOp.andi x v reducesTo_S11x5_S_d0_1 h_S_) main_v71 main_c_27
  let main_v73 : IVec S_ 1 := andi main_v68 main_v72
  let main_v74 : FVec F S5 .f32 := Host.absf main_arg17
  let main_cst_28 : FVec F S_ .f32 := constant S_ .f32 0x7F800000#32
  let main_v75 : FVec F S5 .f32 := broadcastInDim S5 ![] bcast_S_S5 main_cst_28
  let main_v76 : IVec S5 1 := cmpf .olt main_v74 main_v75
  let main_c_29 : IVec S_ 1 := constantI S_ 1 1#1
  let main_v77 : IVec S_ 1 := (fun x v => Host.reduce IntOp.andi x v reducesTo_S5_S_d0 h_S_) main_v76 main_c_29
  let main_v78 : IVec S_ 1 := andi main_v73 main_v77
  let main_v79 : FVec F S5x1 .f32 := Host.absf main_arg18
  let main_cst_30 : FVec F S_ .f32 := constant S_ .f32 0x7F800000#32
  let main_v80 : FVec F S5x1 .f32 := broadcastInDim S5x1 ![] bcast_S_S5x1 main_cst_30
  let main_v81 : IVec S5x1 1 := cmpf .olt main_v79 main_v80
  let main_c_31 : IVec S_ 1 := constantI S_ 1 1#1
  let main_v82 : IVec S_ 1 := (fun x v => Host.reduce IntOp.andi x v reducesTo_S5x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S11 .f32) (main_arg14 : FVec F S11 .f32) (main_arg15 : FVec F S11 .f32) (main_arg16 : FVec F S11x5 .f32) (main_arg17 : FVec F S5 .f32) (main_arg18 : FVec F S5x1 .f32) (main_arg19 : FVec F S1 .f32) (main_v48 : IVec S_ 1) (main_v49 : FVec F S26x11 .f32) (main_v50 : FVec F S26x11 .f32) : IVec S_ 1 :=
  let main_v51 : IVec S26x11 1 := cmpf .olt main_v49 main_v50
  let main_c_19 : IVec S_ 1 := constantI S_ 1 1#1
  let main_v52 : IVec S_ 1 := (fun x v => Host.reduce IntOp.andi x v reducesTo_S26x11_S_d0_1 h_S_) main_v51 main_c_19
  let main_v53 : IVec S_ 1 := andi main_v48 main_v52
  let main_v54 : FVec F S11 .f32 := Host.absf main_arg13
  let main_cst_20 : FVec F S_ .f32 := constant S_ .f32 0x7F800000#32
  let main_v55 : FVec F S11 .f32 := broadcastInDim S11 ![] bcast_S_S11 main_cst_20
  let main_v56 : IVec S11 1 := cmpf .olt main_v54 main_v55
  let main_c_21 : IVec S_ 1 := constantI S_ 1 1#1
  let main_v57 : IVec S_ 1 := (fun x v => Host.reduce IntOp.andi x v reducesTo_S11_S_d0 h_S_) main_v56 main_c_21
  let main_v58 : IVec S_ 1 := andi main_v53 main_v57
  let main_v59 : FVec F S11 .f32 := Host.absf main_arg14
  let main_cst_22 : FVec F S_ .f32 := constant S_ .f32 0x7F800000#32
  let main_v60 : FVec F S11 .f32 := broadcastInDim S11 ![] bcast_S_S11 main_cst_22
  let main_v61 : IVec S11 1 := cmpf .olt main_v59 main_v60
  let main_c_23 : IVec S_ 1 := constantI S_ 1 1#1
  let main_v62 : IVec S_ 1 := (fun x v => Host.reduce IntOp.andi x v reducesTo_S11_S_d0 h_S_) main_v61 main_c_23
  let main_v63 : IVec S_ 1 := andi main_v58 main_v62
  let main_v64 : FVec F S11 .f32 := Host.absf main_arg15
  let main_cst_24 : FVec F S_ .f32 := constant S_ .f32 0x7F800000#32
  let main_v65 : FVec F S11 .f32 := broadcastInDim S11 ![] bcast_S_S11 main_cst_24
  let main_v66 : IVec S11 1 := cmpf .olt main_v64 main_v65
  let main_c_25 : IVec S_ 1 := constantI S_ 1 1#1
  let main_v67 : IVec S_ 1 := (fun x v => Host.reduce IntOp.andi x v reducesTo_S11_S_d0 h_S_) main_v66 main_c_25
  fn_part4 (F := F) main_arg16 main_arg17 main_arg18 main_arg19 main_v63 main_v67

def fn_part2 {F : FTy → Type} [FloatOps F] (main_arg9 : FVec F S11 .f32) (main_arg10 : FVec F S26x11 .f32) (main_arg11 : FVec F S11 .f32) (main_arg12 : FVec F S26x11 .f32) (main_arg13 : FVec F S11 .f32) (main_arg14 : FVec F S11 .f32) (main_arg15 : FVec F S11 .f32) (main_arg16 : FVec F S11x5 .f32) (main_arg17 : FVec F S5 .f32) (main_arg18 : FVec F S5x1 .f32) (main_arg19 : FVec F S1 .f32) (main_v33 : IVec S_ 1) : IVec S_ 1 :=
  let main_v34 : FVec F S11 .f32 := Host.absf main_arg9
  let main_cst_12 : FVec F S_ .f32 := constant S_ .f32 0x7F800000#32
  let main_v35 : FVec F S11 .f32 := broadcastInDim S11 ![] bcast_S_S11 main_cst_12
  let main_v36 : IVec S11 1 := cmpf .olt main_v34 main_v35
  let main_c_13 : IVec S_ 1 := constantI S_ 1 1#1
  let main_v37 : IVec S_ 1 := (fun x v => Host.reduce IntOp.andi x v reducesTo_S11_S_d0 h_S_) main_v36 main_c_13
  let main_v38 : IVec S_ 1 := andi main_v33 main_v37
  let main_v39 : FVec F S26x11 .f32 := Host.absf main_arg10
  let main_cst_14 : FVec F S_ .f32 := constant S_ .f32 0x7F800000#32
  let main_v40 : FVec F S26x11 .f32 := broadcastInDim S26x11 ![] bcast_S_S26x11 main_cst_14
  let main_v41 : IVec S26x11 1 := cmpf .olt main_v39 main_v40
  let main_c_15 : IVec S_ 1 := constantI S_ 1 1#1
  let main_v42 : IVec S_ 1 := (fun x v => Host.reduce IntOp.andi x v reducesTo_S26x11_S_d0_1 h_S_) main_v41 main_c_15
  let main_v43 : IVec S_ 1 := andi main_v38 main_v42
  let main_v44 : FVec F S11 .f32 := Host.absf main_arg11
  let main_cst_16 : FVec F S_ .f32 := constant S_ .f32 0x7F800000#32
  let main_v45 : FVec F S11 .f32 := broadcastInDim S11 ![] bcast_S_S11 main_cst_16
  let main_v46 : IVec S11 1 := cmpf .olt main_v44 main_v45
  let main_c_17 : IVec S_ 1 := constantI S_ 1 1#1
  let main_v47 : IVec S_ 1 := (fun x v => Host.reduce IntOp.andi x v reducesTo_S11_S_d0 h_S_) main_v46 main_c_17
  let main_v48 : IVec S_ 1 := andi main_v43 main_v47
  let main_v49 : FVec F S26x11 .f32 := Host.absf main_arg12
  let main_cst_18 : FVec F S_ .f32 := constant S_ .f32 0x7F800000#32
  let main_v50 : FVec F S26x11 .f32 := broadcastInDim S26x11 ![] bcast_S_S26x11 main_cst_18
  fn_part3 (F := F) main_arg13 main_arg14 main_arg15 main_arg16 main_arg17 main_arg18 main_arg19 main_v48 main_v49 main_v50

def fn_part1 {F : FTy → Type} [FloatOps F] (main_arg6 : FVec F S26x11 .f32) (main_arg7 : FVec F S11 .f32) (main_arg8 : FVec F S11 .f32) (main_arg9 : FVec F S11 .f32) (main_arg10 : FVec F S26x11 .f32) (main_arg11 : FVec F S11 .f32) (main_arg12 : FVec F S26x11 .f32) (main_arg13 : FVec F S11 .f32) (main_arg14 : FVec F S11 .f32) (main_arg15 : FVec F S11 .f32) (main_arg16 : FVec F S11x5 .f32) (main_arg17 : FVec F S5 .f32) (main_arg18 : FVec F S5x1 .f32) (main_arg19 : FVec F S1 .f32) (main_v13 : IVec S_ 1) (main_v16 : IVec S11 1) : IVec S_ 1 :=
  let main_c_5 : IVec S_ 1 := constantI S_ 1 1#1
  let main_v17 : IVec S_ 1 := (fun x v => Host.reduce IntOp.andi x v reducesTo_S11_S_d0 h_S_) main_v16 main_c_5
  let main_v18 : IVec S_ 1 := andi main_v13 main_v17
  let main_v19 : FVec F S26x11 .f32 := Host.absf main_arg6
  let main_cst_6 : FVec F S_ .f32 := constant S_ .f32 0x7F800000#32
  let main_v20 : FVec F S26x11 .f32 := broadcastInDim S26x11 ![] bcast_S_S26x11 main_cst_6
  let main_v21 : IVec S26x11 1 := cmpf .olt main_v19 main_v20
  let main_c_7 : IVec S_ 1 := constantI S_ 1 1#1
  let main_v22 : IVec S_ 1 := (fun x v => Host.reduce IntOp.andi x v reducesTo_S26x11_S_d0_1 h_S_) main_v21 main_c_7
  let main_v23 : IVec S_ 1 := andi main_v18 main_v22
  let main_v24 : FVec F S11 .f32 := Host.absf main_arg7
  let main_cst_8 : FVec F S_ .f32 := constant S_ .f32 0x7F800000#32
  let main_v25 : FVec F S11 .f32 := broadcastInDim S11 ![] bcast_S_S11 main_cst_8
  let main_v26 : IVec S11 1 := cmpf .olt main_v24 main_v25
  let main_c_9 : IVec S_ 1 := constantI S_ 1 1#1
  let main_v27 : IVec S_ 1 := (fun x v => Host.reduce IntOp.andi x v reducesTo_S11_S_d0 h_S_) main_v26 main_c_9
  let main_v28 : IVec S_ 1 := andi main_v23 main_v27
  let main_v29 : FVec F S11 .f32 := Host.absf main_arg8
  let main_cst_10 : FVec F S_ .f32 := constant S_ .f32 0x7F800000#32
  let main_v30 : FVec F S11 .f32 := broadcastInDim S11 ![] bcast_S_S11 main_cst_10
  let main_v31 : IVec S11 1 := cmpf .olt main_v29 main_v30
  let main_c_11 : IVec S_ 1 := constantI S_ 1 1#1
  let main_v32 : IVec S_ 1 := (fun x v => Host.reduce IntOp.andi x v reducesTo_S11_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x11 .f32) (main_arg1 : IVec S2x3200000 32) (main_arg2 : FVec F S3200000x4 .f32) (main_arg3 : IVec S100000 32) (main_arg4 : FVec F S26x11 .f32) (main_arg5 : FVec F S11 .f32) (main_arg6 : FVec F S26x11 .f32) (main_arg7 : FVec F S11 .f32) (main_arg8 : FVec F S11 .f32) (main_arg9 : FVec F S11 .f32) (main_arg10 : FVec F S26x11 .f32) (main_arg11 : FVec F S11 .f32) (main_arg12 : FVec F S26x11 .f32) (main_arg13 : FVec F S11 .f32) (main_arg14 : FVec F S11 .f32) (main_arg15 : FVec F S11 .f32) (main_arg16 : FVec F S11x5 .f32) (main_arg17 : FVec F S5 .f32) (main_arg18 : FVec F S5x1 .f32) (main_arg19 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S3200000x4 .f32 := Host.absf main_arg2
  let main_cst_0 : FVec F S_ .f32 := constant S_ .f32 0x7F800000#32
  let main_v5 : FVec F S3200000x4 .f32 := broadcastInDim S3200000x4 ![] bcast_S_S3200000x4 main_cst_0
  let main_v6 : IVec S3200000x4 1 := cmpf .olt main_v4 main_v5
  let main_c_1 : IVec S_ 1 := constantI S_ 1 1#1
  let main_v7 : IVec S_ 1 := (fun x v => Host.reduce IntOp.andi x v reducesTo_S3200000x4_S_d0_1 h_S_) main_v6 main_c_1
  let main_v8 : IVec S_ 1 := andi main_v3 main_v7
  let main_v9 : FVec F S26x11 .f32 := Host.absf main_arg4
  let main_cst_2 : FVec F S_ .f32 := constant S_ .f32 0x7F800000#32
  let main_v10 : FVec F S26x11 .f32 := broadcastInDim S26x11 ![] bcast_S_S26x11 main_cst_2
  let main_v11 : IVec S26x11 1 := cmpf .olt main_v9 main_v10
  let main_c_3 : IVec S_ 1 := constantI S_ 1 1#1
  let main_v12 : IVec S_ 1 := (fun x v => Host.reduce IntOp.andi x v reducesTo_S26x11_S_d0_1 h_S_) main_v11 main_c_3
  let main_v13 : IVec S_ 1 := andi main_v8 main_v12
  let main_v14 : FVec F S11 .f32 := Host.absf main_arg5
  let main_cst_4 : FVec F S_ .f32 := constant S_ .f32 0x7F800000#32
  let main_v15 : FVec F S11 .f32 := broadcastInDim S11 ![] bcast_S_S11 main_cst_4
  let main_v16 : IVec S11 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x11 : Shape := ⟨2, ![100000, 11]⟩
abbrev S2x3200000 : Shape := ⟨2, ![2, 3200000]⟩
abbrev S3200000x4 : Shape := ⟨2, ![3200000, 4]⟩
abbrev S100000 : Shape := ⟨1, ![100000]⟩
abbrev S26x11 : Shape := ⟨2, ![26, 11]⟩
abbrev S11 : Shape := ⟨1, ![11]⟩
abbrev S11x5 : Shape := ⟨2, ![11, 5]⟩
abbrev S5 : Shape := ⟨1, ![5]⟩
abbrev S5x1 : Shape := ⟨2, ![5, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x11 : Shape := ⟨2, ![3200000, 11]⟩
abbrev S11x11 : Shape := ⟨2, ![11, 11]⟩
abbrev S4x11 : Shape := ⟨2, ![4, 11]⟩
abbrev S1x11 : Shape := ⟨2, ![1, 11]⟩
abbrev S8000x11 : Shape := ⟨2, ![8000, 11]⟩
abbrev S8000x4 : Shape := ⟨2, ![8000, 4]⟩
abbrev S1000x11 : Shape := ⟨2, ![1000, 11]⟩
abbrev S100000x1 : Shape := ⟨2, ![100000, 1]⟩
abbrev S1000 : Shape := ⟨1, ![1000]⟩
abbrev S1000x1 : Shape := ⟨2, ![1000, 1]⟩
abbrev S1000x5 : Shape := ⟨2, ![1000, 5]⟩
abbrev S1x5 : Shape := ⟨2, ![1, 5]⟩
abbrev S1x1 : Shape := ⟨2, ![1, 1]⟩

abbrev nBuf : Space → Nat
  | .hbm => 226
  | .vmem => 32
  | .smem => 0
  | _ => 0

abbrev hbmTy0_0 (i : Nat) : BufTy := match i % 128 with
  | 0 => ⟨S100000x11, .f32⟩
  | 1 => ⟨S2x3200000, .i32⟩
  | 2 => ⟨S3200000x4, .f32⟩
  | 3 => ⟨S100000, .i32⟩
  | 4 => ⟨S26x11, .f32⟩
  | 5 => ⟨S11, .f32⟩
  | 6 => ⟨S26x11, .f32⟩
  | 7 => ⟨S11, .f32⟩
  | 8 => ⟨S11, .f32⟩
  | 9 => ⟨S11, .f32⟩
  | 10 => ⟨S26x11, .f32⟩
  | 11 => ⟨S11, .f32⟩
  | 12 => ⟨S26x11, .f32⟩
  | 13 => ⟨S11, .f32⟩
  | 14 => ⟨S11, .f32⟩
  | 15 => ⟨S11, .f32⟩
  | 16 => ⟨S11x5, .f32⟩
  | 17 => ⟨S5, .f32⟩
  | 18 => ⟨S5x1, .f32⟩
  | 19 => ⟨S1, .f32⟩
  | 20 => ⟨S1x3200000, .i32⟩
  | 21 => ⟨S3200000, .i32⟩
  | 22 => ⟨S1x3200000, .i32⟩
  | 23 => ⟨S3200000, .i32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x11, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x11, .f32⟩
  | 42 => ⟨S11x11, .f32⟩
  | 43 => ⟨S11x11, .bf16⟩
  | 44 => ⟨S11x11, .f32⟩
  | 45 => ⟨S11x11, .bf16⟩
  | 46 => ⟨S4x11, .f32⟩
  | 47 => ⟨S4x11, .bf16⟩
  | 48 => ⟨S11x11, .f32⟩
  | 49 => ⟨S11x11, .bf16⟩
  | 50 => ⟨S11x11, .f32⟩
  | 51 => ⟨S11x11, .bf16⟩
  | 52 => ⟨S4x11, .f32⟩
  | 53 => ⟨S4x11, .bf16⟩
  | 54 => ⟨S1x11, .f32⟩
  | 55 => ⟨S1x11, .f32⟩
  | 56 => ⟨S3200000x11, .f32⟩
  | 57 => ⟨S_, .f32⟩
  | 58 => ⟨S100000x11, .f32⟩
  | 59 => ⟨S3200000x1, .i32⟩
  | 60 => ⟨S100000x11, .f32⟩
  | 61 => ⟨S_, .f32⟩
  | 62 => ⟨S11, .f32⟩
  | 63 => ⟨S_, .f32⟩
  | 64 => ⟨S11, .f32⟩
  | 65 => ⟨S11, .f32⟩
  | 66 => ⟨S_, .i32⟩
  | 67 => ⟨S_, .f32⟩
  | 68 => ⟨S11, .f32⟩
  | 69 => ⟨S1x11, .f32⟩
  | 70 => ⟨S_, .f32⟩
  | 71 => ⟨S1x11, .f32⟩
  | 72 => ⟨S1x11, .f32⟩
  | 73 => ⟨S100000x11, .f32⟩
  | 74 => ⟨S100000x11, .f32⟩
  | 75 => ⟨S100000x11, .f32⟩
  | 76 => ⟨S_, .f32⟩
  | 77 => ⟨S_, .f32⟩
  | 78 => ⟨S_, .f32⟩
  | 79 => ⟨S_, .f32⟩
  | 80 => ⟨S11, .f32⟩
  | 81 => ⟨S11, .f32⟩
  | 82 => ⟨S11, .f32⟩
  | 83 => ⟨S_, .f32⟩
  | 84 => ⟨S_, .i1⟩
  | 85 => ⟨S_, .f32⟩
  | 86 => ⟨S_, .f32⟩
  | 87 => ⟨S11, .f32⟩
  | 88 => ⟨S11, .f32⟩
  | 89 => ⟨S1x11, .f32⟩
  | 90 => ⟨S100000x11, .f32⟩
  | 91 => ⟨S100000x11, .f32⟩
  | 92 => ⟨S_, .f32⟩
  | 93 => ⟨S11, .f32⟩
  | 94 => ⟨S11, .f32⟩
  | 95 => ⟨S11, .f32⟩
  | 96 => ⟨S1x11, .f32⟩
  | 97 => ⟨S100000x11, .f32⟩
  | 98 => ⟨S100000x11, .f32⟩
  | 99 => ⟨S1x11, .f32⟩
  | 100 => ⟨S100000x11, .f32⟩
  | 101 => ⟨S100000x11, .f32⟩
  | 102 => ⟨S1x11, .f32⟩
  | 103 => ⟨S100000x11, .f32⟩
  | 104 => ⟨S100000x11, .f32⟩
  | 105 => ⟨S100000x11, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000x11, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x11, .f32⟩
  | 124 => ⟨S11x11, .f32⟩
  | 125 => ⟨S11x11, .bf16⟩
  | 126 => ⟨S11x11, .f32⟩
  | 127 => ⟨S11x11, .bf16⟩
  | _ => ⟨S100000x11, .f32⟩

abbrev hbmTy0_1 (i : Nat) : BufTy := match i % 128 with
  | 0 => ⟨S4x11, .f32⟩
  | 1 => ⟨S4x11, .bf16⟩
  | 2 => ⟨S11x11, .f32⟩
  | 3 => ⟨S11x11, .bf16⟩
  | 4 => ⟨S11x11, .f32⟩
  | 5 => ⟨S11x11, .bf16⟩
  | 6 => ⟨S4x11, .f32⟩
  | 7 => ⟨S4x11, .bf16⟩
  | 8 => ⟨S1x11, .f32⟩
  | 9 => ⟨S1x11, .f32⟩
  | 10 => ⟨S3200000x11, .f32⟩
  | 11 => ⟨S_, .f32⟩
  | 12 => ⟨S100000x11, .f32⟩
  | 13 => ⟨S3200000x1, .i32⟩
  | 14 => ⟨S100000x11, .f32⟩
  | 15 => ⟨S_, .f32⟩
  | 16 => ⟨S11, .f32⟩
  | 17 => ⟨S_, .f32⟩
  | 18 => ⟨S11, .f32⟩
  | 19 => ⟨S11, .f32⟩
  | 20 => ⟨S_, .i32⟩
  | 21 => ⟨S_, .f32⟩
  | 22 => ⟨S11, .f32⟩
  | 23 => ⟨S1x11, .f32⟩
  | 24 => ⟨S_, .f32⟩
  | 25 => ⟨S1x11, .f32⟩
  | 26 => ⟨S1x11, .f32⟩
  | 27 => ⟨S100000x11, .f32⟩
  | 28 => ⟨S100000x11, .f32⟩
  | 29 => ⟨S100000x11, .f32⟩
  | 30 => ⟨S_, .f32⟩
  | 31 => ⟨S_, .f32⟩
  | 32 => ⟨S_, .f32⟩
  | 33 => ⟨S_, .f32⟩
  | 34 => ⟨S11, .f32⟩
  | 35 => ⟨S11, .f32⟩
  | 36 => ⟨S11, .f32⟩
  | 37 => ⟨S_, .f32⟩
  | 38 => ⟨S_, .i1⟩
  | 39 => ⟨S_, .f32⟩
  | 40 => ⟨S_, .f32⟩
  | 41 => ⟨S11, .f32⟩
  | 42 => ⟨S11, .f32⟩
  | 43 => ⟨S1x11, .f32⟩
  | 44 => ⟨S100000x11, .f32⟩
  | 45 => ⟨S100000x11, .f32⟩
  | 46 => ⟨S_, .f32⟩
  | 47 => ⟨S11, .f32⟩
  | 48 => ⟨S11, .f32⟩
  | 49 => ⟨S11, .f32⟩
  | 50 => ⟨S1x11, .f32⟩
  | 51 => ⟨S100000x11, .f32⟩
  | 52 => ⟨S100000x11, .f32⟩
  | 53 => ⟨S1x11, .f32⟩
  | 54 => ⟨S100000x11, .f32⟩
  | 55 => ⟨S100000x11, .f32⟩
  | 56 => ⟨S1x11, .f32⟩
  | 57 => ⟨S100000x11, .f32⟩
  | 58 => ⟨S100000x11, .f32⟩
  | 59 => ⟨S100000x11, .f32⟩
  | 60 => ⟨S_, .f32⟩
  | 61 => ⟨S1000x11, .f32⟩
  | 62 => ⟨S100000x1, .i32⟩
  | 63 => ⟨S1000x11, .f32⟩
  | 64 => ⟨S_, .f32⟩
  | 65 => ⟨S100000, .f32⟩
  | 66 => ⟨S_, .f32⟩
  | 67 => ⟨S1000, .f32⟩
  | 68 => ⟨S100000x1, .i32⟩
  | 69 => ⟨S1000, .f32⟩
  | 70 => ⟨S_, .f32⟩
  | 71 => ⟨S1000, .f32⟩
  | 72 => ⟨S1000, .f32⟩
  | 73 => ⟨S1000x1, .f32⟩
  | 74 => ⟨S1000x11, .f32⟩
  | 75 => ⟨S1000x11, .f32⟩
  | 76 => ⟨S1000x5, .f32⟩
  | 77 => ⟨S1x5, .f32⟩
  | 78 => ⟨S1000x5, .f32⟩
  | 79 => ⟨S1000x5, .f32⟩
  | 80 => ⟨S_, .f32⟩
  | 81 => ⟨S1000x5, .f32⟩
  | 82 => ⟨S1000x5, .f32⟩
  | 83 => ⟨S1000x5, .f32⟩
  | 84 => ⟨S1000x5, .f32⟩
  | 85 => ⟨S1000x5, .i1⟩
  | 86 => ⟨S1000x5, .f32⟩
  | 87 => ⟨S1000x5, .f32⟩
  | 88 => ⟨S1000x5, .f32⟩
  | 89 => ⟨S1000x5, .f32⟩
  | 90 => ⟨S1000x5, .f32⟩
  | 91 => ⟨S1000x5, .f32⟩
  | 92 => ⟨S1000x5, .f32⟩
  | 93 => ⟨S1000x5, .f32⟩
  | 94 => ⟨S1000x1, .f32⟩
  | 95 => ⟨S1x1, .f32⟩
  | 96 => ⟨S1000x1, .f32⟩
  | 97 => ⟨S1000x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | .local _ .vmem, ⟨0, _⟩ => ⟨S8000x11, .f32⟩
  | .local _ .vmem, ⟨1, _⟩ => ⟨S8000x11, .f32⟩
  | .local _ .vmem, ⟨2, _⟩ => ⟨S8000x11, .f32⟩
  | .local _ .vmem, ⟨3, _⟩ => ⟨S8000x11, .f32⟩
  | .local _ .vmem, ⟨4, _⟩ => ⟨S8000x4, .f32⟩
  | .local _ .vmem, ⟨5, _⟩ => ⟨S8000x4, .f32⟩
  | .local _ .vmem, ⟨6, _⟩ => ⟨S11x11, .bf16⟩
  | .local _ .vmem, ⟨7, _⟩ => ⟨S11x11, .bf16⟩
  | .local _ .vmem, ⟨8, _⟩ => ⟨S4x11, .bf16⟩
  | .local _ .vmem, ⟨9, _⟩ => ⟨S1x11, .f32⟩
  | .local _ .vmem, ⟨10, _⟩ => ⟨S11x11, .bf16⟩
  | .local _ .vmem, ⟨11, _⟩ => ⟨S11x11, .bf16⟩
  | .local _ .vmem, ⟨12, _⟩ => ⟨S4x11, .bf16⟩
  | .local _ .vmem, ⟨13, _⟩ => ⟨S1x11, .f32⟩
  | .local _ .vmem, ⟨14, _⟩ => ⟨S8000x11, .f32⟩
  | .local _ .vmem, ⟨15, _⟩ => ⟨S8000x11, .f32⟩
  | .local _ .vmem, ⟨16, _⟩ => ⟨S8000x11, .f32⟩
  | .local _ .vmem, ⟨17, _⟩ => ⟨S8000x11, .f32⟩
  | .local _ .vmem, ⟨18, _⟩ => ⟨S8000x11, .f32⟩
  | .local _ .vmem, ⟨19, _⟩ => ⟨S8000x11, .f32⟩
  | .local _ .vmem, ⟨20, _⟩ => ⟨S8000x4, .f32⟩
  | .local _ .vmem, ⟨21, _⟩ => ⟨S8000x4, .f32⟩
  | .local _ .vmem, ⟨22, _⟩ => ⟨S11x11, .bf16⟩
  | .local _ .vmem, ⟨23, _⟩ => ⟨S11x11, .bf16⟩
  | .local _ .vmem, ⟨24, _⟩ => ⟨S4x11, .bf16⟩
  | .local _ .vmem, ⟨25, _⟩ => ⟨S1x11, .f32⟩
  | .local _ .vmem, ⟨26, _⟩ => ⟨S11x11, .bf16⟩
  | .local _ .vmem, ⟨27, _⟩ => ⟨S11x11, .bf16⟩
  | .local _ .vmem, ⟨28, _⟩ => ⟨S4x11, .bf16⟩
  | .local _ .vmem, ⟨29, _⟩ => ⟨S1x11, .f32⟩
  | .local _ .vmem, ⟨30, _⟩ => ⟨S8000x11, .f32⟩
  | .local _ .vmem, ⟨31, _⟩ => ⟨S8000x11, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_c_5 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_6 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_7 : Ref sig .tc := ⟨.hbm, 106, rfl⟩
abbrev main_v56 : Ref sig .tc := ⟨.hbm, 107, rfl⟩
abbrev main_v57 : Ref sig .tc := ⟨.hbm, 108, rfl⟩
abbrev main_c_8 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_c_9 : Ref sig .tc := ⟨.hbm, 115, rfl⟩
abbrev main_v63 : Ref sig .tc := ⟨.hbm, 116, rfl⟩
abbrev main_v64 : Ref sig .tc := ⟨.hbm, 117, rfl⟩
abbrev main_c_10 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_11 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_12 : Ref sig .tc := ⟨.hbm, 143, rfl⟩
abbrev main_v88 : Ref sig .tc := ⟨.hbm, 144, rfl⟩
abbrev main_cst_13 : Ref sig .tc := ⟨.hbm, 145, rfl⟩
abbrev main_v89 : Ref sig .tc := ⟨.hbm, 146, rfl⟩
abbrev main_v90 : Ref sig .tc := ⟨.hbm, 147, rfl⟩
abbrev main_c_14 : Ref sig .tc := ⟨.hbm, 148, rfl⟩
abbrev main_call1_cst : Ref sig .tc := ⟨.hbm, 149, rfl⟩
abbrev main_call1_v0 : Ref sig .tc := ⟨.hbm, 150, rfl⟩
abbrev main_call1_v1 : Ref sig .tc := ⟨.hbm, 151, rfl⟩
abbrev main_call1_cst_0 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_v5 : Ref sig .tc := ⟨.hbm, 156, rfl⟩
abbrev main_call1_v6 : Ref sig .tc := ⟨.hbm, 157, rfl⟩
abbrev main_call1_v7 : Ref sig .tc := ⟨.hbm, 158, rfl⟩
abbrev main_call1_cst_1 : Ref sig .tc := ⟨.hbm, 159, rfl⟩
abbrev main_call1_v8 : Ref sig .tc := ⟨.hbm, 160, rfl⟩
abbrev main_call1_cst_2 : Ref sig .tc := ⟨.hbm, 161, rfl⟩
abbrev main_call1_v9 : Ref sig .tc := ⟨.hbm, 162, rfl⟩
abbrev main_call1_v10 : Ref sig .tc := ⟨.hbm, 163, rfl⟩
abbrev main_call1_v11 : Ref sig .tc := ⟨.hbm, 164, rfl⟩
abbrev main_call1_cst_3 : Ref sig .tc := ⟨.hbm, 165, rfl⟩
abbrev main_call1_v12 : Ref sig .tc := ⟨.hbm, 166, rfl⟩
abbrev main_call1_cst_4 : Ref sig .tc := ⟨.hbm, 167, rfl⟩
abbrev main_call1_call0_v0 : Ref sig .tc := ⟨.hbm, 168, rfl⟩
abbrev main_call1_call0_v1 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_15 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_cst_16 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_cst_17 : Ref sig .tc := ⟨.hbm, 192, rfl⟩
abbrev main_v111 : Ref sig .tc := ⟨.hbm, 193, rfl⟩
abbrev main_cst_18 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_19 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_call2_cst : Ref sig .tc := ⟨.hbm, 208, rfl⟩
abbrev main_call2_v0 : Ref sig .tc := ⟨.hbm, 209, rfl⟩
abbrev main_call2_v1 : Ref sig .tc := ⟨.hbm, 210, rfl⟩
abbrev main_call2_v2 : Ref sig .tc := ⟨.hbm, 211, rfl⟩
abbrev main_call2_v3 : Ref sig .tc := ⟨.hbm, 212, rfl⟩
abbrev main_call2_v4 : Ref sig .tc := ⟨.hbm, 213, rfl⟩
abbrev main_call2_v5 : Ref sig .tc := ⟨.hbm, 214, rfl⟩
abbrev main_call2_v6 : Ref sig .tc := ⟨.hbm, 215, rfl⟩
abbrev main_call2_v7 : Ref sig .tc := ⟨.hbm, 216, rfl⟩
abbrev main_call2_v8 : Ref sig .tc := ⟨.hbm, 217, rfl⟩
abbrev main_call2_v9 : Ref sig .tc := ⟨.hbm, 218, rfl⟩
abbrev main_call2_v10 : Ref sig .tc := ⟨.hbm, 219, rfl⟩
abbrev main_call2_v11 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S11x11 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x11 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x11 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x11 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x11 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x11 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x11 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x11 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x11 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x11 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S11x11 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S11x11 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x11 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x11 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S11x11 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S11x11 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x11 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x11 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S8000x11 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S26x11_S11x11_0_0 : S26x11.Slices ![0, 0] S11x11
  bitsLt_bf16_f32 : FTy.bits .bf16 < FTy.bits .f32
  slices_S26x11_S11x11_11_0 : S26x11.Slices ![11, 0] S11x11
  slices_S26x11_S4x11_22_0 : S26x11.Slices ![22, 0] S4x11
  shapeCasts_S11_S1x11 : S11.ShapeCasts S1x11
  inb_S8000x11_S8000x11_0_0 : ∀ a, (![0, 0] : Fin 2 → Nat) a + S8000x11.size a ≤ S8000x11.size a
  h_S8000x11 : 0 < S8000x11.numel
  shapeCasts_S8000x11_S8000x11 : S8000x11.ShapeCasts S8000x11
  inb_S8000x4_S8000x4_0_0 : ∀ a, (![0, 0] : Fin 2 → Nat) a + S8000x4.size a ≤ S8000x4.size a
  h_S8000x4 : 0 < S8000x4.numel
  inb_S11x11_S11x11_0_0 : ∀ a, (![0, 0] : Fin 2 → Nat) a + S11x11.size a ≤ S11x11.size a
  h_S11x11 : 0 < S11x11.numel
  shapeCasts_S11x11_S11x11 : S11x11.ShapeCasts S11x11
  inb_S4x11_S4x11_0_0 : ∀ a, (![0, 0] : Fin 2 → Nat) a + S4x11.size a ≤ S4x11.size a
  h_S4x11 : 0 < S4x11.numel
  shapeCasts_S4x11_S4x11 : S4x11.ShapeCasts S4x11
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S8000x11 : S1x11.Broadcasts S8000x11
  bcast_S_S100000x11 : S_.BroadcastsInDim S100000x11 (![] : Fin 0 → Fin S100000x11.rank)
  reducesTo_S100000x11_S11_d0 : S100000x11.ReducesTo [0] S11
  h_S_ : 0 < S_.numel
  bcast_S_S11 : S_.BroadcastsInDim S11 (![] : Fin 0 → Fin S11.rank)
  bcast_S11_S1x11_1 : S11.BroadcastsInDim S1x11 (![1] : Fin 1 → Fin S1x11.rank)
  bcast_S_S1x11 : S_.BroadcastsInDim S1x11 (![] : Fin 0 → Fin S1x11.rank)
  bcast_S1x11_S100000x11_0_1 : S1x11.BroadcastsInDim S100000x11 (![0, 1] : Fin 2 → Fin S100000x11.rank)
  bcast_S_S1000x11 : S_.BroadcastsInDim S1000x11 (![] : Fin 0 → Fin S1000x11.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x11_0_1 : S1000x1.BroadcastsInDim S1000x11 (![0, 1] : Fin 2 → Fin S1000x11.rank)
  bcast_S5_S1x5_1 : S5.BroadcastsInDim S1x5 (![1] : Fin 1 → Fin S1x5.rank)
  bcast_S1x5_S1000x5_0_1 : S1x5.BroadcastsInDim S1000x5 (![0, 1] : Fin 2 → Fin S1000x5.rank)
  bcast_S_S1000x5 : S_.BroadcastsInDim S1000x5 (![] : Fin 0 → Fin S1000x5.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S100000x11_S3200000x1_S3200000x11_1_0_n_n_0_1_111_wf : GatherDims.WF S100000x11 S3200000x1 S3200000x11 [1] [0] [] [0] [] 1 ![1, 11]
  dot_S8000x11_S11x11_S8000x11_1_0_0_1_n_n_wf : DotDims.WF S8000x11 S11x11 S8000x11 [1] [0] [0] [1] [] []
  dot_S8000x4_S4x11_S8000x11_1_0_0_1_n_n_wf : DotDims.WF S8000x4 S4x11 S8000x11 [1] [0] [0] [1] [] []
  scatter_S100000x11_S3200000x1_S3200000x11_1_0_0_1_wf : ScatterDims.WF S100000x11 S3200000x1 S3200000x11 [1] [0] [0] 1
  scatter_S1000x11_S100000x1_S100000x11_1_0_0_1_wf : ScatterDims.WF S1000x11 S100000x1 S100000x11 [1] [0] [0] 1
  scatter_S1000_S100000x1_S100000_n_0_0_1_wf : ScatterDims.WF S1000 S100000x1 S100000 [] [0] [0] 1
  dot_S1000x11_S11x5_S1000x5_1_0_0_1_n_n_wf : DotDims.WF S1000x11 S11x5 S1000x5 [1] [0] [0] [1] [] []
  dot_S1000x5_S5x1_S1000x1_1_0_0_1_n_n_wf : DotDims.WF S1000x5 S5x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x11.size a ≤ S3200000x11.size a
  hwx0_0 : ∀ i : grid0.Coords, EltTy.bits .f32 = 32 ∨ (Rect.block (s := S3200000x11) S8000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x11.size a ≤ S3200000x11.size a
  hwx0_1 : ∀ i : grid0.Coords, EltTy.bits .f32 = 32 ∨ (Rect.block (s := S3200000x11) S8000x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x4.size a ≤ S3200000x4.size a
  hwx0_2 : ∀ i : grid0.Coords, EltTy.bits .f32 = 32 ∨ (Rect.block (s := S3200000x4) S8000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11x11.size a ≤ S11x11.size a
  hwx0_3 : ∀ i : grid0.Coords, EltTy.bits .bf16 = 32 ∨ (Rect.block (s := S11x11) S11x11.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11x11.size a ≤ S11x11.size a
  hwx0_4 : ∀ i : grid0.Coords, EltTy.bits .bf16 = 32 ∨ (Rect.block (s := S11x11) S11x11.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x11.size a ≤ S4x11.size a
  hwx0_5 : ∀ i : grid0.Coords, EltTy.bits .bf16 = 32 ∨ (Rect.block (s := S4x11) S4x11.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x11.size a ≤ S1x11.size a
  hwx0_6 : ∀ i : grid0.Coords, EltTy.bits .f32 = 32 ∨ (Rect.block (s := S1x11) S1x11.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S11x11.size a ≤ S11x11.size a
  hwx0_7 : ∀ i : grid0.Coords, EltTy.bits .bf16 = 32 ∨ (Rect.block (s := S11x11) S11x11.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S11x11.size a ≤ S11x11.size a
  hwx0_8 : ∀ i : grid0.Coords, EltTy.bits .bf16 = 32 ∨ (Rect.block (s := S11x11) S11x11.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x11.size a ≤ S4x11.size a
  hwx0_9 : ∀ i : grid0.Coords, EltTy.bits .bf16 = 32 ∨ (Rect.block (s := S4x11) S4x11.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x11.size a ≤ S1x11.size a
  hwx0_10 : ∀ i : grid0.Coords, EltTy.bits .f32 = 32 ∨ (Rect.block (s := S1x11) S1x11.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x11.size a ≤ S3200000x11.size a
  hwx0_11 : ∀ i : grid0.Coords, EltTy.bits .f32 = 32 ∨ (Rect.block (s := S3200000x11) S8000x11.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x11.size a ≤ S3200000x11.size a
  hwx1_0 : ∀ i : grid1.Coords, EltTy.bits .f32 = 32 ∨ (Rect.block (s := S3200000x11) S8000x11.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x11.size a ≤ S3200000x11.size a
  hwx1_1 : ∀ i : grid1.Coords, EltTy.bits .f32 = 32 ∨ (Rect.block (s := S3200000x11) S8000x11.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x4.size a ≤ S3200000x4.size a
  hwx1_2 : ∀ i : grid1.Coords, EltTy.bits .f32 = 32 ∨ (Rect.block (s := S3200000x4) S8000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S11x11.size a ≤ S11x11.size a
  hwx1_3 : ∀ i : grid1.Coords, EltTy.bits .bf16 = 32 ∨ (Rect.block (s := S11x11) S11x11.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S11x11.size a ≤ S11x11.size a
  hwx1_4 : ∀ i : grid1.Coords, EltTy.bits .bf16 = 32 ∨ (Rect.block (s := S11x11) S11x11.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x11.size a ≤ S4x11.size a
  hwx1_5 : ∀ i : grid1.Coords, EltTy.bits .bf16 = 32 ∨ (Rect.block (s := S4x11) S4x11.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x11.size a ≤ S1x11.size a
  hwx1_6 : ∀ i : grid1.Coords, EltTy.bits .f32 = 32 ∨ (Rect.block (s := S1x11) S1x11.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S11x11.size a ≤ S11x11.size a
  hwx1_7 : ∀ i : grid1.Coords, EltTy.bits .bf16 = 32 ∨ (Rect.block (s := S11x11) S11x11.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S11x11.size a ≤ S11x11.size a
  hwx1_8 : ∀ i : grid1.Coords, EltTy.bits .bf16 = 32 ∨ (Rect.block (s := S11x11) S11x11.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4x11.size a ≤ S4x11.size a
  hwx1_9 : ∀ i : grid1.Coords, EltTy.bits .bf16 = 32 ∨ (Rect.block (s := S4x11) S4x11.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x11.size a ≤ S1x11.size a
  hwx1_10 : ∀ i : grid1.Coords, EltTy.bits .f32 = 32 ∨ (Rect.block (s := S1x11) S1x11.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S8000x11.size a ≤ S3200000x11.size a
  hwx1_11 : ∀ i : grid1.Coords, EltTy.bits .f32 = 32 ∨ (Rect.block (s := S3200000x11) S8000x11.size (cc1_transform_11 i) (hinb1_11 i)).WholeWords (EltTy.packing .f32)

variable [Facts₀]

def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def dot_S8000x11_S11x11_S8000x11_1_0_0_1_n_n : DotDims S8000x11 S11x11 S8000x11 where
  lhsContracting := [1]
  rhsContracting := [0]
  lhsNonContracting := [0]
  rhsNonContracting := [1]
  lhsBatch := []
  rhsBatch := []
  wf := dot_S8000x11_S11x11_S8000x11_1_0_0_1_n_n_wf
def dot_S8000x4_S4x11_S8000x11_1_0_0_1_n_n : DotDims S8000x4 S4x11 S8000x11 where
  lhsContracting := [1]
  rhsContracting := [0]
  lhsNonContracting := [0]
  rhsNonContracting := [1]
  lhsBatch := []
  rhsBatch := []
  wf := dot_S8000x4_S4x11_S8000x11_1_0_0_1_n_n_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def scatter_S1000x11_S100000x1_S100000x11_1_0_0_1 : ScatterDims S1000x11 S100000x1 S100000x11 where
  updateWindowDims := [1]
  insertedWindowDims := [0]
  scatterDimsToOperandDims := [0]
  indexVectorDim := 1
  wf := scatter_S1000x11_S100000x1_S100000x11_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x11_S11x5_S1000x5_1_0_0_1_n_n : DotDims S1000x11 S11x5 S1000x5 where
  lhsContracting := [1]
  rhsContracting := [0]
  lhsNonContracting := [0]
  rhsNonContracting := [1]
  lhsBatch := []
  rhsBatch := []
  wf := dot_S1000x11_S11x5_S1000x5_1_0_0_1_n_n_wf
def dot_S1000x5_S5x1_S1000x1_1_0_0_1_n_n : DotDims S1000x5 S5x1 S1000x1 where
  lhsContracting := [1]
  rhsContracting := [0]
  lhsNonContracting := [0]
  rhsNonContracting := [1]
  lhsBatch := []
  rhsBatch := []
  wf := dot_S1000x5_S5x1_S1000x1_1_0_0_1_n_n_wf

abbrev win0_0 : Pipeline.Window sig grid0 :=
  Pipeline.Window.ofSpec (Memref.whole main_v10) S8000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S11x11.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S11x11.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4x11.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x11.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S11x11.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S11x11.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S4x11.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1x11.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S8000x11.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v62) S8000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S8000x11.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v71) S11x11.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S11x11.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S4x11.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v82) S1x11.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v77) S11x11.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v79) S11x11.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v81) S4x11.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v83) S1x11.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v84) S8000x11.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x11 : Shape := ⟨2, ![100000, 11]⟩
abbrev S2x3200000 : Shape := ⟨2, ![2, 3200000]⟩
abbrev S3200000x4 : Shape := ⟨2, ![3200000, 4]⟩
abbrev S100000 : Shape := ⟨1, ![100000]⟩
abbrev S26x11 : Shape := ⟨2, ![26, 11]⟩
abbrev S11 : Shape := ⟨1, ![11]⟩
abbrev S11x5 : Shape := ⟨2, ![11, 5]⟩
abbrev S5 : Shape := ⟨1, ![5]⟩
abbrev S5x1 : Shape := ⟨2, ![5, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x11 : Shape := ⟨2, ![3200000, 11]⟩
abbrev S3200000x26 : Shape := ⟨2, ![3200000, 26]⟩
abbrev S1x11 : Shape := ⟨2, ![1, 11]⟩
abbrev S1000x11 : Shape := ⟨2, ![1000, 11]⟩
abbrev S100000x1 : Shape := ⟨2, ![100000, 1]⟩
abbrev S1000 : Shape := ⟨1, ![1000]⟩
abbrev S1000x1 : Shape := ⟨2, ![1000, 1]⟩
abbrev S1000x5 : Shape := ⟨2, ![1000, 5]⟩
abbrev S1x5 : Shape := ⟨2, ![1, 5]⟩
abbrev S1x1 : Shape := ⟨2, ![1, 1]⟩

abbrev nBuf : Space → Nat
  | .hbm => 260
  | .vmem => 0
  | .smem => 0
  | _ => 0

abbrev hbmTy0_0 (i : Nat) : BufTy := match i % 128 with
  | 0 => ⟨S100000x11, .f32⟩
  | 1 => ⟨S2x3200000, .i32⟩
  | 2 => ⟨S3200000x4, .f32⟩
  | 3 => ⟨S100000, .i32⟩
  | 4 => ⟨S26x11, .f32⟩
  | 5 => ⟨S11, .f32⟩
  | 6 => ⟨S26x11, .f32⟩
  | 7 => ⟨S11, .f32⟩
  | 8 => ⟨S11, .f32⟩
  | 9 => ⟨S11, .f32⟩
  | 10 => ⟨S26x11, .f32⟩
  | 11 => ⟨S11, .f32⟩
  | 12 => ⟨S26x11, .f32⟩
  | 13 => ⟨S11, .f32⟩
  | 14 => ⟨S11, .f32⟩
  | 15 => ⟨S11, .f32⟩
  | 16 => ⟨S11x5, .f32⟩
  | 17 => ⟨S5, .f32⟩
  | 18 => ⟨S5x1, .f32⟩
  | 19 => ⟨S1, .f32⟩
  | 20 => ⟨S1x3200000, .i32⟩
  | 21 => ⟨S3200000, .i32⟩
  | 22 => ⟨S1x3200000, .i32⟩
  | 23 => ⟨S3200000, .i32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x11, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x11, .f32⟩
  | 42 => ⟨S3200000x26, .f32⟩
  | 43 => ⟨S3200000x11, .f32⟩
  | 44 => ⟨S1x11, .f32⟩
  | 45 => ⟨S3200000x11, .f32⟩
  | 46 => ⟨S3200000x11, .f32⟩
  | 47 => ⟨S3200000x11, .f32⟩
  | 48 => ⟨S3200000x11, .f32⟩
  | 49 => ⟨S_, .f32⟩
  | 50 => ⟨S3200000x11, .f32⟩
  | 51 => ⟨S3200000x11, .f32⟩
  | 52 => ⟨S_, .f32⟩
  | 53 => ⟨S3200000x11, .f32⟩
  | 54 => ⟨S3200000x11, .f32⟩
  | 55 => ⟨S3200000x11, .f32⟩
  | 56 => ⟨S1x11, .f32⟩
  | 57 => ⟨S3200000x11, .f32⟩
  | 58 => ⟨S3200000x11, .f32⟩
  | 59 => ⟨S_, .f32⟩
  | 60 => ⟨S3200000x11, .f32⟩
  | 61 => ⟨S3200000x11, .f32⟩
  | 62 => ⟨S3200000x11, .f32⟩
  | 63 => ⟨S3200000x11, .f32⟩
  | 64 => ⟨S3200000x11, .i1⟩
  | 65 => ⟨S3200000x11, .f32⟩
  | 66 => ⟨S3200000x11, .f32⟩
  | 67 => ⟨S3200000x11, .f32⟩
  | 68 => ⟨S3200000x11, .f32⟩
  | 69 => ⟨S3200000x11, .f32⟩
  | 70 => ⟨S3200000x11, .f32⟩
  | 71 => ⟨S3200000x11, .f32⟩
  | 72 => ⟨S3200000x11, .f32⟩
  | 73 => ⟨S3200000x11, .f32⟩
  | 74 => ⟨S_, .f32⟩
  | 75 => ⟨S100000x11, .f32⟩
  | 76 => ⟨S3200000x1, .i32⟩
  | 77 => ⟨S100000x11, .f32⟩
  | 78 => ⟨S_, .f32⟩
  | 79 => ⟨S11, .f32⟩
  | 80 => ⟨S_, .f32⟩
  | 81 => ⟨S11, .f32⟩
  | 82 => ⟨S11, .f32⟩
  | 83 => ⟨S_, .i32⟩
  | 84 => ⟨S_, .f32⟩
  | 85 => ⟨S11, .f32⟩
  | 86 => ⟨S1x11, .f32⟩
  | 87 => ⟨S_, .f32⟩
  | 88 => ⟨S1x11, .f32⟩
  | 89 => ⟨S1x11, .f32⟩
  | 90 => ⟨S100000x11, .f32⟩
  | 91 => ⟨S100000x11, .f32⟩
  | 92 => ⟨S100000x11, .f32⟩
  | 93 => ⟨S_, .f32⟩
  | 94 => ⟨S_, .f32⟩
  | 95 => ⟨S_, .f32⟩
  | 96 => ⟨S_, .f32⟩
  | 97 => ⟨S11, .f32⟩
  | 98 => ⟨S11, .f32⟩
  | 99 => ⟨S11, .f32⟩
  | 100 => ⟨S_, .f32⟩
  | 101 => ⟨S_, .i1⟩
  | 102 => ⟨S_, .f32⟩
  | 103 => ⟨S_, .f32⟩
  | 104 => ⟨S11, .f32⟩
  | 105 => ⟨S11, .f32⟩
  | 106 => ⟨S1x11, .f32⟩
  | 107 => ⟨S100000x11, .f32⟩
  | 108 => ⟨S100000x11, .f32⟩
  | 109 => ⟨S_, .f32⟩
  | 110 => ⟨S11, .f32⟩
  | 111 => ⟨S11, .f32⟩
  | 112 => ⟨S11, .f32⟩
  | 113 => ⟨S1x11, .f32⟩
  | 114 => ⟨S100000x11, .f32⟩
  | 115 => ⟨S100000x11, .f32⟩
  | 116 => ⟨S1x11, .f32⟩
  | 117 => ⟨S100000x11, .f32⟩
  | 118 => ⟨S100000x11, .f32⟩
  | 119 => ⟨S1x11, .f32⟩
  | 120 => ⟨S100000x11, .f32⟩
  | 121 => ⟨S100000x11, .f32⟩
  | 122 => ⟨S100000x11, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x11, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x11, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x11, .f32⟩
  | 13 => ⟨S3200000x26, .f32⟩
  | 14 => ⟨S3200000x11, .f32⟩
  | 15 => ⟨S1x11, .f32⟩
  | 16 => ⟨S3200000x11, .f32⟩
  | 17 => ⟨S3200000x11, .f32⟩
  | 18 => ⟨S3200000x11, .f32⟩
  | 19 => ⟨S3200000x11, .f32⟩
  | 20 => ⟨S_, .f32⟩
  | 21 => ⟨S3200000x11, .f32⟩
  | 22 => ⟨S3200000x11, .f32⟩
  | 23 => ⟨S_, .f32⟩
  | 24 => ⟨S3200000x11, .f32⟩
  | 25 => ⟨S3200000x11, .f32⟩
  | 26 => ⟨S3200000x11, .f32⟩
  | 27 => ⟨S1x11, .f32⟩
  | 28 => ⟨S3200000x11, .f32⟩
  | 29 => ⟨S3200000x11, .f32⟩
  | 30 => ⟨S_, .f32⟩
  | 31 => ⟨S3200000x11, .f32⟩
  | 32 => ⟨S3200000x11, .f32⟩
  | 33 => ⟨S3200000x11, .f32⟩
  | 34 => ⟨S3200000x11, .f32⟩
  | 35 => ⟨S3200000x11, .i1⟩
  | 36 => ⟨S3200000x11, .f32⟩
  | 37 => ⟨S3200000x11, .f32⟩
  | 38 => ⟨S3200000x11, .f32⟩
  | 39 => ⟨S3200000x11, .f32⟩
  | 40 => ⟨S3200000x11, .f32⟩
  | 41 => ⟨S3200000x11, .f32⟩
  | 42 => ⟨S3200000x11, .f32⟩
  | 43 => ⟨S3200000x11, .f32⟩
  | 44 => ⟨S3200000x11, .f32⟩
  | 45 => ⟨S_, .f32⟩
  | 46 => ⟨S100000x11, .f32⟩
  | 47 => ⟨S3200000x1, .i32⟩
  | 48 => ⟨S100000x11, .f32⟩
  | 49 => ⟨S_, .f32⟩
  | 50 => ⟨S11, .f32⟩
  | 51 => ⟨S_, .f32⟩
  | 52 => ⟨S11, .f32⟩
  | 53 => ⟨S11, .f32⟩
  | 54 => ⟨S_, .i32⟩
  | 55 => ⟨S_, .f32⟩
  | 56 => ⟨S11, .f32⟩
  | 57 => ⟨S1x11, .f32⟩
  | 58 => ⟨S_, .f32⟩
  | 59 => ⟨S1x11, .f32⟩
  | 60 => ⟨S1x11, .f32⟩
  | 61 => ⟨S100000x11, .f32⟩
  | 62 => ⟨S100000x11, .f32⟩
  | 63 => ⟨S100000x11, .f32⟩
  | 64 => ⟨S_, .f32⟩
  | 65 => ⟨S_, .f32⟩
  | 66 => ⟨S_, .f32⟩
  | 67 => ⟨S_, .f32⟩
  | 68 => ⟨S11, .f32⟩
  | 69 => ⟨S11, .f32⟩
  | 70 => ⟨S11, .f32⟩
  | 71 => ⟨S_, .f32⟩
  | 72 => ⟨S_, .i1⟩
  | 73 => ⟨S_, .f32⟩
  | 74 => ⟨S_, .f32⟩
  | 75 => ⟨S11, .f32⟩
  | 76 => ⟨S11, .f32⟩
  | 77 => ⟨S1x11, .f32⟩
  | 78 => ⟨S100000x11, .f32⟩
  | 79 => ⟨S100000x11, .f32⟩
  | 80 => ⟨S_, .f32⟩
  | 81 => ⟨S11, .f32⟩
  | 82 => ⟨S11, .f32⟩
  | 83 => ⟨S11, .f32⟩
  | 84 => ⟨S1x11, .f32⟩
  | 85 => ⟨S100000x11, .f32⟩
  | 86 => ⟨S100000x11, .f32⟩
  | 87 => ⟨S1x11, .f32⟩
  | 88 => ⟨S100000x11, .f32⟩
  | 89 => ⟨S100000x11, .f32⟩
  | 90 => ⟨S1x11, .f32⟩
  | 91 => ⟨S100000x11, .f32⟩
  | 92 => ⟨S100000x11, .f32⟩
  | 93 => ⟨S100000x11, .f32⟩
  | 94 => ⟨S_, .f32⟩
  | 95 => ⟨S1000x11, .f32⟩
  | 96 => ⟨S100000x1, .i32⟩
  | 97 => ⟨S1000x11, .f32⟩
  | 98 => ⟨S_, .f32⟩
  | 99 => ⟨S100000, .f32⟩
  | 100 => ⟨S_, .f32⟩
  | 101 => ⟨S1000, .f32⟩
  | 102 => ⟨S100000x1, .i32⟩
  | 103 => ⟨S1000, .f32⟩
  | 104 => ⟨S_, .f32⟩
  | 105 => ⟨S1000, .f32⟩
  | 106 => ⟨S1000, .f32⟩
  | 107 => ⟨S1000x1, .f32⟩
  | 108 => ⟨S1000x11, .f32⟩
  | 109 => ⟨S1000x11, .f32⟩
  | 110 => ⟨S1000x5, .f32⟩
  | 111 => ⟨S1x5, .f32⟩
  | 112 => ⟨S1000x5, .f32⟩
  | 113 => ⟨S1000x5, .f32⟩
  | 114 => ⟨S_, .f32⟩
  | 115 => ⟨S1000x5, .f32⟩
  | 116 => ⟨S1000x5, .f32⟩
  | 117 => ⟨S1000x5, .f32⟩
  | 118 => ⟨S1000x5, .f32⟩
  | 119 => ⟨S1000x5, .i1⟩
  | 120 => ⟨S1000x5, .f32⟩
  | 121 => ⟨S1000x5, .f32⟩
  | 122 => ⟨S1000x5, .f32⟩
  | 123 => ⟨S1000x5, .f32⟩
  | 124 => ⟨S1000x5, .f32⟩
  | 125 => ⟨S1000x5, .f32⟩
  | 126 => ⟨S1000x5, .f32⟩
  | 127 => ⟨S1000x5, .f32⟩
  | _ => ⟨S100000x11, .f32⟩

abbrev hbmTy0_2 (i : Nat) : BufTy := match i % 128 with
  | 0 => ⟨S1000x1, .f32⟩
  | 1 => ⟨S1x1, .f32⟩
  | 2 => ⟨S1000x1, .f32⟩
  | 3 => ⟨S1000x1, .f32⟩
  | _ => ⟨S100000x11, .f32⟩

abbrev hbmTy (i : Nat) : BufTy := match i / 128 with
  | 0 => hbmTy0_0 i
  | 1 => hbmTy0_1 i
  | 2 => hbmTy0_2 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_v33 : Ref sig .tc := ⟨.hbm, 72, rfl⟩
abbrev main_v34 : Ref sig .tc := ⟨.hbm, 73, rfl⟩
abbrev main_cst_4 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_5 : Ref sig .tc := ⟨.hbm, 78, rfl⟩
abbrev main_v38 : Ref sig .tc := ⟨.hbm, 79, rfl⟩
abbrev main_cst_6 : Ref sig .tc := ⟨.hbm, 80, rfl⟩
abbrev main_v39 : Ref sig .tc := ⟨.hbm, 81, rfl⟩
abbrev main_v40 : Ref sig .tc := ⟨.hbm, 82, rfl⟩
abbrev main_c_7 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_8 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_c_9 : Ref sig .tc := ⟨.hbm, 123, rfl⟩
abbrev main_v58 : Ref sig .tc := ⟨.hbm, 124, rfl⟩
abbrev main_v59 : Ref sig .tc := ⟨.hbm, 125, rfl⟩
abbrev main_c_10 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_11 : Ref sig .tc := ⟨.hbm, 132, rfl⟩
abbrev main_v65 : Ref sig .tc := ⟨.hbm, 133, rfl⟩
abbrev main_v66 : Ref sig .tc := ⟨.hbm, 134, rfl⟩
abbrev main_c_12 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_cst_13 : Ref sig .tc := ⟨.hbm, 148, rfl⟩
abbrev main_v79 : Ref sig .tc := ⟨.hbm, 149, rfl⟩
abbrev main_v80 : Ref sig .tc := ⟨.hbm, 150, rfl⟩
abbrev main_cst_14 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_v5 : Ref sig .tc := ⟨.hbm, 164, rfl⟩
abbrev main_call2_v6 : Ref sig .tc := ⟨.hbm, 165, rfl⟩
abbrev main_call2_v7 : Ref sig .tc := ⟨.hbm, 166, rfl⟩
abbrev main_call2_v8 : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_v87 : Ref sig .tc := ⟨.hbm, 171, rfl⟩
abbrev main_v88 : Ref sig .tc := ⟨.hbm, 172, rfl⟩
abbrev main_cst_15 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_16 : Ref sig .tc := ⟨.hbm, 177, rfl⟩
abbrev main_v92 : Ref sig .tc := ⟨.hbm, 178, rfl⟩
abbrev main_cst_17 : Ref sig .tc := ⟨.hbm, 179, rfl⟩
abbrev main_v93 : Ref sig .tc := ⟨.hbm, 180, rfl⟩
abbrev main_v94 : Ref sig .tc := ⟨.hbm, 181, rfl⟩
abbrev main_c_18 : Ref sig .tc := ⟨.hbm, 182, rfl⟩
abbrev main_call3_cst : Ref sig .tc := ⟨.hbm, 183, rfl⟩
abbrev main_call3_v0 : Ref sig .tc := ⟨.hbm, 184, rfl⟩
abbrev main_call3_v1 : Ref sig .tc := ⟨.hbm, 185, rfl⟩
abbrev main_call3_cst_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_v7 : Ref sig .tc := ⟨.hbm, 192, rfl⟩
abbrev main_call3_cst_1 : Ref sig .tc := ⟨.hbm, 193, rfl⟩
abbrev main_call3_v8 : Ref sig .tc := ⟨.hbm, 194, rfl⟩
abbrev main_call3_cst_2 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_cst_3 : Ref sig .tc := ⟨.hbm, 199, rfl⟩
abbrev main_call3_v12 : Ref sig .tc := ⟨.hbm, 200, rfl⟩
abbrev main_call3_cst_4 : Ref sig .tc := ⟨.hbm, 201, rfl⟩
abbrev main_call3_call0_v0 : Ref sig .tc := ⟨.hbm, 202, rfl⟩
abbrev main_call3_call0_v1 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_cst_19 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_cst_20 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_cst_21 : Ref sig .tc := ⟨.hbm, 226, rfl⟩
abbrev main_v115 : Ref sig .tc := ⟨.hbm, 227, rfl⟩
abbrev main_cst_22 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_cst_23 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_call4_cst : Ref sig .tc := ⟨.hbm, 242, rfl⟩
abbrev main_call4_v0 : Ref sig .tc := ⟨.hbm, 243, rfl⟩
abbrev main_call4_v1 : Ref sig .tc := ⟨.hbm, 244, rfl⟩
abbrev main_call4_v2 : Ref sig .tc := ⟨.hbm, 245, rfl⟩
abbrev main_call4_v3 : Ref sig .tc := ⟨.hbm, 246, rfl⟩
abbrev main_call4_v4 : Ref sig .tc := ⟨.hbm, 247, rfl⟩
abbrev main_call4_v5 : Ref sig .tc := ⟨.hbm, 248, rfl⟩
abbrev main_call4_v6 : Ref sig .tc := ⟨.hbm, 249, rfl⟩
abbrev main_call4_v7 : Ref sig .tc := ⟨.hbm, 250, rfl⟩
abbrev main_call4_v8 : Ref sig .tc := ⟨.hbm, 251, rfl⟩
abbrev main_call4_v9 : Ref sig .tc := ⟨.hbm, 252, rfl⟩
abbrev main_call4_v10 : Ref sig .tc := ⟨.hbm, 253, rfl⟩
abbrev main_call4_v11 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_v132 : Ref sig .tc := ⟨.hbm, 259, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x11_S3200000x11_S3200000x4_S3200000x26_d1 : Shape.Concatenates [S3200000x11, S3200000x11, S3200000x4] S3200000x26 1
  bcast_S11_S1x11_1 : S11.BroadcastsInDim S1x11 (![1] : Fin 1 → Fin S1x11.rank)
  bcast_S1x11_S3200000x11_0_1 : S1x11.BroadcastsInDim S3200000x11 (![0, 1] : Fin 2 → Fin S3200000x11.rank)
  bcast_S_S3200000x11 : S_.BroadcastsInDim S3200000x11 (![] : Fin 0 → Fin S3200000x11.rank)
  bcast_S_S100000x11 : S_.BroadcastsInDim S100000x11 (![] : Fin 0 → Fin S100000x11.rank)
  reducesTo_S100000x11_S11_d0 : S100000x11.ReducesTo [0] S11
  h_S_ : 0 < S_.numel
  bcast_S_S11 : S_.BroadcastsInDim S11 (![] : Fin 0 → Fin S11.rank)
  bcast_S_S1x11 : S_.BroadcastsInDim S1x11 (![] : Fin 0 → Fin S1x11.rank)
  bcast_S1x11_S100000x11_0_1 : S1x11.BroadcastsInDim S100000x11 (![0, 1] : Fin 2 → Fin S100000x11.rank)
  bcast_S_S1000x11 : S_.BroadcastsInDim S1000x11 (![] : Fin 0 → Fin S1000x11.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x11_0_1 : S1000x1.BroadcastsInDim S1000x11 (![0, 1] : Fin 2 → Fin S1000x11.rank)
  bcast_S5_S1x5_1 : S5.BroadcastsInDim S1x5 (![1] : Fin 1 → Fin S1x5.rank)
  bcast_S1x5_S1000x5_0_1 : S1x5.BroadcastsInDim S1000x5 (![0, 1] : Fin 2 → Fin S1000x5.rank)
  bcast_S_S1000x5 : S_.BroadcastsInDim S1000x5 (![] : Fin 0 → Fin S1000x5.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S100000x11_S3200000x1_S3200000x11_1_0_n_n_0_1_111_wf : GatherDims.WF S100000x11 S3200000x1 S3200000x11 [1] [0] [] [0] [] 1 ![1, 11]
  dot_S3200000x26_S26x11_S3200000x11_1_0_0_1_n_n_wf : DotDims.WF S3200000x26 S26x11 S3200000x11 [1] [0] [0] [1] [] []
  scatter_S100000x11_S3200000x1_S3200000x11_1_0_0_1_wf : ScatterDims.WF S100000x11 S3200000x1 S3200000x11 [1] [0] [0] 1
  scatter_S1000x11_S100000x1_S100000x11_1_0_0_1_wf : ScatterDims.WF S1000x11 S100000x1 S100000x11 [1] [0] [0] 1
  scatter_S1000_S100000x1_S100000_n_0_0_1_wf : ScatterDims.WF S1000 S100000x1 S100000 [] [0] [0] 1
  dot_S1000x11_S11x5_S1000x5_1_0_0_1_n_n_wf : DotDims.WF S1000x11 S11x5 S1000x5 [1] [0] [0] [1] [] []
  dot_S1000x5_S5x1_S1000x1_1_0_0_1_n_n_wf : DotDims.WF S1000x5 S5x1 S1000x1 [1] [0] [0] [1] [] []

variable [Facts₀]

def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def dot_S3200000x26_S26x11_S3200000x11_1_0_0_1_n_n : DotDims S3200000x26 S26x11 S3200000x11 where
  lhsContracting := [1]
  rhsContracting := [0]
  lhsNonContracting := [0]
  rhsNonContracting := [1]
  lhsBatch := []
  rhsBatch := []
  wf := dot_S3200000x26_S26x11_S3200000x11_1_0_0_1_n_n_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def scatter_S1000x11_S100000x1_S100000x11_1_0_0_1 : ScatterDims S1000x11 S100000x1 S100000x11 where
  updateWindowDims := [1]
  insertedWindowDims := [0]
  scatterDimsToOperandDims := [0]
  indexVectorDim := 1
  wf := scatter_S1000x11_S100000x1_S100000x11_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x11_S11x5_S1000x5_1_0_0_1_n_n : DotDims S1000x11 S11x5 S1000x5 where
  lhsContracting := [1]
  rhsContracting := [0]
  lhsNonContracting := [0]
  rhsNonContracting := [1]
  lhsBatch := []
  rhsBatch := []
  wf := dot_S1000x11_S11x5_S1000x5_1_0_0_1_n_n_wf
def dot_S1000x5_S5x1_S1000x1_1_0_0_1_n_n : DotDims S1000x5 S5x1 S1000x1 where
  lhsContracting := [1]
  rhsContracting := [0]
  lhsNonContracting := [0]
  rhsNonContracting := [1]
  lhsBatch := []
  rhsBatch := []
  wf := dot_S1000x5_S5x1_S1000x1_1_0_0_1_n_n_wf

class Facts : Prop extends Facts₀ where

variable [Facts]
-- ==== Proof.KernelRun.lean ====
import proofs.«128043_j25649544692460_2_alg».proof.Proof.Gen.KernelIdeal.Frame

/-! # The kernel program's run, with its result named

From any launch memory with zero counters, every weakly fair execution of the kernel program's entry function on the
TensorCores terminates without fault, and in every final state the result array holds the last boundary's contents
`Gen.W11` read at the result's reference, while each of the twenty argument arrays holds what it held at launch.
The last boundary's contents are the fold of the host stretches and of the two regions' write-backs from the launch
memory, so the result is named as a function of the launch memory alone. -/

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the entry function at any `F`: termination without fault from any memory with zero counters, and in
    every final state the result array at the last boundary's contents and every argument array as launched. Each
    unscoped buffer is read against the final state at the last boundary's contents; the result is one of them, and
    each argument's last contents walk back to the launch memory. -/
theorem run : θ_run defs (onTc (τ := τ) (main (F := F))) ⟨m, fun _ => 0, ρ⟩ (fun r => ∀ c : Dev nD,
      r.2.mem ((c.tc : Thread nD τ).loc main_v128) = W11 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v128 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c)⟩)

end Cert.KernelIdeal.KernelRun

end
-- ==== Proof.RefRun.lean ====
import proofs.«128043_j25649544692460_2_alg».proof.Proof.Gen.ReferenceIdeal
import Idealize.ShloMosaic.Lib.StableHlo.Run

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference program's run

@main of the reference is a straight line of 240 tensor operations once its five calls are written out at their call
sites (each callee operation over the call's own buffer record, the callee's arguments replaced by what the call
passes). The line is cut into five consecutive chunks; `ops` is their concatenation, `main_eq` says @main is that
line, and `run` reads every buffer after any fair execution as the fold of the line over the launch contents. -/

/-- Layer 1 up to its second gather: the two index rows sliced out of the edge table and flattened, each wrapped into the node range (a negative index has the node count added), and the node features gathered at the receivers and at the senders. (22 operations.) -/
abbrev opsA : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v3 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v3 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v3 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S100000x11_S3200000x1_S3200000x11_1_0_n_n_0_1_111 x i) : (⟨S100000x11, .f32⟩ : BufTy).Contents (Elt F) → (⟨S3200000x1, .i32⟩ : BufTy).Contents (Elt F) → (⟨S3200000x11, .f32⟩ : BufTy).Contents (Elt F)),
    StableHlo.nullary main_c_1 (constantI S_ 32 0#32),
    StableHlo.unary main_c_1 main_v11 (broadcastInDim S3200000 ![] bcast_S_S3200000 : (⟨S_, .i32⟩ : BufTy).Contents (Elt F) → (⟨S3200000, .i32⟩ : BufTy).Contents (Elt F)),
    StableHlo.binary main_v1 main_v11 main_v12 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v13 (broadcastInDim S3200000 ![] bcast_S_S3200000 : (⟨S_, .i32⟩ : BufTy).Contents (Elt F) → (⟨S3200000, .i32⟩ : BufTy).Contents (Elt F)),
    StableHlo.binary main_v1 main_v13 main_v14 (addi : (⟨S3200000, .i32⟩ : BufTy).Contents (Elt F) → (⟨S3200000, .i32⟩ : BufTy).Contents (Elt F) → (⟨S3200000, .i32⟩ : BufTy).Contents (Elt F)),
    StableHlo.ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v15 main_v16 (broadcastInDim S3200000x1 ![0] bcast_S3200000_S3200000x1_0 : (⟨S3200000, .i32⟩ : BufTy).Contents (Elt F) → (⟨S3200000x1, .i32⟩ : BufTy).Contents (Elt F)),
    StableHlo.binary main_arg0 main_v16 main_v17 ((fun x i => Host.gather gather_S100000x11_S3200000x1_S3200000x11_1_0_n_n_0_1_111 x i) : (⟨S100000x11, .f32⟩ : BufTy).Contents (Elt F) → (⟨S3200000x1, .i32⟩ : BufTy).Contents (Elt F) → (⟨S3200000x11, .f32⟩ : BufTy).Contents (Elt F)) ]

/-- Layer 1's edge message: the gathered rows and the edge attributes concatenated, the gate (a sigmoid of an affine map) and the core (a softplus of another affine map, the outlined softplus written out over its own buffers), and their product. (32 operations.) -/
abbrev opsM1 : List (HloOp τ sig (Elt F)) :=
  [ StableHlo.nary ![main_v10, main_v17, main_arg2] main_v18 (fun u => concatenate S3200000x26 1 [⟨S3200000x11, u 0⟩, ⟨S3200000x11, u 1⟩, ⟨S3200000x4, u 2⟩] concatenates_S3200000x11_S3200000x11_S3200000x4_S3200000x26_d1),
    StableHlo.binary main_v18 main_arg4 main_v19 ((fun l r => Host.dotGeneral dot_S3200000x26_S26x11_S3200000x11_1_0_0_1_n_n none l r) : (⟨S3200000x26, .f32⟩ : BufTy).Contents (Elt F) → (⟨S26x11, .f32⟩ : BufTy).Contents (Elt F) → (⟨S3200000x11, .f32⟩ : BufTy).Contents (Elt F)),
    StableHlo.unary main_arg5 main_v20 (broadcastInDim S1x11 ![1] bcast_S11_S1x11_1 : (⟨S11, .f32⟩ : BufTy).Contents (Elt F) → (⟨S1x11, .f32⟩ : BufTy).Contents (Elt F)),
    StableHlo.unary main_v20 main_v21 (broadcastInDim S3200000x11 ![0, 1] bcast_S1x11_S3200000x11_0_1 : (⟨S1x11, .f32⟩ : BufTy).Contents (Elt F) → (⟨S3200000x11, .f32⟩ : BufTy).Contents (Elt F)),
    StableHlo.binary main_v19 main_v21 main_v22 (addf : (⟨S3200000x11, .f32⟩ : BufTy).Contents (Elt F) → (⟨S3200000x11, .f32⟩ : BufTy).Contents (Elt F) → (⟨S3200000x11, .f32⟩ : BufTy).Contents (Elt F)),
    StableHlo.unary main_v22 main_v23 (Host.negf : (⟨S3200000x11, .f32⟩ : BufTy).Contents (Elt F) → (⟨S3200000x11, .f32⟩ : BufTy).Contents (Elt F)),
    StableHlo.unary main_v23 main_v24 (Host.exp : (⟨S3200000x11, .f32⟩ : BufTy).Contents (Elt F) → (⟨S3200000x11, .f32⟩ : BufTy).Contents (Elt F)),
    StableHlo.nullary main_cst (constant S_ .f32 0x3F800000#32),
    StableHlo.unary main_cst main_v25 (broadcastInDim S3200000x11 ![] bcast_S_S3200000x11 : (⟨S_, .f32⟩ : BufTy).Contents (Elt F) → (⟨S3200000x11, .f32⟩ : BufTy).Contents (Elt F)),
    StableHlo.binary main_v25 main_v24 main_v26 (addf : (⟨S3200000x11, .f32⟩ : BufTy).Contents (Elt F) → (⟨S3200000x11, .f32⟩ : BufTy).Contents (Elt F) → (⟨S3200000x11, .f32⟩ : BufTy).Contents (Elt F)),
    StableHlo.nullary main_cst_3 (constant S_ .f32 0x3F800000#32),
    StableHlo.unary main_cst_3 main_v27 (broadcastInDim S3200000x11 ![] bcast_S_S3200000x11 : (⟨S_, .f32⟩ : BufTy).Contents (Elt F) → (⟨S3200000x11, .f32⟩ : BufTy).Contents (Elt F)),
    StableHlo.binary main_v27 main_v26 main_v28 (Host.divf : (⟨S3200000x11, .f32⟩ : BufTy).Contents (Elt F) → (⟨S3200000x11, .f32⟩ : BufTy).Contents (Elt F) → (⟨S3200000x11, .f32⟩ : BufTy).Contents (Elt F)),
    StableHlo.binary main_v18 main_arg6 main_v29 ((fun l r => Host.dotGeneral dot_S3200000x26_S26x11_S3200000x11_1_0_0_1_n_n none l r) : (⟨S3200000x26, .f32⟩ : BufTy).Contents (Elt F) → (⟨S26x11, .f32⟩ : BufTy).Contents (Elt F) → (⟨S3200000x11, .f32⟩ : BufTy).Contents (Elt F)),
    StableHlo.unary main_arg7 main_v30 (broadcastInDim S1x11 ![1] bcast_S11_S1x11_1 : (⟨S11, .f32⟩ : BufTy).Contents (Elt F) → (⟨S1x11, .f32⟩ : BufTy).Contents (Elt F)),
    StableHlo.unary main_v30 main_v31 (broadcastInDim S3200000x11 ![0, 1] bcast_S1x11_S3200000x11_0_1 : (⟨S1x11, .f32⟩ : BufTy).Contents (Elt F) → (⟨S3200000x11, .f32⟩ : BufTy).Contents (Elt F)),
    StableHlo.binary main_v29 main_v31 main_v32 (addf : (⟨S3200000x11, .f32⟩ : BufTy).Contents (Elt F) → (⟨S3200000x11, .f32⟩ : BufTy).Contents (Elt F) → (⟨S3200000x11, .f32⟩ : BufTy).Contents (Elt F)),
    StableHlo.TRef.nullary main_call0.cst (constant S_ .f32 0x00000000#32),
    StableHlo.TRef.unary main_call0.cst main_call0.v0 (broadcastInDim S3200000x11 ![] bcast_S_S3200000x11),
    StableHlo.TRef.binary (.of main_v32 : StableHlo.TRef sig ⟨S3200000x11, .f32⟩) main_call0.v0 main_call0.v1 maximumf,
    StableHlo.TRef.unary main_call0.cst main_call0.v2 (broadcastInDim S3200000x11 ![] bcast_S_S3200000x11),
    StableHlo.TRef.binary (.of main_v32 : StableHlo.TRef sig ⟨S3200000x11, .f32⟩) main_call0.v2 main_call0.v3 subf,
    StableHlo.TRef.binary main_call0.v3 main_call0.v3 main_call0.v4 (cmpf .une),
    StableHlo.TRef.unary main_call0.cst main_call0.v5 (broadcastInDim S3200000x11 ![] bcast_S_S3200000x11),
    StableHlo.TRef.binary (.of main_v32 : StableHlo.TRef sig ⟨S3200000x11, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.binary main_v28 main_v33 main_v34 (mulf : (⟨S3200000x11, .f32⟩ : BufTy).Contents (Elt F) → (⟨S3200000x11, .f32⟩ : BufTy).Contents (Elt F) → (⟨S3200000x11, .f32⟩ : BufTy).Contents (Elt F)) ]

/-- From layer 1's messages to layer 2's gathers: the scatter-add of the messages at the receivers, the batch mean and variance over the nodes (the outlined variance and its select written out), the normalisation with scale and shift, the residual sum, and layer 2's two wrapped gathers of that sum. (67 operations.) -/
abbrev opsB : List (HloOp τ sig (Elt F)) :=
  [ StableHlo.nullary main_cst_4 (constant S_ .f32 0x00000000#32),
    StableHlo.unary main_cst_4 main_v35 (broadcastInDim S100000x11 ![] bcast_S_S100000x11 : (⟨S_, .f32⟩ : BufTy).Contents (Elt F) → (⟨S100000x11, .f32⟩ : BufTy).Contents (Elt F)),
    StableHlo.unary main_v3 main_v36 (broadcastInDim S3200000x1 ![0] bcast_S3200000_S3200000x1_0 : (⟨S3200000, .i32⟩ : BufTy).Contents (Elt F) → (⟨S3200000x1, .i32⟩ : BufTy).Contents (Elt F)),
    StableHlo.ternary main_v35 main_v36 main_v34 main_v37 ((fun x i u => Host.scatterAdd scatter_S100000x11_S3200000x1_S3200000x11_1_0_0_1 x i u) : (⟨S100000x11, .f32⟩ : BufTy).Contents (Elt F) → (⟨S3200000x1, .i32⟩ : BufTy).Contents (Elt F) → (⟨S3200000x11, .f32⟩ : BufTy).Contents (Elt F) → (⟨S100000x11, .f32⟩ : BufTy).Contents (Elt F)),
    StableHlo.nullary main_cst_5 (constant S_ .f32 0x00000000#32),
    StableHlo.binary main_v37 main_cst_5 main_v38 ((fun x v => Host.reduceAdd x v reducesTo_S100000x11_S11_d0 h_S_) : (⟨S100000x11, .f32⟩ : BufTy).Contents (Elt F) → (⟨S_, .f32⟩ : BufTy).Contents (Elt F) → (⟨S11, .f32⟩ : BufTy).Contents (Elt F)),
    StableHlo.nullary main_cst_6 (constant S_ .f32 0x47C35000#32),
    StableHlo.unary main_cst_6 main_v39 (broadcastInDim S11 ![] bcast_S_S11 : (⟨S_, .f32⟩ : BufTy).Contents (Elt F) → (⟨S11, .f32⟩ : BufTy).Contents (Elt F)),
    StableHlo.binary main_v38 main_v39 main_v40 (Host.divf : (⟨S11, .f32⟩ : BufTy).Contents (Elt F) → (⟨S11, .f32⟩ : BufTy).Contents (Elt F) → (⟨S11, .f32⟩ : BufTy).Contents (Elt F)),
    StableHlo.nullary main_c_7 (constantI S_ 32 0#32),
    StableHlo.TRef.nullary main_call1.cst (constant S_ .f32 0x00000000#32),
    StableHlo.TRef.binary (.of main_v37 : StableHlo.TRef sig ⟨S100000x11, .f32⟩) main_call1.cst main_call1.v0 (fun x v => Host.reduceAdd x v reducesTo_S100000x11_S11_d0 h_S_),
    StableHlo.TRef.unary main_call1.v0 main_call1.v1 (broadcastInDim S1x11 ![1] bcast_S11_S1x11_1),
    StableHlo.TRef.nullary main_call1.cst_0 (constant S_ .f32 0x47C35000#32),
    StableHlo.TRef.unary main_call1.cst_0 main_call1.v2 (broadcastInDim S1x11 ![] bcast_S_S1x11),
    StableHlo.TRef.binary main_call1.v1 main_call1.v2 main_call1.v3 Host.divf,
    StableHlo.TRef.unary main_call1.v3 main_call1.v4 (broadcastInDim S100000x11 ![0, 1] bcast_S1x11_S100000x11_0_1),
    StableHlo.TRef.binary (.of main_v37 : StableHlo.TRef sig ⟨S100000x11, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x11_S11_d0 h_S_),
    StableHlo.TRef.unary main_call1.v8 main_call1.v10 (broadcastInDim S11 ![] bcast_S_S11),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S11 ![] bcast_S_S11),
    StableHlo.TRef.ternary main_call1.v12 main_call1.v11 main_call1.call0.v1 main_call1.call0.v2 (fun p a b => select (broadcastInDim S11 ![] bcast_S_S11 p) a b),
    StableHlo.unary main_v40 main_v42 (broadcastInDim S1x11 ![1] bcast_S11_S1x11_1 : (⟨S11, .f32⟩ : BufTy).Contents (Elt F) → (⟨S1x11, .f32⟩ : BufTy).Contents (Elt F)),
    StableHlo.unary main_v42 main_v43 (broadcastInDim S100000x11 ![0, 1] bcast_S1x11_S100000x11_0_1 : (⟨S1x11, .f32⟩ : BufTy).Contents (Elt F) → (⟨S100000x11, .f32⟩ : BufTy).Contents (Elt F)),
    StableHlo.binary main_v37 main_v43 main_v44 (subf : (⟨S100000x11, .f32⟩ : BufTy).Contents (Elt F) → (⟨S100000x11, .f32⟩ : BufTy).Contents (Elt F) → (⟨S100000x11, .f32⟩ : BufTy).Contents (Elt F)),
    StableHlo.nullary main_cst_8 (constant S_ .f32 0x3727C5AC#32),
    StableHlo.unary main_cst_8 main_v45 (broadcastInDim S11 ![] bcast_S_S11 : (⟨S_, .f32⟩ : BufTy).Contents (Elt F) → (⟨S11, .f32⟩ : BufTy).Contents (Elt F)),
    StableHlo.binary main_v41 main_v45 main_v46 (addf : (⟨S11, .f32⟩ : BufTy).Contents (Elt F) → (⟨S11, .f32⟩ : BufTy).Contents (Elt F) → (⟨S11, .f32⟩ : BufTy).Contents (Elt F)),
    StableHlo.unary main_v46 main_v47 (Host.rsqrt : (⟨S11, .f32⟩ : BufTy).Contents (Elt F) → (⟨S11, .f32⟩ : BufTy).Contents (Elt F)),
    StableHlo.unary main_v47 main_v48 (broadcastInDim S1x11 ![1] bcast_S11_S1x11_1 : (⟨S11, .f32⟩ : BufTy).Contents (Elt F) → (⟨S1x11, .f32⟩ : BufTy).Contents (Elt F)),
    StableHlo.unary main_v48 main_v49 (broadcastInDim S100000x11 ![0, 1] bcast_S1x11_S100000x11_0_1 : (⟨S1x11, .f32⟩ : BufTy).Contents (Elt F) → (⟨S100000x11, .f32⟩ : BufTy).Contents (Elt F)),
    StableHlo.binary main_v44 main_v49 main_v50 (mulf : (⟨S100000x11, .f32⟩ : BufTy).Contents (Elt F) → (⟨S100000x11, .f32⟩ : BufTy).Contents (Elt F) → (⟨S100000x11, .f32⟩ : BufTy).Contents (Elt F)),
    StableHlo.unary main_arg8 main_v51 (broadcastInDim S1x11 ![1] bcast_S11_S1x11_1 : (⟨S11, .f32⟩ : BufTy).Contents (Elt F) → (⟨S1x11, .f32⟩ : BufTy).Contents (Elt F)),
    StableHlo.unary main_v51 main_v52 (broadcastInDim S100000x11 ![0, 1] bcast_S1x11_S100000x11_0_1 : (⟨S1x11, .f32⟩ : BufTy).Contents (Elt F) → (⟨S100000x11, .f32⟩ : BufTy).Contents (Elt F)),
    StableHlo.binary main_v50 main_v52 main_v53 (mulf : (⟨S100000x11, .f32⟩ : BufTy).Contents (Elt F) → (⟨S100000x11, .f32⟩ : BufTy).Contents (Elt F) → (⟨S100000x11, .f32⟩ : BufTy).Contents (Elt F)),
    StableHlo.unary main_arg9 main_v54 (broadcastInDim S1x11 ![1] bcast_S11_S1x11_1 : (⟨S11, .f32⟩ : BufTy).Contents (Elt F) → (⟨S1x11, .f32⟩ : BufTy).Contents (Elt F)),
    StableHlo.unary main_v54 main_v55 (broadcastInDim S100000x11 ![0, 1] bcast_S1x11_S100000x11_0_1 : (⟨S1x11, .f32⟩ : BufTy).Contents (Elt F) → (⟨S100000x11, .f32⟩ : BufTy).Contents (Elt F)),
    StableHlo.binary main_v53 main_v55 main_v56 (addf : (⟨S100000x11, .f32⟩ : BufTy).Contents (Elt F) → (⟨S100000x11, .f32⟩ : BufTy).Contents (Elt F) → (⟨S100000x11, .f32⟩ : BufTy).Contents (Elt F)),
    StableHlo.binary main_arg0 main_v56 main_v57 (addf : (⟨S100000x11, .f32⟩ : BufTy).Contents (Elt F) → (⟨S100000x11, .f32⟩ : BufTy).Contents (Elt F) → (⟨S100000x11, .f32⟩ : BufTy).Contents (Elt F)),
    StableHlo.nullary main_c_9 (constantI S_ 32 0#32),
    StableHlo.unary main_c_9 main_v58 (broadcastInDim S3200000 ![] bcast_S_S3200000 : (⟨S_, .i32⟩ : BufTy).Contents (Elt F) → (⟨S3200000, .i32⟩ : BufTy).Contents (Elt F)),
    StableHlo.binary main_v3 main_v58 main_v59 (cmpi .slt : (⟨S3200000, .i32⟩ : BufTy).Contents (Elt F) → (⟨S3200000, .i32⟩ : BufTy).Contents (Elt F) → (⟨S3200000, .i1⟩ : BufTy).Contents (Elt F)),
    StableHlo.nullary main_c_10 (constantI S_ 32 100000#32),
    StableHlo.unary main_c_10 main_v60 (broadcastInDim S3200000 ![] bcast_S_S3200000 : (⟨S_, .i32⟩ : BufTy).Contents (Elt F) → (⟨S3200000, .i32⟩ : BufTy).Contents (Elt F)),
    StableHlo.binary main_v3 main_v60 main_v61 (addi : (⟨S3200000, .i32⟩ : BufTy).Contents (Elt F) → (⟨S3200000, .i32⟩ : BufTy).Contents (Elt F) → (⟨S3200000, .i32⟩ : BufTy).Contents (Elt F)),
    StableHlo.ternary main_v59 main_v61 main_v3 main_v62 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v62 main_v63 (broadcastInDim S3200000x1 ![0] bcast_S3200000_S3200000x1_0 : (⟨S3200000, .i32⟩ : BufTy).Contents (Elt F) → (⟨S3200000x1, .i32⟩ : BufTy).Contents (Elt F)),
    StableHlo.binary main_v57 main_v63 main_v64 ((fun x i => Host.gather gather_S100000x11_S3200000x1_S3200000x11_1_0_n_n_0_1_111 x i) : (⟨S100000x11, .f32⟩ : BufTy).Contents (Elt F) → (⟨S3200000x1, .i32⟩ : BufTy).Contents (Elt F) → (⟨S3200000x11, .f32⟩ : BufTy).Contents (Elt F)),
    StableHlo.nullary main_c_11 (constantI S_ 32 0#32),
    StableHlo.unary main_c_11 main_v65 (broadcastInDim S3200000 ![] bcast_S_S3200000 : (⟨S_, .i32⟩ : BufTy).Contents (Elt F) → (⟨S3200000, .i32⟩ : BufTy).Contents (Elt F)),
    StableHlo.binary main_v1 main_v65 main_v66 (cmpi .slt : (⟨S3200000, .i32⟩ : BufTy).Contents (Elt F) → (⟨S3200000, .i32⟩ : BufTy).Contents (Elt F) → (⟨S3200000, .i1⟩ : BufTy).Contents (Elt F)),
    StableHlo.nullary main_c_12 (constantI S_ 32 100000#32),
    StableHlo.unary main_c_12 main_v67 (broadcastInDim S3200000 ![] bcast_S_S3200000 : (⟨S_, .i32⟩ : BufTy).Contents (Elt F) → (⟨S3200000, .i32⟩ : BufTy).Contents (Elt F)),
    StableHlo.binary main_v1 main_v67 main_v68 (addi : (⟨S3200000, .i32⟩ : BufTy).Contents (Elt F) → (⟨S3200000, .i32⟩ : BufTy).Contents (Elt F) → (⟨S3200000, .i32⟩ : BufTy).Contents (Elt F)),
    StableHlo.ternary main_v66 main_v68 main_v1 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v69 main_v70 (broadcastInDim S3200000x1 ![0] bcast_S3200000_S3200000x1_0 : (⟨S3200000, .i32⟩ : BufTy).Contents (Elt F) → (⟨S3200000x1, .i32⟩ : BufTy).Contents (Elt F)),
    StableHlo.binary main_v57 main_v70 main_v71 ((fun x i => Host.gather gather_S100000x11_S3200000x1_S3200000x11_1_0_n_n_0_1_111 x i) : (⟨S100000x11, .f32⟩ : BufTy).Contents (Elt F) → (⟨S3200000x1, .i32⟩ : BufTy).Contents (Elt F) → (⟨S3200000x11, .f32⟩ : BufTy).Contents (Elt F)) ]

/-- Layer 2's edge message: concatenation, gate, softplus core (written out over the second call's buffers), product. (32 operations.) -/
abbrev opsM2 : List (HloOp τ sig (Elt F)) :=
  [ StableHlo.nary ![main_v64, main_v71, main_arg2] main_v72 (fun u => concatenate S3200000x26 1 [⟨S3200000x11, u 0⟩, ⟨S3200000x11, u 1⟩, ⟨S3200000x4, u 2⟩] concatenates_S3200000x11_S3200000x11_S3200000x4_S3200000x26_d1),
    StableHlo.binary main_v72 main_arg10 main_v73 ((fun l r => Host.dotGeneral dot_S3200000x26_S26x11_S3200000x11_1_0_0_1_n_n none l r) : (⟨S3200000x26, .f32⟩ : BufTy).Contents (Elt F) → (⟨S26x11, .f32⟩ : BufTy).Contents (Elt F) → (⟨S3200000x11, .f32⟩ : BufTy).Contents (Elt F)),
    StableHlo.unary main_arg11 main_v74 (broadcastInDim S1x11 ![1] bcast_S11_S1x11_1 : (⟨S11, .f32⟩ : BufTy).Contents (Elt F) → (⟨S1x11, .f32⟩ : BufTy).Contents (Elt F)),
    StableHlo.unary main_v74 main_v75 (broadcastInDim S3200000x11 ![0, 1] bcast_S1x11_S3200000x11_0_1 : (⟨S1x11, .f32⟩ : BufTy).Contents (Elt F) → (⟨S3200000x11, .f32⟩ : BufTy).Contents (Elt F)),
    StableHlo.binary main_v73 main_v75 main_v76 (addf : (⟨S3200000x11, .f32⟩ : BufTy).Contents (Elt F) → (⟨S3200000x11, .f32⟩ : BufTy).Contents (Elt F) → (⟨S3200000x11, .f32⟩ : BufTy).Contents (Elt F)),
    StableHlo.unary main_v76 main_v77 (Host.negf : (⟨S3200000x11, .f32⟩ : BufTy).Contents (Elt F) → (⟨S3200000x11, .f32⟩ : BufTy).Contents (Elt F)),
    StableHlo.unary main_v77 main_v78 (Host.exp : (⟨S3200000x11, .f32⟩ : BufTy).Contents (Elt F) → (⟨S3200000x11, .f32⟩ : BufTy).Contents (Elt F)),
    StableHlo.nullary main_cst_13 (constant S_ .f32 0x3F800000#32),
    StableHlo.unary main_cst_13 main_v79 (broadcastInDim S3200000x11 ![] bcast_S_S3200000x11 : (⟨S_, .f32⟩ : BufTy).Contents (Elt F) → (⟨S3200000x11, .f32⟩ : BufTy).Contents (Elt F)),
    StableHlo.binary main_v79 main_v78 main_v80 (addf : (⟨S3200000x11, .f32⟩ : BufTy).Contents (Elt F) → (⟨S3200000x11, .f32⟩ : BufTy).Contents (Elt F) → (⟨S3200000x11, .f32⟩ : BufTy).Contents (Elt F)),
    StableHlo.nullary main_cst_14 (constant S_ .f32 0x3F800000#32),
    StableHlo.unary main_cst_14 main_v81 (broadcastInDim S3200000x11 ![] bcast_S_S3200000x11 : (⟨S_, .f32⟩ : BufTy).Contents (Elt F) → (⟨S3200000x11, .f32⟩ : BufTy).Contents (Elt F)),
    StableHlo.binary main_v81 main_v80 main_v82 (Host.divf : (⟨S3200000x11, .f32⟩ : BufTy).Contents (Elt F) → (⟨S3200000x11, .f32⟩ : BufTy).Contents (Elt F) → (⟨S3200000x11, .f32⟩ : BufTy).Contents (Elt F)),
    StableHlo.binary main_v72 main_arg12 main_v83 ((fun l r => Host.dotGeneral dot_S3200000x26_S26x11_S3200000x11_1_0_0_1_n_n none l r) : (⟨S3200000x26, .f32⟩ : BufTy).Contents (Elt F) → (⟨S26x11, .f32⟩ : BufTy).Contents (Elt F) → (⟨S3200000x11, .f32⟩ : BufTy).Contents (Elt F)),
    StableHlo.unary main_arg13 main_v84 (broadcastInDim S1x11 ![1] bcast_S11_S1x11_1 : (⟨S11, .f32⟩ : BufTy).Contents (Elt F) → (⟨S1x11, .f32⟩ : BufTy).Contents (Elt F)),
    StableHlo.unary main_v84 main_v85 (broadcastInDim S3200000x11 ![0, 1] bcast_S1x11_S3200000x11_0_1 : (⟨S1x11, .f32⟩ : BufTy).Contents (Elt F) → (⟨S3200000x11, .f32⟩ : BufTy).Contents (Elt F)),
    StableHlo.binary main_v83 main_v85 main_v86 (addf : (⟨S3200000x11, .f32⟩ : BufTy).Contents (Elt F) → (⟨S3200000x11, .f32⟩ : BufTy).Contents (Elt F) → (⟨S3200000x11, .f32⟩ : BufTy).Contents (Elt F)),
    StableHlo.TRef.nullary main_call2.cst (constant S_ .f32 0x00000000#32),
    StableHlo.TRef.unary main_call2.cst main_call2.v0 (broadcastInDim S3200000x11 ![] bcast_S_S3200000x11),
    StableHlo.TRef.binary (.of main_v86 : StableHlo.TRef sig ⟨S3200000x11, .f32⟩) main_call2.v0 main_call2.v1 maximumf,
    StableHlo.TRef.unary main_call2.cst main_call2.v2 (broadcastInDim S3200000x11 ![] bcast_S_S3200000x11),
    StableHlo.TRef.binary (.of main_v86 : StableHlo.TRef sig ⟨S3200000x11, .f32⟩) main_call2.v2 main_call2.v3 subf,
    StableHlo.TRef.binary main_call2.v3 main_call2.v3 main_call2.v4 (cmpf .une),
    StableHlo.TRef.unary main_call2.cst main_call2.v5 (broadcastInDim S3200000x11 ![] bcast_S_S3200000x11),
    StableHlo.TRef.binary (.of main_v86 : StableHlo.TRef sig ⟨S3200000x11, .f32⟩) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select,
    StableHlo.binary main_v82 main_v87 main_v88 (mulf : (⟨S3200000x11, .f32⟩ : BufTy).Contents (Elt F) → (⟨S3200000x11, .f32⟩ : BufTy).Contents (Elt F) → (⟨S3200000x11, .f32⟩ : BufTy).Contents (Elt F)) ]

/-- The rest: layer 2's scatter-add, batch normalisation and residual sum, the mean pooling over each graph's nodes (a scatter-add of the rows and of ones, the count clamped below by one, the quotient), and the two dense layers with a softplus between them. (87 operations.) -/
abbrev opsC : List (HloOp τ sig (Elt F)) :=
  [ StableHlo.nullary main_cst_15 (constant S_ .f32 0x00000000#32),
    StableHlo.unary main_cst_15 main_v89 (broadcastInDim S100000x11 ![] bcast_S_S100000x11 : (⟨S_, .f32⟩ : BufTy).Contents (Elt F) → (⟨S100000x11, .f32⟩ : BufTy).Contents (Elt F)),
    StableHlo.unary main_v3 main_v90 (broadcastInDim S3200000x1 ![0] bcast_S3200000_S3200000x1_0 : (⟨S3200000, .i32⟩ : BufTy).Contents (Elt F) → (⟨S3200000x1, .i32⟩ : BufTy).Contents (Elt F)),
    StableHlo.ternary main_v89 main_v90 main_v88 main_v91 ((fun x i u => Host.scatterAdd scatter_S100000x11_S3200000x1_S3200000x11_1_0_0_1 x i u) : (⟨S100000x11, .f32⟩ : BufTy).Contents (Elt F) → (⟨S3200000x1, .i32⟩ : BufTy).Contents (Elt F) → (⟨S3200000x11, .f32⟩ : BufTy).Contents (Elt F) → (⟨S100000x11, .f32⟩ : BufTy).Contents (Elt F)),
    StableHlo.nullary main_cst_16 (constant S_ .f32 0x00000000#32),
    StableHlo.binary main_v91 main_cst_16 main_v92 ((fun x v => Host.reduceAdd x v reducesTo_S100000x11_S11_d0 h_S_) : (⟨S100000x11, .f32⟩ : BufTy).Contents (Elt F) → (⟨S_, .f32⟩ : BufTy).Contents (Elt F) → (⟨S11, .f32⟩ : BufTy).Contents (Elt F)),
    StableHlo.nullary main_cst_17 (constant S_ .f32 0x47C35000#32),
    StableHlo.unary main_cst_17 main_v93 (broadcastInDim S11 ![] bcast_S_S11 : (⟨S_, .f32⟩ : BufTy).Contents (Elt F) → (⟨S11, .f32⟩ : BufTy).Contents (Elt F)),
    StableHlo.binary main_v92 main_v93 main_v94 (Host.divf : (⟨S11, .f32⟩ : BufTy).Contents (Elt F) → (⟨S11, .f32⟩ : BufTy).Contents (Elt F) → (⟨S11, .f32⟩ : BufTy).Contents (Elt F)),
    StableHlo.nullary main_c_18 (constantI S_ 32 0#32),
    StableHlo.TRef.nullary main_call3.cst (constant S_ .f32 0x00000000#32),
    StableHlo.TRef.binary (.of main_v91 : StableHlo.TRef sig ⟨S100000x11, .f32⟩) main_call3.cst main_call3.v0 (fun x v => Host.reduceAdd x v reducesTo_S100000x11_S11_d0 h_S_),
    StableHlo.TRef.unary main_call3.v0 main_call3.v1 (broadcastInDim S1x11 ![1] bcast_S11_S1x11_1),
    StableHlo.TRef.nullary main_call3.cst_0 (constant S_ .f32 0x47C35000#32),
    StableHlo.TRef.unary main_call3.cst_0 main_call3.v2 (broadcastInDim S1x11 ![] bcast_S_S1x11),
    StableHlo.TRef.binary main_call3.v1 main_call3.v2 main_call3.v3 Host.divf,
    StableHlo.TRef.unary main_call3.v3 main_call3.v4 (broadcastInDim S100000x11 ![0, 1] bcast_S1x11_S100000x11_0_1),
    StableHlo.TRef.binary (.of main_v91 : StableHlo.TRef sig ⟨S100000x11, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x11_S11_d0 h_S_),
    StableHlo.TRef.unary main_call3.v8 main_call3.v10 (broadcastInDim S11 ![] bcast_S_S11),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S11 ![] bcast_S_S11),
    StableHlo.TRef.ternary main_call3.v12 main_call3.v11 main_call3.call0.v1 main_call3.call0.v2 (fun p a b => select (broadcastInDim S11 ![] bcast_S_S11 p) a b),
    StableHlo.unary main_v94 main_v96 (broadcastInDim S1x11 ![1] bcast_S11_S1x11_1 : (⟨S11, .f32⟩ : BufTy).Contents (Elt F) → (⟨S1x11, .f32⟩ : BufTy).Contents (Elt F)),
    StableHlo.unary main_v96 main_v97 (broadcastInDim S100000x11 ![0, 1] bcast_S1x11_S100000x11_0_1 : (⟨S1x11, .f32⟩ : BufTy).Contents (Elt F) → (⟨S100000x11, .f32⟩ : BufTy).Contents (Elt F)),
    StableHlo.binary main_v91 main_v97 main_v98 (subf : (⟨S100000x11, .f32⟩ : BufTy).Contents (Elt F) → (⟨S100000x11, .f32⟩ : BufTy).Contents (Elt F) → (⟨S100000x11, .f32⟩ : BufTy).Contents (Elt F)),
    StableHlo.nullary main_cst_19 (constant S_ .f32 0x3727C5AC#32),
    StableHlo.unary main_cst_19 main_v99 (broadcastInDim S11 ![] bcast_S_S11 : (⟨S_, .f32⟩ : BufTy).Contents (Elt F) → (⟨S11, .f32⟩ : BufTy).Contents (Elt F)),
    StableHlo.binary main_v95 main_v99 main_v100 (addf : (⟨S11, .f32⟩ : BufTy).Contents (Elt F) → (⟨S11, .f32⟩ : BufTy).Contents (Elt F) → (⟨S11, .f32⟩ : BufTy).Contents (Elt F)),
    StableHlo.unary main_v100 main_v101 (Host.rsqrt : (⟨S11, .f32⟩ : BufTy).Contents (Elt F) → (⟨S11, .f32⟩ : BufTy).Contents (Elt F)),
    StableHlo.unary main_v101 main_v102 (broadcastInDim S1x11 ![1] bcast_S11_S1x11_1 : (⟨S11, .f32⟩ : BufTy).Contents (Elt F) → (⟨S1x11, .f32⟩ : BufTy).Contents (Elt F)),
    StableHlo.unary main_v102 main_v103 (broadcastInDim S100000x11 ![0, 1] bcast_S1x11_S100000x11_0_1 : (⟨S1x11, .f32⟩ : BufTy).Contents (Elt F) → (⟨S100000x11, .f32⟩ : BufTy).Contents (Elt F)),
    StableHlo.binary main_v98 main_v103 main_v104 (mulf : (⟨S100000x11, .f32⟩ : BufTy).Contents (Elt F) → (⟨S100000x11, .f32⟩ : BufTy).Contents (Elt F) → (⟨S100000x11, .f32⟩ : BufTy).Contents (Elt F)),
    StableHlo.unary main_arg14 main_v105 (broadcastInDim S1x11 ![1] bcast_S11_S1x11_1 : (⟨S11, .f32⟩ : BufTy).Contents (Elt F) → (⟨S1x11, .f32⟩ : BufTy).Contents (Elt F)),
    StableHlo.unary main_v105 main_v106 (broadcastInDim S100000x11 ![0, 1] bcast_S1x11_S100000x11_0_1 : (⟨S1x11, .f32⟩ : BufTy).Contents (Elt F) → (⟨S100000x11, .f32⟩ : BufTy).Contents (Elt F)),
    StableHlo.binary main_v104 main_v106 main_v107 (mulf : (⟨S100000x11, .f32⟩ : BufTy).Contents (Elt F) → (⟨S100000x11, .f32⟩ : BufTy).Contents (Elt F) → (⟨S100000x11, .f32⟩ : BufTy).Contents (Elt F)),
    StableHlo.unary main_arg15 main_v108 (broadcastInDim S1x11 ![1] bcast_S11_S1x11_1 : (⟨S11, .f32⟩ : BufTy).Contents (Elt F) → (⟨S1x11, .f32⟩ : BufTy).Contents (Elt F)),
    StableHlo.unary main_v108 main_v109 (broadcastInDim S100000x11 ![0, 1] bcast_S1x11_S100000x11_0_1 : (⟨S1x11, .f32⟩ : BufTy).Contents (Elt F) → (⟨S100000x11, .f32⟩ : BufTy).Contents (Elt F)),
    StableHlo.binary main_v107 main_v109 main_v110 (addf : (⟨S100000x11, .f32⟩ : BufTy).Contents (Elt F) → (⟨S100000x11, .f32⟩ : BufTy).Contents (Elt F) → (⟨S100000x11, .f32⟩ : BufTy).Contents (Elt F)),
    StableHlo.binary main_v57 main_v110 main_v111 (addf : (⟨S100000x11, .f32⟩ : BufTy).Contents (Elt F) → (⟨S100000x11, .f32⟩ : BufTy).Contents (Elt F) → (⟨S100000x11, .f32⟩ : BufTy).Contents (Elt F)),
    StableHlo.nullary main_cst_20 (constant S_ .f32 0x00000000#32),
    StableHlo.unary main_cst_20 main_v112 (broadcastInDim S1000x11 ![] bcast_S_S1000x11 : (⟨S_, .f32⟩ : BufTy).Contents (Elt F) → (⟨S1000x11, .f32⟩ : BufTy).Contents (Elt F)),
    StableHlo.unary main_arg3 main_v113 (broadcastInDim S100000x1 ![0] bcast_S100000_S100000x1_0 : (⟨S100000, .i32⟩ : BufTy).Contents (Elt F) → (⟨S100000x1, .i32⟩ : BufTy).Contents (Elt F)),
    StableHlo.ternary main_v112 main_v113 main_v111 main_v114 ((fun x i u => Host.scatterAdd scatter_S1000x11_S100000x1_S100000x11_1_0_0_1 x i u) : (⟨S1000x11, .f32⟩ : BufTy).Contents (Elt F) → (⟨S100000x1, .i32⟩ : BufTy).Contents (Elt F) → (⟨S100000x11, .f32⟩ : BufTy).Contents (Elt F) → (⟨S1000x11, .f32⟩ : BufTy).Contents (Elt F)),
    StableHlo.nullary main_cst_21 (constant S_ .f32 0x3F800000#32),
    StableHlo.unary main_cst_21 main_v115 (broadcastInDim S100000 ![] bcast_S_S100000 : (⟨S_, .f32⟩ : BufTy).Contents (Elt F) → (⟨S100000, .f32⟩ : BufTy).Contents (Elt F)),
    StableHlo.nullary main_cst_22 (constant S_ .f32 0x00000000#32),
    StableHlo.unary main_cst_22 main_v116 (broadcastInDim S1000 ![] bcast_S_S1000 : (⟨S_, .f32⟩ : BufTy).Contents (Elt F) → (⟨S1000, .f32⟩ : BufTy).Contents (Elt F)),
    StableHlo.unary main_arg3 main_v117 (broadcastInDim S100000x1 ![0] bcast_S100000_S100000x1_0 : (⟨S100000, .i32⟩ : BufTy).Contents (Elt F) → (⟨S100000x1, .i32⟩ : BufTy).Contents (Elt F)),
    StableHlo.ternary main_v116 main_v117 main_v115 main_v118 ((fun x i u => Host.scatterAdd scatter_S1000_S100000x1_S100000_n_0_0_1 x i u) : (⟨S1000, .f32⟩ : BufTy).Contents (Elt F) → (⟨S100000x1, .i32⟩ : BufTy).Contents (Elt F) → (⟨S100000, .f32⟩ : BufTy).Contents (Elt F) → (⟨S1000, .f32⟩ : BufTy).Contents (Elt F)),
    StableHlo.nullary main_cst_23 (constant S_ .f32 0x3F800000#32),
    StableHlo.unary main_cst_23 main_v119 (broadcastInDim S1000 ![] bcast_S_S1000 : (⟨S_, .f32⟩ : BufTy).Contents (Elt F) → (⟨S1000, .f32⟩ : BufTy).Contents (Elt F)),
    StableHlo.binary main_v118 main_v119 main_v120 (maximumf : (⟨S1000, .f32⟩ : BufTy).Contents (Elt F) → (⟨S1000, .f32⟩ : BufTy).Contents (Elt F) → (⟨S1000, .f32⟩ : BufTy).Contents (Elt F)),
    StableHlo.unary main_v120 main_v121 (broadcastInDim S1000x1 ![0] bcast_S1000_S1000x1_0 : (⟨S1000, .f32⟩ : BufTy).Contents (Elt F) → (⟨S1000x1, .f32⟩ : BufTy).Contents (Elt F)),
    StableHlo.unary main_v121 main_v122 (broadcastInDim S1000x11 ![0, 1] bcast_S1000x1_S1000x11_0_1 : (⟨S1000x1, .f32⟩ : BufTy).Contents (Elt F) → (⟨S1000x11, .f32⟩ : BufTy).Contents (Elt F)),
    StableHlo.binary main_v114 main_v122 main_v123 (Host.divf : (⟨S1000x11, .f32⟩ : BufTy).Contents (Elt F) → (⟨S1000x11, .f32⟩ : BufTy).Contents (Elt F) → (⟨S1000x11, .f32⟩ : BufTy).Contents (Elt F)),
    StableHlo.binary main_v123 main_arg16 main_v124 ((fun l r => Host.dotGeneral dot_S1000x11_S11x5_S1000x5_1_0_0_1_n_n none l r) : (⟨S1000x11, .f32⟩ : BufTy).Contents (Elt F) → (⟨S11x5, .f32⟩ : BufTy).Contents (Elt F) → (⟨S1000x5, .f32⟩ : BufTy).Contents (Elt F)),
    StableHlo.unary main_arg17 main_v125 (broadcastInDim S1x5 ![1] bcast_S5_S1x5_1 : (⟨S5, .f32⟩ : BufTy).Contents (Elt F) → (⟨S1x5, .f32⟩ : BufTy).Contents (Elt F)),
    StableHlo.unary main_v125 main_v126 (broadcastInDim S1000x5 ![0, 1] bcast_S1x5_S1000x5_0_1 : (⟨S1x5, .f32⟩ : BufTy).Contents (Elt F) → (⟨S1000x5, .f32⟩ : BufTy).Contents (Elt F)),
    StableHlo.binary main_v124 main_v126 main_v127 (addf : (⟨S1000x5, .f32⟩ : BufTy).Contents (Elt F) → (⟨S1000x5, .f32⟩ : BufTy).Contents (Elt F) → (⟨S1000x5, .f32⟩ : BufTy).Contents (Elt F)),
    StableHlo.TRef.nullary main_call4.cst (constant S_ .f32 0x00000000#32),
    StableHlo.TRef.unary main_call4.cst main_call4.v0 (broadcastInDim S1000x5 ![] bcast_S_S1000x5),
    StableHlo.TRef.binary (.of main_v127 : StableHlo.TRef sig ⟨S1000x5, .f32⟩) main_call4.v0 main_call4.v1 maximumf,
    StableHlo.TRef.unary main_call4.cst main_call4.v2 (broadcastInDim S1000x5 ![] bcast_S_S1000x5),
    StableHlo.TRef.binary (.of main_v127 : StableHlo.TRef sig ⟨S1000x5, .f32⟩) main_call4.v2 main_call4.v3 subf,
    StableHlo.TRef.binary main_call4.v3 main_call4.v3 main_call4.v4 (cmpf .une),
    StableHlo.TRef.unary main_call4.cst main_call4.v5 (broadcastInDim S1000x5 ![] bcast_S_S1000x5),
    StableHlo.TRef.binary (.of main_v127 : StableHlo.TRef sig ⟨S1000x5, .f32⟩) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.binary main_v128 main_arg18 main_v129 ((fun l r => Host.dotGeneral dot_S1000x5_S5x1_S1000x1_1_0_0_1_n_n none l r) : (⟨S1000x5, .f32⟩ : BufTy).Contents (Elt F) → (⟨S5x1, .f32⟩ : BufTy).Contents (Elt F) → (⟨S1000x1, .f32⟩ : BufTy).Contents (Elt F)),
    StableHlo.unary main_arg19 main_v130 (broadcastInDim S1x1 ![1] bcast_S1_S1x1_1 : (⟨S1, .f32⟩ : BufTy).Contents (Elt F) → (⟨S1x1, .f32⟩ : BufTy).Contents (Elt F)),
    StableHlo.unary main_v130 main_v131 (broadcastInDim S1000x1 ![0, 1] bcast_S1x1_S1000x1_0_1 : (⟨S1x1, .f32⟩ : BufTy).Contents (Elt F) → (⟨S1000x1, .f32⟩ : BufTy).Contents (Elt F)),
    StableHlo.binary main_v129 main_v131 main_v132 (addf : (⟨S1000x1, .f32⟩ : BufTy).Contents (Elt F) → (⟨S1000x1, .f32⟩ : BufTy).Contents (Elt F) → (⟨S1000x1, .f32⟩ : BufTy).Contents (Elt F)) ]

/-- The whole line, in program order. -/
abbrev ops : List (HloOp τ sig (Elt F)) := opsA ++ (opsM1 ++ (opsB ++ (opsM2 ++ opsC)))

/-- The fold over a concatenation is the fold over the second list from the fold over the first. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- Five lists in a row, regrouped as three with the third and the fifth each cut in two. -/
theorem split5 {α : Type} (A M1 B M2 C : List α) (i j : Nat) :
    A ++ (M1 ++ (B ++ (M2 ++ C))) = (A ++ (M1 ++ B.take i)) ++ ((B.drop i ++ (M2 ++ C.take j)) ++ C.drop j) := by
  simp only [List.append_assoc]
  rw [← List.append_assoc (B.take i), List.take_append_drop, List.take_append_drop]

/-! ## @main is the line

@main is printed as three parts run in order. Each part is, by unfolding the callee bodies at their calls and the
records at their fields, the straight line of its own operations: the first part ends 40 operations into the third
chunk, the second 35 operations into the fifth. -/

set_option maxRecDepth 16384 in
set_option maxHeartbeats 1000000 in
theorem part0_eq (d : Dev nD) : main_part0 (F := F) d = seq (opsA ++ (opsM1 ++ opsB.take 40)) := rfl

set_option maxRecDepth 16384 in
set_option maxHeartbeats 1000000 in
theorem part1_eq (d : Dev nD) : main_part1 (F := F) d = seq (opsB.drop 40 ++ (opsM2 ++ opsC.take 35)) := rfl

set_option maxRecDepth 16384 in
set_option maxHeartbeats 1000000 in
theorem part2_eq (d : Dev nD) : main_part2 (F := F) d = seq (opsC.drop 35) := rfl

/-- @main is the straight line `ops`: its three parts in order are three lines in order, which is the line of the
    concatenation, and the concatenation regroups to the five chunks. -/
theorem main_eq (d : Dev nD) : main (F := F) d = seq ops :=
  calc main (F := F) d
      = (main_part0 (F := F) d >>= fun _ => main_part1 (F := F) d >>= fun _ => main_part2 (F := F) d) := rfl
    _ = seq ((opsA ++ (opsM1 ++ opsB.take 40)) ++ ((opsB.drop 40 ++ (opsM2 ++ opsC.take 35)) ++ opsC.drop 35)) := by
        rw [seq_append (opsA ++ (opsM1 ++ opsB.take 40)), seq_append (opsB.drop 40 ++ (opsM2 ++ opsC.take 35)),
          part0_eq, part1_eq, part2_eq]
    _ = seq ops := congrArg seq (split5 opsA opsM1 opsB opsM2 opsC 40 35).symm

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem opsM1_sub : (opsM1 : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub ..⟩

theorem opsM1_fresh : (opsM1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_sub : (opsB : List (HloOp τ sig (Elt F))).Forall fun op => op.bufs ⊆ tcRefs τ sig :=
  ⟨nullary_bufs_sub .., unary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsM2_sub : (opsM2 : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub ..⟩

theorem opsM2_fresh : (opsM2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_sub : (opsC : List (HloOp τ sig (Elt F))).Forall fun op => op.bufs ⊆ tcRefs τ sig :=
  ⟨nullary_bufs_sub .., unary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., unary_bufs_sub .., unary_bufs_sub .., binary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line touches TensorCore references only. -/
theorem ops_sub : (ops : List (HloOp τ sig (Elt F))).Forall fun op => op.bufs ⊆ tcRefs τ sig :=
  List.forall_append.mpr ⟨opsA_sub, List.forall_append.mpr ⟨opsM1_sub, List.forall_append.mpr ⟨opsB_sub,
    List.forall_append.mpr ⟨opsM2_sub, opsC_sub⟩⟩⟩⟩

/-- Every operation of the line determines its results. -/
theorem ops_fresh : ∀ op ∈ (ops : List (HloOp τ sig (Elt F))), op.fresh = ∅ :=
  List.forall_iff_forall_mem.mp (List.forall_append.mpr ⟨opsA_fresh, List.forall_append.mpr ⟨opsM1_fresh,
    List.forall_append.mpr ⟨opsB_fresh, List.forall_append.mpr ⟨opsM2_fresh, opsC_fresh⟩⟩⟩⟩)

/-- On every device, for any float values, from any memory with zero counters: every weakly fair execution of @main
    terminates, and every final state has each TensorCore buffer at the fold of the line over the launch contents. -/
theorem run (m : (ℓ : Loc nD τ sig) → Buf (Elt F) ℓ) (ρ : Dev nD → PrngReg) :
    θ_run defs (onTc (τ := τ) (main (F := F))) ⟨m, fun _ => 0, ρ⟩ (fun r => ∀ (d : Dev nD) (b : Ref sig .tc),
      r.2.mem ((d.tc : Thread nD τ).loc b) = after ops (launchContents m d) (Proc.devRef .tc b)) :=
  run_seq scopedRefs_eq scopedSems_eq defs main (fun _ => ops) main_eq (fun _ => ops_sub) m ρ (fun _ => ops_fresh)

/-! ## What the line leaves alone

Every operation writes exactly one buffer, its result; the 240 results are the references of `Wr`. A reference not in
that list — each of @main's twenty arguments — therefore holds after the line what it held before. -/

/-- The result references of the line's operations, in program order. -/
abbrev Wr : List (Ref sig .tc) :=
  [ main_v0, main_v1, main_v2, main_v3, main_c, main_v4, main_v5, main_c_0,
    main_v6, main_v7, main_v8, main_v9, main_v10, main_c_1, main_v11, main_v12,
    main_c_2, main_v13, main_v14, main_v15, main_v16, main_v17, main_v18, main_v19,
    main_v20, main_v21, main_v22, main_v23, main_v24, main_cst, main_v25, main_v26,
    main_cst_3, main_v27, main_v28, main_v29, main_v30, main_v31, main_v32, main_call0.cst.ref,
    main_call0.v0.ref, main_call0.v1.ref, main_call0.v2.ref, main_call0.v3.ref, main_call0.v4.ref, main_call0.v5.ref, main_call0.v6.ref, main_call0.v7.ref,
    main_call0.v8.ref, main_call0.v9.ref, main_call0.v10.ref, main_call0.v11.ref, main_call0.v12.ref, main_v34, main_cst_4, main_v35,
    main_v36, main_v37, main_cst_5, main_v38, main_cst_6, main_v39, main_v40, main_c_7,
    main_call1.cst.ref, main_call1.v0.ref, main_call1.v1.ref, main_call1.cst_0.ref, main_call1.v2.ref, main_call1.v3.ref, main_call1.v4.ref, main_call1.v5.ref,
    main_call1.v6.ref, main_call1.v7.ref, main_call1.cst_1.ref, main_call1.v8.ref, main_call1.cst_2.ref, main_call1.v9.ref, main_call1.v10.ref, main_call1.v11.ref,
    main_call1.cst_3.ref, main_call1.v12.ref, main_call1.cst_4.ref, main_call1.call0.v0.ref, main_call1.call0.v1.ref, main_call1.call0.v2.ref, main_v42, main_v43,
    main_v44, main_cst_8, main_v45, main_v46, main_v47, main_v48, main_v49, main_v50,
    main_v51, main_v52, main_v53, main_v54, main_v55, main_v56, main_v57, main_c_9,
    main_v58, main_v59, main_c_10, main_v60, main_v61, main_v62, main_v63, main_v64,
    main_c_11, main_v65, main_v66, main_c_12, main_v67, main_v68, main_v69, main_v70,
    main_v71, main_v72, main_v73, main_v74, main_v75, main_v76, main_v77, main_v78,
    main_cst_13, main_v79, main_v80, main_cst_14, main_v81, main_v82, main_v83, main_v84,
    main_v85, main_v86, main_call2.cst.ref, main_call2.v0.ref, main_call2.v1.ref, main_call2.v2.ref, main_call2.v3.ref, main_call2.v4.ref,
    main_call2.v5.ref, main_call2.v6.ref, main_call2.v7.ref, main_call2.v8.ref, main_call2.v9.ref, main_call2.v10.ref, main_call2.v11.ref, main_call2.v12.ref,
    main_v88, main_cst_15, main_v89, main_v90, main_v91, main_cst_16, main_v92, main_cst_17,
    main_v93, main_v94, main_c_18, main_call3.cst.ref, main_call3.v0.ref, main_call3.v1.ref, main_call3.cst_0.ref, main_call3.v2.ref,
    main_call3.v3.ref, main_call3.v4.ref, main_call3.v5.ref, main_call3.v6.ref, main_call3.v7.ref, main_call3.cst_1.ref, main_call3.v8.ref, main_call3.cst_2.ref,
    main_call3.v9.ref, main_call3.v10.ref, main_call3.v11.ref, main_call3.cst_3.ref, main_call3.v12.ref, main_call3.cst_4.ref, main_call3.call0.v0.ref, main_call3.call0.v1.ref,
    main_call3.call0.v2.ref, main_v96, main_v97, main_v98, main_cst_19, main_v99, main_v100, main_v101,
    main_v102, main_v103, main_v104, main_v105, main_v106, main_v107, main_v108, main_v109,
    main_v110, main_v111, main_cst_20, main_v112, main_v113, main_v114, main_cst_21, main_v115,
    main_cst_22, main_v116, main_v117, main_v118, main_cst_23, main_v119, main_v120, main_v121,
    main_v122, main_v123, main_v124, main_v125, main_v126, main_v127, main_call4.cst.ref, main_call4.v0.ref,
    main_call4.v1.ref, main_call4.v2.ref, main_call4.v3.ref, main_call4.v4.ref, main_call4.v5.ref, main_call4.v6.ref, main_call4.v7.ref, main_call4.v8.ref,
    main_call4.v9.ref, main_call4.v10.ref, main_call4.v11.ref, main_call4.v12.ref, main_v129, main_v130, main_v131, main_v132 ]

/-- An operation whose one written buffer is a reference of `W` writes inside `W`. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

theorem opsA_writes : (opsA : List (HloOp τ sig (Elt F))).Forall fun op => op.writes ⊆ (Wr.map (Proc.devRef (τ := τ) .tc)).toFinset :=
  ⟨writes_sub_of_mem (y := main_v0) rfl (by decide), writes_sub_of_mem (y := main_v1) rfl (by decide), writes_sub_of_mem (y := main_v2) rfl (by decide),
    writes_sub_of_mem (y := main_v3) rfl (by decide), writes_sub_of_mem (y := main_c) rfl (by decide), writes_sub_of_mem (y := main_v4) rfl (by decide),
    writes_sub_of_mem (y := main_v5) rfl (by decide), writes_sub_of_mem (y := main_c_0) rfl (by decide), writes_sub_of_mem (y := main_v6) rfl (by decide),
    writes_sub_of_mem (y := main_v7) rfl (by decide), writes_sub_of_mem (y := main_v8) rfl (by decide), writes_sub_of_mem (y := main_v9) rfl (by decide),
    writes_sub_of_mem (y := main_v10) rfl (by decide), writes_sub_of_mem (y := main_c_1) rfl (by decide), writes_sub_of_mem (y := main_v11) rfl (by decide),
    writes_sub_of_mem (y := main_v12) rfl (by decide), writes_sub_of_mem (y := main_c_2) rfl (by decide), writes_sub_of_mem (y := main_v13) rfl (by decide),
    writes_sub_of_mem (y := main_v14) rfl (by decide), writes_sub_of_mem (y := main_v15) rfl (by decide), writes_sub_of_mem (y := main_v16) rfl (by decide),
    writes_sub_of_mem (y := main_v17) rfl (by decide)⟩

theorem opsM1_writes : (opsM1 : List (HloOp τ sig (Elt F))).Forall fun op => op.writes ⊆ (Wr.map (Proc.devRef (τ := τ) .tc)).toFinset :=
  ⟨writes_sub_of_mem (y := main_v18) rfl (by decide), writes_sub_of_mem (y := main_v19) rfl (by decide), writes_sub_of_mem (y := main_v20) rfl (by decide),
    writes_sub_of_mem (y := main_v21) rfl (by decide), writes_sub_of_mem (y := main_v22) rfl (by decide), writes_sub_of_mem (y := main_v23) rfl (by decide),
    writes_sub_of_mem (y := main_v24) rfl (by decide), writes_sub_of_mem (y := main_cst) rfl (by decide), writes_sub_of_mem (y := main_v25) rfl (by decide),
    writes_sub_of_mem (y := main_v26) rfl (by decide), writes_sub_of_mem (y := main_cst_3) rfl (by decide), writes_sub_of_mem (y := main_v27) rfl (by decide),
    writes_sub_of_mem (y := main_v28) rfl (by decide), writes_sub_of_mem (y := main_v29) rfl (by decide), writes_sub_of_mem (y := main_v30) rfl (by decide),
    writes_sub_of_mem (y := main_v31) rfl (by decide), writes_sub_of_mem (y := main_v32) rfl (by decide), writes_sub_of_mem (y := main_call0.cst.ref) rfl (by decide),
    writes_sub_of_mem (y := main_call0.v0.ref) rfl (by decide), writes_sub_of_mem (y := main_call0.v1.ref) rfl (by decide), writes_sub_of_mem (y := main_call0.v2.ref) rfl (by decide),
    writes_sub_of_mem (y := main_call0.v3.ref) rfl (by decide), writes_sub_of_mem (y := main_call0.v4.ref) rfl (by decide), writes_sub_of_mem (y := main_call0.v5.ref) rfl (by decide),
    writes_sub_of_mem (y := main_call0.v6.ref) rfl (by decide), writes_sub_of_mem (y := main_call0.v7.ref) rfl (by decide), writes_sub_of_mem (y := main_call0.v8.ref) rfl (by decide),
    writes_sub_of_mem (y := main_call0.v9.ref) rfl (by decide), writes_sub_of_mem (y := main_call0.v10.ref) rfl (by decide), writes_sub_of_mem (y := main_call0.v11.ref) rfl (by decide),
    writes_sub_of_mem (y := main_call0.v12.ref) rfl (by decide), writes_sub_of_mem (y := main_v34) rfl (by decide)⟩

theorem opsB_writes : (opsB : List (HloOp τ sig (Elt F))).Forall fun op => op.writes ⊆ (Wr.map (Proc.devRef (τ := τ) .tc)).toFinset :=
  ⟨writes_sub_of_mem (y := main_cst_4) rfl (by decide), writes_sub_of_mem (y := main_v35) rfl (by decide), writes_sub_of_mem (y := main_v36) rfl (by decide),
    writes_sub_of_mem (y := main_v37) rfl (by decide), writes_sub_of_mem (y := main_cst_5) rfl (by decide), writes_sub_of_mem (y := main_v38) rfl (by decide),
    writes_sub_of_mem (y := main_cst_6) rfl (by decide), writes_sub_of_mem (y := main_v39) rfl (by decide), writes_sub_of_mem (y := main_v40) rfl (by decide),
    writes_sub_of_mem (y := main_c_7) rfl (by decide), writes_sub_of_mem (y := main_call1.cst.ref) rfl (by decide), writes_sub_of_mem (y := main_call1.v0.ref) rfl (by decide),
    writes_sub_of_mem (y := main_call1.v1.ref) rfl (by decide), writes_sub_of_mem (y := main_call1.cst_0.ref) rfl (by decide), writes_sub_of_mem (y := main_call1.v2.ref) rfl (by decide),
    writes_sub_of_mem (y := main_call1.v3.ref) rfl (by decide), writes_sub_of_mem (y := main_call1.v4.ref) rfl (by decide), writes_sub_of_mem (y := main_call1.v5.ref) rfl (by decide),
    writes_sub_of_mem (y := main_call1.v6.ref) rfl (by decide), writes_sub_of_mem (y := main_call1.v7.ref) rfl (by decide), writes_sub_of_mem (y := main_call1.cst_1.ref) rfl (by decide),
    writes_sub_of_mem (y := main_call1.v8.ref) rfl (by decide), writes_sub_of_mem (y := main_call1.cst_2.ref) rfl (by decide), writes_sub_of_mem (y := main_call1.v9.ref) rfl (by decide),
    writes_sub_of_mem (y := main_call1.v10.ref) rfl (by decide), writes_sub_of_mem (y := main_call1.v11.ref) rfl (by decide), writes_sub_of_mem (y := main_call1.cst_3.ref) rfl (by decide),
    writes_sub_of_mem (y := main_call1.v12.ref) rfl (by decide), writes_sub_of_mem (y := main_call1.cst_4.ref) rfl (by decide), writes_sub_of_mem (y := main_call1.call0.v0.ref) rfl (by decide),
    writes_sub_of_mem (y := main_call1.call0.v1.ref) rfl (by decide), writes_sub_of_mem (y := main_call1.call0.v2.ref) rfl (by decide), writes_sub_of_mem (y := main_v42) rfl (by decide),
    writes_sub_of_mem (y := main_v43) rfl (by decide), writes_sub_of_mem (y := main_v44) rfl (by decide), writes_sub_of_mem (y := main_cst_8) rfl (by decide),
    writes_sub_of_mem (y := main_v45) rfl (by decide), writes_sub_of_mem (y := main_v46) rfl (by decide), writes_sub_of_mem (y := main_v47) rfl (by decide),
    writes_sub_of_mem (y := main_v48) rfl (by decide), writes_sub_of_mem (y := main_v49) rfl (by decide), writes_sub_of_mem (y := main_v50) rfl (by decide),
    writes_sub_of_mem (y := main_v51) rfl (by decide), writes_sub_of_mem (y := main_v52) rfl (by decide), writes_sub_of_mem (y := main_v53) rfl (by decide),
    writes_sub_of_mem (y := main_v54) rfl (by decide), writes_sub_of_mem (y := main_v55) rfl (by decide), writes_sub_of_mem (y := main_v56) rfl (by decide),
    writes_sub_of_mem (y := main_v57) rfl (by decide), writes_sub_of_mem (y := main_c_9) rfl (by decide), writes_sub_of_mem (y := main_v58) rfl (by decide),
    writes_sub_of_mem (y := main_v59) rfl (by decide), writes_sub_of_mem (y := main_c_10) rfl (by decide), writes_sub_of_mem (y := main_v60) rfl (by decide),
    writes_sub_of_mem (y := main_v61) rfl (by decide), writes_sub_of_mem (y := main_v62) rfl (by decide), writes_sub_of_mem (y := main_v63) rfl (by decide),
    writes_sub_of_mem (y := main_v64) rfl (by decide), writes_sub_of_mem (y := main_c_11) rfl (by decide), writes_sub_of_mem (y := main_v65) rfl (by decide),
    writes_sub_of_mem (y := main_v66) rfl (by decide), writes_sub_of_mem (y := main_c_12) rfl (by decide), writes_sub_of_mem (y := main_v67) rfl (by decide),
    writes_sub_of_mem (y := main_v68) rfl (by decide), writes_sub_of_mem (y := main_v69) rfl (by decide), writes_sub_of_mem (y := main_v70) rfl (by decide),
    writes_sub_of_mem (y := main_v71) rfl (by decide)⟩

theorem opsM2_writes : (opsM2 : List (HloOp τ sig (Elt F))).Forall fun op => op.writes ⊆ (Wr.map (Proc.devRef (τ := τ) .tc)).toFinset :=
  ⟨writes_sub_of_mem (y := main_v72) rfl (by decide), writes_sub_of_mem (y := main_v73) rfl (by decide), writes_sub_of_mem (y := main_v74) rfl (by decide),
    writes_sub_of_mem (y := main_v75) rfl (by decide), writes_sub_of_mem (y := main_v76) rfl (by decide), writes_sub_of_mem (y := main_v77) rfl (by decide),
    writes_sub_of_mem (y := main_v78) rfl (by decide), writes_sub_of_mem (y := main_cst_13) rfl (by decide), writes_sub_of_mem (y := main_v79) rfl (by decide),
    writes_sub_of_mem (y := main_v80) rfl (by decide), writes_sub_of_mem (y := main_cst_14) rfl (by decide), writes_sub_of_mem (y := main_v81) rfl (by decide),
    writes_sub_of_mem (y := main_v82) rfl (by decide), writes_sub_of_mem (y := main_v83) rfl (by decide), writes_sub_of_mem (y := main_v84) rfl (by decide),
    writes_sub_of_mem (y := main_v85) rfl (by decide), writes_sub_of_mem (y := main_v86) rfl (by decide), writes_sub_of_mem (y := main_call2.cst.ref) rfl (by decide),
    writes_sub_of_mem (y := main_call2.v0.ref) rfl (by decide), writes_sub_of_mem (y := main_call2.v1.ref) rfl (by decide), writes_sub_of_mem (y := main_call2.v2.ref) rfl (by decide),
    writes_sub_of_mem (y := main_call2.v3.ref) rfl (by decide), writes_sub_of_mem (y := main_call2.v4.ref) rfl (by decide), writes_sub_of_mem (y := main_call2.v5.ref) rfl (by decide),
    writes_sub_of_mem (y := main_call2.v6.ref) rfl (by decide), writes_sub_of_mem (y := main_call2.v7.ref) rfl (by decide), writes_sub_of_mem (y := main_call2.v8.ref) rfl (by decide),
    writes_sub_of_mem (y := main_call2.v9.ref) rfl (by decide), writes_sub_of_mem (y := main_call2.v10.ref) rfl (by decide), writes_sub_of_mem (y := main_call2.v11.ref) rfl (by decide),
    writes_sub_of_mem (y := main_call2.v12.ref) rfl (by decide), writes_sub_of_mem (y := main_v88) rfl (by decide)⟩

theorem opsC_writes : (opsC : List (HloOp τ sig (Elt F))).Forall fun op => op.writes ⊆ (Wr.map (Proc.devRef (τ := τ) .tc)).toFinset :=
  ⟨writes_sub_of_mem (y := main_cst_15) rfl (by decide), writes_sub_of_mem (y := main_v89) rfl (by decide), writes_sub_of_mem (y := main_v90) rfl (by decide),
    writes_sub_of_mem (y := main_v91) rfl (by decide), writes_sub_of_mem (y := main_cst_16) rfl (by decide), writes_sub_of_mem (y := main_v92) rfl (by decide),
    writes_sub_of_mem (y := main_cst_17) rfl (by decide), writes_sub_of_mem (y := main_v93) rfl (by decide), writes_sub_of_mem (y := main_v94) rfl (by decide),
    writes_sub_of_mem (y := main_c_18) rfl (by decide), writes_sub_of_mem (y := main_call3.cst.ref) rfl (by decide), writes_sub_of_mem (y := main_call3.v0.ref) rfl (by decide),
    writes_sub_of_mem (y := main_call3.v1.ref) rfl (by decide), writes_sub_of_mem (y := main_call3.cst_0.ref) rfl (by decide), writes_sub_of_mem (y := main_call3.v2.ref) rfl (by decide),
    writes_sub_of_mem (y := main_call3.v3.ref) rfl (by decide), writes_sub_of_mem (y := main_call3.v4.ref) rfl (by decide), writes_sub_of_mem (y := main_call3.v5.ref) rfl (by decide),
    writes_sub_of_mem (y := main_call3.v6.ref) rfl (by decide), writes_sub_of_mem (y := main_call3.v7.ref) rfl (by decide), writes_sub_of_mem (y := main_call3.cst_1.ref) rfl (by decide),
    writes_sub_of_mem (y := main_call3.v8.ref) rfl (by decide), writes_sub_of_mem (y := main_call3.cst_2.ref) rfl (by decide), writes_sub_of_mem (y := main_call3.v9.ref) rfl (by decide),
    writes_sub_of_mem (y := main_call3.v10.ref) rfl (by decide), writes_sub_of_mem (y := main_call3.v11.ref) rfl (by decide), writes_sub_of_mem (y := main_call3.cst_3.ref) rfl (by decide),
    writes_sub_of_mem (y := main_call3.v12.ref) rfl (by decide), writes_sub_of_mem (y := main_call3.cst_4.ref) rfl (by decide), writes_sub_of_mem (y := main_call3.call0.v0.ref) rfl (by decide),
    writes_sub_of_mem (y := main_call3.call0.v1.ref) rfl (by decide), writes_sub_of_mem (y := main_call3.call0.v2.ref) rfl (by decide), writes_sub_of_mem (y := main_v96) rfl (by decide),
    writes_sub_of_mem (y := main_v97) rfl (by decide), writes_sub_of_mem (y := main_v98) rfl (by decide), writes_sub_of_mem (y := main_cst_19) rfl (by decide),
    writes_sub_of_mem (y := main_v99) rfl (by decide), writes_sub_of_mem (y := main_v100) rfl (by decide), writes_sub_of_mem (y := main_v101) rfl (by decide),
    writes_sub_of_mem (y := main_v102) rfl (by decide), writes_sub_of_mem (y := main_v103) rfl (by decide), writes_sub_of_mem (y := main_v104) rfl (by decide),
    writes_sub_of_mem (y := main_v105) rfl (by decide), writes_sub_of_mem (y := main_v106) rfl (by decide), writes_sub_of_mem (y := main_v107) rfl (by decide),
    writes_sub_of_mem (y := main_v108) rfl (by decide), writes_sub_of_mem (y := main_v109) rfl (by decide), writes_sub_of_mem (y := main_v110) rfl (by decide),
    writes_sub_of_mem (y := main_v111) rfl (by decide), writes_sub_of_mem (y := main_cst_20) rfl (by decide), writes_sub_of_mem (y := main_v112) rfl (by decide),
    writes_sub_of_mem (y := main_v113) rfl (by decide), writes_sub_of_mem (y := main_v114) rfl (by decide), writes_sub_of_mem (y := main_cst_21) rfl (by decide),
    writes_sub_of_mem (y := main_v115) rfl (by decide), writes_sub_of_mem (y := main_cst_22) rfl (by decide), writes_sub_of_mem (y := main_v116) rfl (by decide),
    writes_sub_of_mem (y := main_v117) rfl (by decide), writes_sub_of_mem (y := main_v118) rfl (by decide), writes_sub_of_mem (y := main_cst_23) rfl (by decide),
    writes_sub_of_mem (y := main_v119) rfl (by decide), writes_sub_of_mem (y := main_v120) rfl (by decide), writes_sub_of_mem (y := main_v121) rfl (by decide),
    writes_sub_of_mem (y := main_v122) rfl (by decide), writes_sub_of_mem (y := main_v123) rfl (by decide), writes_sub_of_mem (y := main_v124) rfl (by decide),
    writes_sub_of_mem (y := main_v125) rfl (by decide), writes_sub_of_mem (y := main_v126) rfl (by decide), writes_sub_of_mem (y := main_v127) rfl (by decide),
    writes_sub_of_mem (y := main_call4.cst.ref) rfl (by decide), writes_sub_of_mem (y := main_call4.v0.ref) rfl (by decide), writes_sub_of_mem (y := main_call4.v1.ref) rfl (by decide),
    writes_sub_of_mem (y := main_call4.v2.ref) rfl (by decide), writes_sub_of_mem (y := main_call4.v3.ref) rfl (by decide), writes_sub_of_mem (y := main_call4.v4.ref) rfl (by decide),
    writes_sub_of_mem (y := main_call4.v5.ref) rfl (by decide), writes_sub_of_mem (y := main_call4.v6.ref) rfl (by decide), writes_sub_of_mem (y := main_call4.v7.ref) rfl (by decide),
    writes_sub_of_mem (y := main_call4.v8.ref) rfl (by decide), writes_sub_of_mem (y := main_call4.v9.ref) rfl (by decide), writes_sub_of_mem (y := main_call4.v10.ref) rfl (by decide),
    writes_sub_of_mem (y := main_call4.v11.ref) rfl (by decide), writes_sub_of_mem (y := main_call4.v12.ref) rfl (by decide), writes_sub_of_mem (y := main_v129) rfl (by decide),
    writes_sub_of_mem (y := main_v130) rfl (by decide), writes_sub_of_mem (y := main_v131) rfl (by decide), writes_sub_of_mem (y := main_v132) rfl (by decide)⟩

/-- Every operation of the line writes inside `Wr`. -/
theorem ops_writes : (ops : List (HloOp τ sig (Elt F))).Forall fun op => op.writes ⊆ (Wr.map (Proc.devRef (τ := τ) .tc)).toFinset :=
  List.forall_append.mpr ⟨opsA_writes, List.forall_append.mpr ⟨opsM1_writes, List.forall_append.mpr ⟨opsB_writes,
    List.forall_append.mpr ⟨opsM2_writes, opsC_writes⟩⟩⟩⟩

/-- A reference that is no operation's result keeps its contents through the line. -/
theorem kept {r : Ref sig .tc} (hr : r ∉ Wr) (V : Valuation τ sig (Elt F)) :
    after ops V (Proc.devRef .tc r) = V (Proc.devRef .tc r) :=
  after_of_writes_sub ops V ops_writes hr

theorem kept_arg0 (V : Valuation τ sig (Elt F)) :
    after ops V (Proc.devRef .tc main_arg0) = V (Proc.devRef .tc main_arg0) := kept (by decide) V
theorem kept_arg1 (V : Valuation τ sig (Elt F)) :
    after ops V (Proc.devRef .tc main_arg1) = V (Proc.devRef .tc main_arg1) := kept (by decide) V
theorem kept_arg2 (V : Valuation τ sig (Elt F)) :
    after ops V (Proc.devRef .tc main_arg2) = V (Proc.devRef .tc main_arg2) := kept (by decide) V
theorem kept_arg3 (V : Valuation τ sig (Elt F)) :
    after ops V (Proc.devRef .tc main_arg3) = V (Proc.devRef .tc main_arg3) := kept (by decide) V
theorem kept_arg4 (V : Valuation τ sig (Elt F)) :
    after ops V (Proc.devRef .tc main_arg4) = V (Proc.devRef .tc main_arg4) := kept (by decide) V
theorem kept_arg5 (V : Valuation τ sig (Elt F)) :
    after ops V (Proc.devRef .tc main_arg5) = V (Proc.devRef .tc main_arg5) := kept (by decide) V
theorem kept_arg6 (V : Valuation τ sig (Elt F)) :
    after ops V (Proc.devRef .tc main_arg6) = V (Proc.devRef .tc main_arg6) := kept (by decide) V
theorem kept_arg7 (V : Valuation τ sig (Elt F)) :
    after ops V (Proc.devRef .tc main_arg7) = V (Proc.devRef .tc main_arg7) := kept (by decide) V
theorem kept_arg8 (V : Valuation τ sig (Elt F)) :
    after ops V (Proc.devRef .tc main_arg8) = V (Proc.devRef .tc main_arg8) := kept (by decide) V
theorem kept_arg9 (V : Valuation τ sig (Elt F)) :
    after ops V (Proc.devRef .tc main_arg9) = V (Proc.devRef .tc main_arg9) := kept (by decide) V
theorem kept_arg10 (V : Valuation τ sig (Elt F)) :
    after ops V (Proc.devRef .tc main_arg10) = V (Proc.devRef .tc main_arg10) := kept (by decide) V
theorem kept_arg11 (V : Valuation τ sig (Elt F)) :
    after ops V (Proc.devRef .tc main_arg11) = V (Proc.devRef .tc main_arg11) := kept (by decide) V
theorem kept_arg12 (V : Valuation τ sig (Elt F)) :
    after ops V (Proc.devRef .tc main_arg12) = V (Proc.devRef .tc main_arg12) := kept (by decide) V
theorem kept_arg13 (V : Valuation τ sig (Elt F)) :
    after ops V (Proc.devRef .tc main_arg13) = V (Proc.devRef .tc main_arg13) := kept (by decide) V
theorem kept_arg14 (V : Valuation τ sig (Elt F)) :
    after ops V (Proc.devRef .tc main_arg14) = V (Proc.devRef .tc main_arg14) := kept (by decide) V
theorem kept_arg15 (V : Valuation τ sig (Elt F)) :
    after ops V (Proc.devRef .tc main_arg15) = V (Proc.devRef .tc main_arg15) := kept (by decide) V
theorem kept_arg16 (V : Valuation τ sig (Elt F)) :
    after ops V (Proc.devRef .tc main_arg16) = V (Proc.devRef .tc main_arg16) := kept (by decide) V
theorem kept_arg17 (V : Valuation τ sig (Elt F)) :
    after ops V (Proc.devRef .tc main_arg17) = V (Proc.devRef .tc main_arg17) := kept (by decide) V
theorem kept_arg18 (V : Valuation τ sig (Elt F)) :
    after ops V (Proc.devRef .tc main_arg18) = V (Proc.devRef .tc main_arg18) := kept (by decide) V
theorem kept_arg19 (V : Valuation τ sig (Elt F)) :
    after ops V (Proc.devRef .tc main_arg19) = V (Proc.devRef .tc main_arg19) := kept (by decide) V

end Cert.ReferenceIdeal.RefRun

end
-- ==== Proof.Agree.lean ====
/-
  The two programs' memories at launch agree on the twenty argument arrays; the reference's buffer contents at the
  four cuts of its operation list (after the first layer's gathers, after the first layer's message, after the second
  layer's gathers, after the second layer's message) and at its end.
-/
import proofs.«128043_j25649544692460_2_alg».proof.Proof.Gen.KernelIdeal
import proofs.«128043_j25649544692460_2_alg».proof.Proof.RefRun
import Idealize.ShloMosaic.PureOps.Ideal

noncomputable section

namespace Cert.Bridge

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! The launch memories agree on an argument array: one proposition per argument. -/

def Ag0 (c : Dev Cert.KernelIdeal.nD) : Prop := m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
def Ag1 (c : Dev Cert.KernelIdeal.nD) : Prop := m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
def Ag2 (c : Dev Cert.KernelIdeal.nD) : Prop := m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
def Ag3 (c : Dev Cert.KernelIdeal.nD) : Prop := m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
def Ag4 (c : Dev Cert.KernelIdeal.nD) : Prop := m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
def Ag5 (c : Dev Cert.KernelIdeal.nD) : Prop := m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
def Ag6 (c : Dev Cert.KernelIdeal.nD) : Prop := m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
def Ag7 (c : Dev Cert.KernelIdeal.nD) : Prop := m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
def Ag8 (c : Dev Cert.KernelIdeal.nD) : Prop := m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
def Ag9 (c : Dev Cert.KernelIdeal.nD) : Prop := m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
def Ag10 (c : Dev Cert.KernelIdeal.nD) : Prop := m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
def Ag11 (c : Dev Cert.KernelIdeal.nD) : Prop := m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
def Ag12 (c : Dev Cert.KernelIdeal.nD) : Prop := m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
def Ag13 (c : Dev Cert.KernelIdeal.nD) : Prop := m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
def Ag14 (c : Dev Cert.KernelIdeal.nD) : Prop := m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
def Ag15 (c : Dev Cert.KernelIdeal.nD) : Prop := m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
def Ag16 (c : Dev Cert.KernelIdeal.nD) : Prop := m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
def Ag17 (c : Dev Cert.KernelIdeal.nD) : Prop := m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
def Ag18 (c : Dev Cert.KernelIdeal.nD) : Prop := m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
def Ag19 (c : Dev Cert.KernelIdeal.nD) : Prop := m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

/-- The launch memories agree on every argument array (the hypothesis of the equivalence claim). -/
def Agree : Prop := ∀ c : Dev Cert.KernelIdeal.nD, Ag0 m m' c ∧ Ag1 m m' c ∧ Ag2 m m' c ∧ Ag3 m m' c ∧ Ag4 m m' c ∧ Ag5 m m' c ∧ Ag6 m m' c ∧ Ag7 m m' c ∧ Ag8 m m' c ∧ Ag9 m m' c ∧ Ag10 m m' c ∧ Ag11 m m' c ∧ Ag12 m m' c ∧ Ag13 m m' c ∧ Ag14 m m' c ∧ Ag15 m m' c ∧ Ag16 m m' c ∧ Ag17 m m' c ∧ Ag18 m m' c ∧ Ag19 m m' c

variable {m m'}

theorem Agree.a0 (h : Agree m m') (c : Dev Cert.KernelIdeal.nD) : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) := (h c).1
theorem Agree.a1 (h : Agree m m') (c : Dev Cert.KernelIdeal.nD) : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) := (h c).2.1
theorem Agree.a2 (h : Agree m m') (c : Dev Cert.KernelIdeal.nD) : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) := (h c).2.2.1
theorem Agree.a3 (h : Agree m m') (c : Dev Cert.KernelIdeal.nD) : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) := (h c).2.2.2.1
theorem Agree.a4 (h : Agree m m') (c : Dev Cert.KernelIdeal.nD) : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) := (h c).2.2.2.2.1
theorem Agree.a5 (h : Agree m m') (c : Dev Cert.KernelIdeal.nD) : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) := (h c).2.2.2.2.2.1
theorem Agree.a6 (h : Agree m m') (c : Dev Cert.KernelIdeal.nD) : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) := (h c).2.2.2.2.2.2.1
theorem Agree.a7 (h : Agree m m') (c : Dev Cert.KernelIdeal.nD) : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) := (h c).2.2.2.2.2.2.2.1
theorem Agree.a8 (h : Agree m m') (c : Dev Cert.KernelIdeal.nD) : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) := (h c).2.2.2.2.2.2.2.2.1
theorem Agree.a9 (h : Agree m m') (c : Dev Cert.KernelIdeal.nD) : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) := (h c).2.2.2.2.2.2.2.2.2.1
theorem Agree.a10 (h : Agree m m') (c : Dev Cert.KernelIdeal.nD) : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) := (h c).2.2.2.2.2.2.2.2.2.2.1
theorem Agree.a11 (h : Agree m m') (c : Dev Cert.KernelIdeal.nD) : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) := (h c).2.2.2.2.2.2.2.2.2.2.2.1
theorem Agree.a12 (h : Agree m m') (c : Dev Cert.KernelIdeal.nD) : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) := (h c).2.2.2.2.2.2.2.2.2.2.2.2.1
theorem Agree.a13 (h : Agree m m') (c : Dev Cert.KernelIdeal.nD) : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) := (h c).2.2.2.2.2.2.2.2.2.2.2.2.2.1
theorem Agree.a14 (h : Agree m m') (c : Dev Cert.KernelIdeal.nD) : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) := (h c).2.2.2.2.2.2.2.2.2.2.2.2.2.2.1
theorem Agree.a15 (h : Agree m m') (c : Dev Cert.KernelIdeal.nD) : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) := (h c).2.2.2.2.2.2.2.2.2.2.2.2.2.2.2.1
theorem Agree.a16 (h : Agree m m') (c : Dev Cert.KernelIdeal.nD) : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) := (h c).2.2.2.2.2.2.2.2.2.2.2.2.2.2.2.2.1
theorem Agree.a17 (h : Agree m m') (c : Dev Cert.KernelIdeal.nD) : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) := (h c).2.2.2.2.2.2.2.2.2.2.2.2.2.2.2.2.2.1
theorem Agree.a18 (h : Agree m m') (c : Dev Cert.KernelIdeal.nD) : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) := (h c).2.2.2.2.2.2.2.2.2.2.2.2.2.2.2.2.2.2.1
theorem Agree.a19 (h : Agree m m') (c : Dev Cert.KernelIdeal.nD) : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) := (h c).2.2.2.2.2.2.2.2.2.2.2.2.2.2.2.2.2.2.2

variable (m')

/-- The reference's buffers after the first layer's gathers. -/
def RA (c : Dev Cert.ReferenceIdeal.nD) : Valuation Cert.ReferenceIdeal.τ Cert.ReferenceIdeal.sig (Elt Ideal) := StableHlo.after Cert.ReferenceIdeal.RefRun.opsA (StableHlo.launchContents m' c)
/-- … after the first layer's message. -/
def RM1 (c : Dev Cert.ReferenceIdeal.nD) : Valuation Cert.ReferenceIdeal.τ Cert.ReferenceIdeal.sig (Elt Ideal) := StableHlo.after Cert.ReferenceIdeal.RefRun.opsM1 (RA m' c)
/-- … after the second layer's gathers. -/
def RB (c : Dev Cert.ReferenceIdeal.nD) : Valuation Cert.ReferenceIdeal.τ Cert.ReferenceIdeal.sig (Elt Ideal) := StableHlo.after Cert.ReferenceIdeal.RefRun.opsB (RM1 m' c)
/-- … after the second layer's message. -/
def RM2 (c : Dev Cert.ReferenceIdeal.nD) : Valuation Cert.ReferenceIdeal.τ Cert.ReferenceIdeal.sig (Elt Ideal) := StableHlo.after Cert.ReferenceIdeal.RefRun.opsM2 (RB m' c)
/-- … at the end. -/
def RC (c : Dev Cert.ReferenceIdeal.nD) : Valuation Cert.ReferenceIdeal.τ Cert.ReferenceIdeal.sig (Elt Ideal) := StableHlo.after Cert.ReferenceIdeal.RefRun.opsC (RM2 m' c)

/-- A fold over five lists in a row is the five folds in turn. -/
theorem after5 (A M1 B M2 C : List (HloOp Cert.ReferenceIdeal.τ Cert.ReferenceIdeal.sig (Elt Ideal))) (V : Valuation Cert.ReferenceIdeal.τ Cert.ReferenceIdeal.sig (Elt Ideal)) :
    StableHlo.after (A ++ (M1 ++ (B ++ (M2 ++ C)))) V
      = StableHlo.after C (StableHlo.after M2 (StableHlo.after B (StableHlo.after M1 (StableHlo.after A V)))) := by
  simp only [Cert.ReferenceIdeal.RefRun.after_append]

/-- The whole list's fold is the five cuts' folds in turn. -/
theorem after_ops (c : Dev Cert.ReferenceIdeal.nD) :
    StableHlo.after (Cert.ReferenceIdeal.RefRun.ops (F := Ideal)) (StableHlo.launchContents m' c) = RC m' c := by
  unfold RC RM2 RB RM1 RA
  exact after5 _ _ _ _ _ _

end Cert.Bridge

end
-- ==== Proof.Stage0.lean ====
/-
  The index vectors and the gathered node features of the first layer are the same arrays in both programs: both
  apply the same slice, re-lay, wrap-around of negative indices and row gather to the same argument arrays.
-/
import proofs.«128043_j25649544692460_2_alg».proof.Proof.Gen.KernelIdeal.Frame
import proofs.«128043_j25649544692460_2_alg».proof.Proof.Agree
import Idealize.ShloMosaic.Lib.StableHlo.Run

noncomputable section

namespace Cert.Bridge

open Idealize.ShloMosaic Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 1000000 in
theorem s0_xd (hag : Agree m m') : Cert.KernelIdeal.Gen.W1 m ρ c (Proc.devRef .tc Cert.KernelIdeal.main_v10) = RA m' c (Proc.devRef .tc Cert.ReferenceIdeal.main_v10) := by
  unfold RA
  dsimp only [Cert.KernelIdeal.Gen.W1]
  after_results_simp
  have k0 : Cert.KernelIdeal.Gen.W0 m ρ c (Proc.devRef .tc Cert.KernelIdeal.main_arg0) = m ((c.tc : Thread Cert.KernelIdeal.nD Cert.KernelIdeal.τ).loc Cert.KernelIdeal.main_arg0) := rfl
  have k1 : Cert.KernelIdeal.Gen.W0 m ρ c (Proc.devRef .tc Cert.KernelIdeal.main_arg1) = m ((c.tc : Thread Cert.KernelIdeal.nD Cert.KernelIdeal.τ).loc Cert.KernelIdeal.main_arg1) := rfl
  have r0 : StableHlo.launchContents m' c (Proc.devRef .tc Cert.ReferenceIdeal.main_arg0) = m' ((c.tc : Thread Cert.ReferenceIdeal.nD Cert.ReferenceIdeal.τ).loc Cert.ReferenceIdeal.main_arg0) := rfl
  have r1 : StableHlo.launchContents m' c (Proc.devRef .tc Cert.ReferenceIdeal.main_arg1) = m' ((c.tc : Thread Cert.ReferenceIdeal.nD Cert.ReferenceIdeal.τ).loc Cert.ReferenceIdeal.main_arg1) := rfl
  rw [k0, k1, r0, r1, hag.a0 c, hag.a1 c]
  rfl

set_option maxHeartbeats 1000000 in
theorem s0_xs (hag : Agree m m') : Cert.KernelIdeal.Gen.W1 m ρ c (Proc.devRef .tc Cert.KernelIdeal.main_v17) = RA m' c (Proc.devRef .tc Cert.ReferenceIdeal.main_v17) := by
  unfold RA
  dsimp only [Cert.KernelIdeal.Gen.W1]
  after_results_simp
  have k0 : Cert.KernelIdeal.Gen.W0 m ρ c (Proc.devRef .tc Cert.KernelIdeal.main_arg0) = m ((c.tc : Thread Cert.KernelIdeal.nD Cert.KernelIdeal.τ).loc Cert.KernelIdeal.main_arg0) := rfl
  have k1 : Cert.KernelIdeal.Gen.W0 m ρ c (Proc.devRef .tc Cert.KernelIdeal.main_arg1) = m ((c.tc : Thread Cert.KernelIdeal.nD Cert.KernelIdeal.τ).loc Cert.KernelIdeal.main_arg1) := rfl
  have r0 : StableHlo.launchContents m' c (Proc.devRef .tc Cert.ReferenceIdeal.main_arg0) = m' ((c.tc : Thread Cert.ReferenceIdeal.nD Cert.ReferenceIdeal.τ).loc Cert.ReferenceIdeal.main_arg0) := rfl
  have r1 : StableHlo.launchContents m' c (Proc.devRef .tc Cert.ReferenceIdeal.main_arg1) = m' ((c.tc : Thread Cert.ReferenceIdeal.nD Cert.ReferenceIdeal.τ).loc Cert.ReferenceIdeal.main_arg1) := rfl
  rw [k0, k1, r0, r1, hag.a0 c, hag.a1 c]
  rfl

set_option maxHeartbeats 1000000 in
theorem s0_dst (hag : Agree m m') : Cert.KernelIdeal.Gen.W1 m ρ c (Proc.devRef .tc Cert.KernelIdeal.main_v3) = RA m' c (Proc.devRef .tc Cert.ReferenceIdeal.main_v3) := by
  unfold RA
  dsimp only [Cert.KernelIdeal.Gen.W1]
  after_results_simp
  have k1 : Cert.KernelIdeal.Gen.W0 m ρ c (Proc.devRef .tc Cert.KernelIdeal.main_arg1) = m ((c.tc : Thread Cert.KernelIdeal.nD Cert.KernelIdeal.τ).loc Cert.KernelIdeal.main_arg1) := rfl
  have r1 : StableHlo.launchContents m' c (Proc.devRef .tc Cert.ReferenceIdeal.main_arg1) = m' ((c.tc : Thread Cert.ReferenceIdeal.nD Cert.ReferenceIdeal.τ).loc Cert.ReferenceIdeal.main_arg1) := rfl
  rw [k1, r1, hag.a1 c]
  rfl

set_option maxHeartbeats 1000000 in
theorem s0_src (hag : Agree m m') : Cert.KernelIdeal.Gen.W1 m ρ c (Proc.devRef .tc Cert.KernelIdeal.main_v1) = RA m' c (Proc.devRef .tc Cert.ReferenceIdeal.main_v1) := by
  unfold RA
  dsimp only [Cert.KernelIdeal.Gen.W1]
  after_results_simp
  have k1 : Cert.KernelIdeal.Gen.W0 m ρ c (Proc.devRef .tc Cert.KernelIdeal.main_arg1) = m ((c.tc : Thread Cert.KernelIdeal.nD Cert.KernelIdeal.τ).loc Cert.KernelIdeal.main_arg1) := rfl
  have r1 : StableHlo.launchContents m' c (Proc.devRef .tc Cert.ReferenceIdeal.main_arg1) = m' ((c.tc : Thread Cert.ReferenceIdeal.nD Cert.ReferenceIdeal.τ).loc Cert.ReferenceIdeal.main_arg1) := rfl
  rw [k1, r1, hag.a1 c]
  rfl

end Cert.Bridge

end
-- ==== Proof.RPass.lean ====
/-
  The reference's argument arrays and index vectors, read at each cut of its operation list: no operation writes an
  argument, and the index vectors are written once, before the first cut.
-/
import proofs.«128043_j25649544692460_2_alg».proof.Proof.Agree
import Idealize.ShloMosaic.Lib.StableHlo.Run

noncomputable section

namespace Cert.Bridge

open Idealize.ShloMosaic Idealize.SL.Sem

variable (m' : (ℓ : Loc Cert.ReferenceIdeal.nD Cert.ReferenceIdeal.τ Cert.ReferenceIdeal.sig) → Buf (Elt Ideal) ℓ) (c : Dev Cert.KernelIdeal.nD)

set_option maxHeartbeats 2000000 in
theorem RA_arg2 : RA m' c (Proc.devRef .tc Cert.ReferenceIdeal.main_arg2) = m' ((c.tc : Thread Cert.ReferenceIdeal.nD Cert.ReferenceIdeal.τ).loc Cert.ReferenceIdeal.main_arg2) := by
  unfold RA
  after_results_simp

set_option maxHeartbeats 2000000 in
theorem RA_arg4 : RA m' c (Proc.devRef .tc Cert.ReferenceIdeal.main_arg4) = m' ((c.tc : Thread Cert.ReferenceIdeal.nD Cert.ReferenceIdeal.τ).loc Cert.ReferenceIdeal.main_arg4) := by
  unfold RA
  after_results_simp

set_option maxHeartbeats 2000000 in
theorem RA_arg5 : RA m' c (Proc.devRef .tc Cert.ReferenceIdeal.main_arg5) = m' ((c.tc : Thread Cert.ReferenceIdeal.nD Cert.ReferenceIdeal.τ).loc Cert.ReferenceIdeal.main_arg5) := by
  unfold RA
  after_results_simp

set_option maxHeartbeats 2000000 in
theorem RA_arg6 : RA m' c (Proc.devRef .tc Cert.ReferenceIdeal.main_arg6) = m' ((c.tc : Thread Cert.ReferenceIdeal.nD Cert.ReferenceIdeal.τ).loc Cert.ReferenceIdeal.main_arg6) := by
  unfold RA
  after_results_simp

set_option maxHeartbeats 2000000 in
theorem RA_arg7 : RA m' c (Proc.devRef .tc Cert.ReferenceIdeal.main_arg7) = m' ((c.tc : Thread Cert.ReferenceIdeal.nD Cert.ReferenceIdeal.τ).loc Cert.ReferenceIdeal.main_arg7) := by
  unfold RA
  after_results_simp

set_option maxHeartbeats 2000000 in
theorem RM1_arg0 : RM1 m' c (Proc.devRef .tc Cert.ReferenceIdeal.main_arg0) = m' ((c.tc : Thread Cert.ReferenceIdeal.nD Cert.ReferenceIdeal.τ).loc Cert.ReferenceIdeal.main_arg0) := by
  unfold RM1 RA
  after_results_simp

set_option maxHeartbeats 2000000 in
theorem RM1_arg8 : RM1 m' c (Proc.devRef .tc Cert.ReferenceIdeal.main_arg8) = m' ((c.tc : Thread Cert.ReferenceIdeal.nD Cert.ReferenceIdeal.τ).loc Cert.ReferenceIdeal.main_arg8) := by
  unfold RM1 RA
  after_results_simp

set_option maxHeartbeats 2000000 in
theorem RM1_arg9 : RM1 m' c (Proc.devRef .tc Cert.ReferenceIdeal.main_arg9) = m' ((c.tc : Thread Cert.ReferenceIdeal.nD Cert.ReferenceIdeal.τ).loc Cert.ReferenceIdeal.main_arg9) := by
  unfold RM1 RA
  after_results_simp

set_option maxHeartbeats 2000000 in
theorem RB_arg2 : RB m' c (Proc.devRef .tc Cert.ReferenceIdeal.main_arg2) = m' ((c.tc : Thread Cert.ReferenceIdeal.nD Cert.ReferenceIdeal.τ).loc Cert.ReferenceIdeal.main_arg2) := by
  unfold RB RM1 RA
  after_results_simp

set_option maxHeartbeats 2000000 in
theorem RB_arg10 : RB m' c (Proc.devRef .tc Cert.ReferenceIdeal.main_arg10) = m' ((c.tc : Thread Cert.ReferenceIdeal.nD Cert.ReferenceIdeal.τ).loc Cert.ReferenceIdeal.main_arg10) := by
  unfold RB RM1 RA
  after_results_simp

set_option maxHeartbeats 2000000 in
theorem RB_arg11 : RB m' c (Proc.devRef .tc Cert.ReferenceIdeal.main_arg11) = m' ((c.tc : Thread Cert.ReferenceIdeal.nD Cert.ReferenceIdeal.τ).loc Cert.ReferenceIdeal.main_arg11) := by
  unfold RB RM1 RA
  after_results_simp

set_option maxHeartbeats 2000000 in
theorem RB_arg12 : RB m' c (Proc.devRef .tc Cert.ReferenceIdeal.main_arg12) = m' ((c.tc : Thread Cert.ReferenceIdeal.nD Cert.ReferenceIdeal.τ).loc Cert.ReferenceIdeal.main_arg12) := by
  unfold RB RM1 RA
  after_results_simp

set_option maxHeartbeats 2000000 in
theorem RB_arg13 : RB m' c (Proc.devRef .tc Cert.ReferenceIdeal.main_arg13) = m' ((c.tc : Thread Cert.ReferenceIdeal.nD Cert.ReferenceIdeal.τ).loc Cert.ReferenceIdeal.main_arg13) := by
  unfold RB RM1 RA
  after_results_simp

set_option maxHeartbeats 2000000 in
theorem RM2_arg3 : RM2 m' c (Proc.devRef .tc Cert.ReferenceIdeal.main_arg3) = m' ((c.tc : Thread Cert.ReferenceIdeal.nD Cert.ReferenceIdeal.τ).loc Cert.ReferenceIdeal.main_arg3) := by
  unfold RM2 RB RM1 RA
  after_results_simp

set_option maxHeartbeats 2000000 in
theorem RM2_arg14 : RM2 m' c (Proc.devRef .tc Cert.ReferenceIdeal.main_arg14) = m' ((c.tc : Thread Cert.ReferenceIdeal.nD Cert.ReferenceIdeal.τ).loc Cert.ReferenceIdeal.main_arg14) := by
  unfold RM2 RB RM1 RA
  after_results_simp

set_option maxHeartbeats 2000000 in
theorem RM2_arg15 : RM2 m' c (Proc.devRef .tc Cert.ReferenceIdeal.main_arg15) = m' ((c.tc : Thread Cert.ReferenceIdeal.nD Cert.ReferenceIdeal.τ).loc Cert.ReferenceIdeal.main_arg15) := by
  unfold RM2 RB RM1 RA
  after_results_simp

set_option maxHeartbeats 2000000 in
theorem RM2_arg16 : RM2 m' c (Proc.devRef .tc Cert.ReferenceIdeal.main_arg16) = m' ((c.tc : Thread Cert.ReferenceIdeal.nD Cert.ReferenceIdeal.τ).loc Cert.ReferenceIdeal.main_arg16) := by
  unfold RM2 RB RM1 RA
  after_results_simp

set_option maxHeartbeats 2000000 in
theorem RM2_arg17 : RM2 m' c (Proc.devRef .tc Cert.ReferenceIdeal.main_arg17) = m' ((c.tc : Thread Cert.ReferenceIdeal.nD Cert.ReferenceIdeal.τ).loc Cert.ReferenceIdeal.main_arg17) := by
  unfold RM2 RB RM1 RA
  after_results_simp

set_option maxHeartbeats 2000000 in
theorem RM2_arg18 : RM2 m' c (Proc.devRef .tc Cert.ReferenceIdeal.main_arg18) = m' ((c.tc : Thread Cert.ReferenceIdeal.nD Cert.ReferenceIdeal.τ).loc Cert.ReferenceIdeal.main_arg18) := by
  unfold RM2 RB RM1 RA
  after_results_simp

set_option maxHeartbeats 2000000 in
theorem RM2_arg19 : RM2 m' c (Proc.devRef .tc Cert.ReferenceIdeal.main_arg19) = m' ((c.tc : Thread Cert.ReferenceIdeal.nD Cert.ReferenceIdeal.τ).loc Cert.ReferenceIdeal.main_arg19) := by
  unfold RM2 RB RM1 RA
  after_results_simp

set_option maxHeartbeats 2000000 in
theorem RM1_v3 : RM1 m' c (Proc.devRef .tc Cert.ReferenceIdeal.main_v3) = RA m' c (Proc.devRef .tc Cert.ReferenceIdeal.main_v3) := by
  unfold RM1
  after_results_simp

set_option maxHeartbeats 2000000 in
theorem RM1_v1 : RM1 m' c (Proc.devRef .tc Cert.ReferenceIdeal.main_v1) = RA m' c (Proc.devRef .tc Cert.ReferenceIdeal.main_v1) := by
  unfold RM1
  after_results_simp

set_option maxHeartbeats 2000000 in
theorem RB_v3 : RB m' c (Proc.devRef .tc Cert.ReferenceIdeal.main_v3) = RA m' c (Proc.devRef .tc Cert.ReferenceIdeal.main_v3) := by
  unfold RB RM1
  after_results_simp

set_option maxHeartbeats 2000000 in
theorem RM2_v3 : RM2 m' c (Proc.devRef .tc Cert.ReferenceIdeal.main_v3) = RA m' c (Proc.devRef .tc Cert.ReferenceIdeal.main_v3) := by
  unfold RM2 RB RM1
  after_results_simp

set_option maxHeartbeats 2000000 in
theorem RM2_v57 : RM2 m' c (Proc.devRef .tc Cert.ReferenceIdeal.main_v57) = RB m' c (Proc.devRef .tc Cert.ReferenceIdeal.main_v57) := by
  unfold RM2
  after_results_simp

end Cert.Bridge

end
-- ==== Proof.KernelLeaves.lean ====
import proofs.«128043_j25649544692460_2_alg».proof.Proof.Gen.KernelIdeal.Frame

/-! # Reading the boundary contents across the two regions

A region changes only its windows' arrays. At a region's exit its output array holds the fold of the output window's
write-backs over all grid points; an input array holds what it held at entry; every buffer that is no window's array
holds what it held at entry. These are the reads of the exit contents `Gen.W2` (first region) and `Gen.W6` (second
region) at the buffers the later host stretches consume. -/

set_option maxRecDepth 16384

noncomputable section

namespace Cert.KernelIdeal.KernelRun

open Idealize.ShloMosaic Idealize.ShloMosaic.TcCoe Idealize.ShloMosaic.Tactic
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

/-! ## The first region -/

/-- The first region's output array (its window 11) at the exit: the output window's write-backs folded over the
    whole grid. -/
theorem W2_out (c : Dev nD) :
    W2 m ρ c (Proc.devRef .tc main_v32) = (dat0 (V1 m ρ) c).arrAt 11 cfg0.N :=
  W2_arr m ρ c 11

/-- The shared input array (window 2 of the first region) is an input: its contents at the exit are the entry's. -/
theorem W2_keep_main_arg2 (c : Dev nD) :
    W2 m ρ c (Proc.devRef .tc main_arg2) = W1 m ρ c (Proc.devRef .tc main_arg2) :=
  (W2_arr m ρ c 2).trans (((dat0 (V1 m ρ) c).arrAt_in 2 rfl _).trans (A_eq0 (V1 m ρ) c 2))

/-- `main_v1` is no window's array of the first region: the region leaves it as entered. -/
theorem W2_keep_main_v1 (c : Dev nD) :
    W2 m ρ c (Proc.devRef .tc main_v1) = W1 m ρ c (Proc.devRef .tc main_v1) :=
  W2_of_ne m ρ c main_v1 (by decide)

/-- `main_v3` is no window's array of the first region: the region leaves it as entered. -/
theorem W2_keep_main_v3 (c : Dev nD) :
    W2 m ρ c (Proc.devRef .tc main_v3) = W1 m ρ c (Proc.devRef .tc main_v3) :=
  W2_of_ne m ρ c main_v3 (by decide)

/-- `main_arg0` is no window's array of the first region: the region leaves it as entered. -/
theorem W2_keep_main_arg0 (c : Dev nD) :
    W2 m ρ c (Proc.devRef .tc main_arg0) = W1 m ρ c (Proc.devRef .tc main_arg0) :=
  W2_of_ne m ρ c main_arg0 (by decide)

/-- `main_arg3` is no window's array of the first region: the region leaves it as entered. -/
theorem W2_keep_main_arg3 (c : Dev nD) :
    W2 m ρ c (Proc.devRef .tc main_arg3) = W1 m ρ c (Proc.devRef .tc main_arg3) :=
  W2_of_ne m ρ c main_arg3 (by decide)

/-- `main_arg8` is no window's array of the first region: the region leaves it as entered. -/
theorem W2_keep_main_arg8 (c : Dev nD) :
    W2 m ρ c (Proc.devRef .tc main_arg8) = W1 m ρ c (Proc.devRef .tc main_arg8) :=
  W2_of_ne m ρ c main_arg8 (by decide)

/-- `main_arg9` is no window's array of the first region: the region leaves it as entered. -/
theorem W2_keep_main_arg9 (c : Dev nD) :
    W2 m ρ c (Proc.devRef .tc main_arg9) = W1 m ρ c (Proc.devRef .tc main_arg9) :=
  W2_of_ne m ρ c main_arg9 (by decide)

/-- `main_arg10` is no window's array of the first region: the region leaves it as entered. -/
theorem W2_keep_main_arg10 (c : Dev nD) :
    W2 m ρ c (Proc.devRef .tc main_arg10) = W1 m ρ c (Proc.devRef .tc main_arg10) :=
  W2_of_ne m ρ c main_arg10 (by decide)

/-- `main_arg11` is no window's array of the first region: the region leaves it as entered. -/
theorem W2_keep_main_arg11 (c : Dev nD) :
    W2 m ρ c (Proc.devRef .tc main_arg11) = W1 m ρ c (Proc.devRef .tc main_arg11) :=
  W2_of_ne m ρ c main_arg11 (by decide)

/-- `main_arg12` is no window's array of the first region: the region leaves it as entered. -/
theorem W2_keep_main_arg12 (c : Dev nD) :
    W2 m ρ c (Proc.devRef .tc main_arg12) = W1 m ρ c (Proc.devRef .tc main_arg12) :=
  W2_of_ne m ρ c main_arg12 (by decide)

/-- `main_arg13` is no window's array of the first region: the region leaves it as entered. -/
theorem W2_keep_main_arg13 (c : Dev nD) :
    W2 m ρ c (Proc.devRef .tc main_arg13) = W1 m ρ c (Proc.devRef .tc main_arg13) :=
  W2_of_ne m ρ c main_arg13 (by decide)

/-- `main_arg14` is no window's array of the first region: the region leaves it as entered. -/
theorem W2_keep_main_arg14 (c : Dev nD) :
    W2 m ρ c (Proc.devRef .tc main_arg14) = W1 m ρ c (Proc.devRef .tc main_arg14) :=
  W2_of_ne m ρ c main_arg14 (by decide)

/-- `main_arg15` is no window's array of the first region: the region leaves it as entered. -/
theorem W2_keep_main_arg15 (c : Dev nD) :
    W2 m ρ c (Proc.devRef .tc main_arg15) = W1 m ρ c (Proc.devRef .tc main_arg15) :=
  W2_of_ne m ρ c main_arg15 (by decide)

/-- `main_arg16` is no window's array of the first region: the region leaves it as entered. -/
theorem W2_keep_main_arg16 (c : Dev nD) :
    W2 m ρ c (Proc.devRef .tc main_arg16) = W1 m ρ c (Proc.devRef .tc main_arg16) :=
  W2_of_ne m ρ c main_arg16 (by decide)

/-- `main_arg17` is no window's array of the first region: the region leaves it as entered. -/
theorem W2_keep_main_arg17 (c : Dev nD) :
    W2 m ρ c (Proc.devRef .tc main_arg17) = W1 m ρ c (Proc.devRef .tc main_arg17) :=
  W2_of_ne m ρ c main_arg17 (by decide)

/-- `main_arg18` is no window's array of the first region: the region leaves it as entered. -/
theorem W2_keep_main_arg18 (c : Dev nD) :
    W2 m ρ c (Proc.devRef .tc main_arg18) = W1 m ρ c (Proc.devRef .tc main_arg18) :=
  W2_of_ne m ρ c main_arg18 (by decide)

/-- `main_arg19` is no window's array of the first region: the region leaves it as entered. -/
theorem W2_keep_main_arg19 (c : Dev nD) :
    W2 m ρ c (Proc.devRef .tc main_arg19) = W1 m ρ c (Proc.devRef .tc main_arg19) :=
  W2_of_ne m ρ c main_arg19 (by decide)

/-! ## The second region -/

/-- The second region's output array (its window 11) at the exit: the output window's write-backs folded over the
    whole grid. -/
theorem W6_out (c : Dev nD) :
    W6 m ρ c (Proc.devRef .tc main_v84) = (dat1 (V5 m ρ) c).arrAt 11 cfg1.N :=
  W6_arr m ρ c 11

/-- `main_v1` is no window's array of the second region: the region leaves it as entered. -/
theorem W6_keep_main_v1 (c : Dev nD) :
    W6 m ρ c (Proc.devRef .tc main_v1) = W5 m ρ c (Proc.devRef .tc main_v1) :=
  W6_of_ne m ρ c main_v1 (by decide)

/-- `main_v3` is no window's array of the second region: the region leaves it as entered. -/
theorem W6_keep_main_v3 (c : Dev nD) :
    W6 m ρ c (Proc.devRef .tc main_v3) = W5 m ρ c (Proc.devRef .tc main_v3) :=
  W6_of_ne m ρ c main_v3 (by decide)

/-- `main_v55` is no window's array of the second region: the region leaves it as entered. -/
theorem W6_keep_main_v55 (c : Dev nD) :
    W6 m ρ c (Proc.devRef .tc main_v55) = W5 m ρ c (Proc.devRef .tc main_v55) :=
  W6_of_ne m ρ c main_v55 (by decide)

/-- `main_arg3` is no window's array of the second region: the region leaves it as entered. -/
theorem W6_keep_main_arg3 (c : Dev nD) :
    W6 m ρ c (Proc.devRef .tc main_arg3) = W5 m ρ c (Proc.devRef .tc main_arg3) :=
  W6_of_ne m ρ c main_arg3 (by decide)

/-- `main_arg14` is no window's array of the second region: the region leaves it as entered. -/
theorem W6_keep_main_arg14 (c : Dev nD) :
    W6 m ρ c (Proc.devRef .tc main_arg14) = W5 m ρ c (Proc.devRef .tc main_arg14) :=
  W6_of_ne m ρ c main_arg14 (by decide)

/-- `main_arg15` is no window's array of the second region: the region leaves it as entered. -/
theorem W6_keep_main_arg15 (c : Dev nD) :
    W6 m ρ c (Proc.devRef .tc main_arg15) = W5 m ρ c (Proc.devRef .tc main_arg15) :=
  W6_of_ne m ρ c main_arg15 (by decide)

/-- `main_arg16` is no window's array of the second region: the region leaves it as entered. -/
theorem W6_keep_main_arg16 (c : Dev nD) :
    W6 m ρ c (Proc.devRef .tc main_arg16) = W5 m ρ c (Proc.devRef .tc main_arg16) :=
  W6_of_ne m ρ c main_arg16 (by decide)

/-- `main_arg17` is no window's array of the second region: the region leaves it as entered. -/
theorem W6_keep_main_arg17 (c : Dev nD) :
    W6 m ρ c (Proc.devRef .tc main_arg17) = W5 m ρ c (Proc.devRef .tc main_arg17) :=
  W6_of_ne m ρ c main_arg17 (by decide)

/-- `main_arg18` is no window's array of the second region: the region leaves it as entered. -/
theorem W6_keep_main_arg18 (c : Dev nD) :
    W6 m ρ c (Proc.devRef .tc main_arg18) = W5 m ρ c (Proc.devRef .tc main_arg18) :=
  W6_of_ne m ρ c main_arg18 (by decide)

/-- `main_arg19` is no window's array of the second region: the region leaves it as entered. -/
theorem W6_keep_main_arg19 (c : Dev nD) :
    W6 m ρ c (Proc.devRef .tc main_arg19) = W5 m ρ c (Proc.devRef .tc main_arg19) :=
  W6_of_ne m ρ c main_arg19 (by decide)

end Cert.KernelIdeal.KernelRun

end
-- ==== Proof.KPass.lean ====
import proofs.«128043_j25649544692460_2_alg».proof.Proof.KernelLeaves

/-! # Argument arrays and index vectors at the boundaries

A host stretch changes only the buffers its operations write; a region changes only its windows' arrays, and of
those only the output. So an argument array that no stretch writes holds its launch contents at every boundary, and
the two index vectors computed in the first stretch hold, at the second region's entry, what they held at the first
region's entry. -/

set_option maxRecDepth 16384

noncomputable section

namespace Cert.KernelIdeal.KernelRun

open Idealize.ShloMosaic Idealize.ShloMosaic.TcCoe Idealize.ShloMosaic.Tactic
open Cert.KernelIdeal.Gen

variable {F : FTy → Type} [FloatOps F]
variable (m : (ℓ : Loc nD τ sig) → Buf (Elt F) ℓ) (ρ : Dev nD → PrngReg)

/-- A buffer that no operation of the named stretch writes keeps its contents across the stretch: each operation
    writes its one result buffer, a different reference. -/
local macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Across the first stretch: from the launch to the first region's entry -/

/-- No operation of the first stretch writes `main_arg0`: at the first region's entry it holds its launch contents. -/
theorem W1_arg0 (c : Dev nD) :
    W1 m ρ c (Proc.devRef .tc main_arg0) = m ((c.tc : Thread nD τ).loc main_arg0) :=
  (show W1 m ρ c (Proc.devRef .tc main_arg0) = W0 m ρ c (Proc.devRef .tc main_arg0) by unwritten hostOps0).trans rfl

/-- No operation of the first stretch writes `main_arg2`: at the first region's entry it holds its launch contents. -/
theorem W1_arg2 (c : Dev nD) :
    W1 m ρ c (Proc.devRef .tc main_arg2) = m ((c.tc : Thread nD τ).loc main_arg2) :=
  (show W1 m ρ c (Proc.devRef .tc main_arg2) = W0 m ρ c (Proc.devRef .tc main_arg2) by unwritten hostOps0).trans rfl

/-- No operation of the first stretch writes `main_arg3`: at the first region's entry it holds its launch contents. -/
theorem W1_arg3 (c : Dev nD) :
    W1 m ρ c (Proc.devRef .tc main_arg3) = m ((c.tc : Thread nD τ).loc main_arg3) :=
  (show W1 m ρ c (Proc.devRef .tc main_arg3) = W0 m ρ c (Proc.devRef .tc main_arg3) by unwritten hostOps0).trans rfl

/-- No operation of the first stretch writes `main_arg8`: at the first region's entry it holds its launch contents. -/
theorem W1_arg8 (c : Dev nD) :
    W1 m ρ c (Proc.devRef .tc main_arg8) = m ((c.tc : Thread nD τ).loc main_arg8) :=
  (show W1 m ρ c (Proc.devRef .tc main_arg8) = W0 m ρ c (Proc.devRef .tc main_arg8) by unwritten hostOps0).trans rfl

/-- No operation of the first stretch writes `main_arg9`: at the first region's entry it holds its launch contents. -/
theorem W1_arg9 (c : Dev nD) :
    W1 m ρ c (Proc.devRef .tc main_arg9) = m ((c.tc : Thread nD τ).loc main_arg9) :=
  (show W1 m ρ c (Proc.devRef .tc main_arg9) = W0 m ρ c (Proc.devRef .tc main_arg9) by unwritten hostOps0).trans rfl

/-- No operation of the first stretch writes `main_arg10`: at the first region's entry it holds its launch contents. -/
theorem W1_arg10 (c : Dev nD) :
    W1 m ρ c (Proc.devRef .tc main_arg10) = m ((c.tc : Thread nD τ).loc main_arg10) :=
  (show W1 m ρ c (Proc.devRef .tc main_arg10) = W0 m ρ c (Proc.devRef .tc main_arg10) by unwritten hostOps0).trans rfl

/-- No operation of the first stretch writes `main_arg11`: at the first region's entry it holds its launch contents. -/
theorem W1_arg11 (c : Dev nD) :
    W1 m ρ c (Proc.devRef .tc main_arg11) = m ((c.tc : Thread nD τ).loc main_arg11) :=
  (show W1 m ρ c (Proc.devRef .tc main_arg11) = W0 m ρ c (Proc.devRef .tc main_arg11) by unwritten hostOps0).trans rfl

/-- No operation of the first stretch writes `main_arg12`: at the first region's entry it holds its launch contents. -/
theorem W1_arg12 (c : Dev nD) :
    W1 m ρ c (Proc.devRef .tc main_arg12) = m ((c.tc : Thread nD τ).loc main_arg12) :=
  (show W1 m ρ c (Proc.devRef .tc main_arg12) = W0 m ρ c (Proc.devRef .tc main_arg12) by unwritten hostOps0).trans rfl

/-- No operation of the first stretch writes `main_arg13`: at the first region's entry it holds its launch contents. -/
theorem W1_arg13 (c : Dev nD) :
    W1 m ρ c (Proc.devRef .tc main_arg13) = m ((c.tc : Thread nD τ).loc main_arg13) :=
  (show W1 m ρ c (Proc.devRef .tc main_arg13) = W0 m ρ c (Proc.devRef .tc main_arg13) by unwritten hostOps0).trans rfl

/-- No operation of the first stretch writes `main_arg14`: at the first region's entry it holds its launch contents. -/
theorem W1_arg14 (c : Dev nD) :
    W1 m ρ c (Proc.devRef .tc main_arg14) = m ((c.tc : Thread nD τ).loc main_arg14) :=
  (show W1 m ρ c (Proc.devRef .tc main_arg14) = W0 m ρ c (Proc.devRef .tc main_arg14) by unwritten hostOps0).trans rfl

/-- No operation of the first stretch writes `main_arg15`: at the first region's entry it holds its launch contents. -/
theorem W1_arg15 (c : Dev nD) :
    W1 m ρ c (Proc.devRef .tc main_arg15) = m ((c.tc : Thread nD τ).loc main_arg15) :=
  (show W1 m ρ c (Proc.devRef .tc main_arg15) = W0 m ρ c (Proc.devRef .tc main_arg15) by unwritten hostOps0).trans rfl

/-- No operation of the first stretch writes `main_arg16`: at the first region's entry it holds its launch contents. -/
theorem W1_arg16 (c : Dev nD) :
    W1 m ρ c (Proc.devRef .tc main_arg16) = m ((c.tc : Thread nD τ).loc main_arg16) :=
  (show W1 m ρ c (Proc.devRef .tc main_arg16) = W0 m ρ c (Proc.devRef .tc main_arg16) by unwritten hostOps0).trans rfl

/-- No operation of the first stretch writes `main_arg17`: at the first region's entry it holds its launch contents. -/
theorem W1_arg17 (c : Dev nD) :
    W1 m ρ c (Proc.devRef .tc main_arg17) = m ((c.tc : Thread nD τ).loc main_arg17) :=
  (show W1 m ρ c (Proc.devRef .tc main_arg17) = W0 m ρ c (Proc.devRef .tc main_arg17) by unwritten hostOps0).trans rfl

/-- No operation of the first stretch writes `main_arg18`: at the first region's entry it holds its launch contents. -/
theorem W1_arg18 (c : Dev nD) :
    W1 m ρ c (Proc.devRef .tc main_arg18) = m ((c.tc : Thread nD τ).loc main_arg18) :=
  (show W1 m ρ c (Proc.devRef .tc main_arg18) = W0 m ρ c (Proc.devRef .tc main_arg18) by unwritten hostOps0).trans rfl

/-- No operation of the first stretch writes `main_arg19`: at the first region's entry it holds its launch contents. -/
theorem W1_arg19 (c : Dev nD) :
    W1 m ρ c (Proc.devRef .tc main_arg19) = m ((c.tc : Thread nD τ).loc main_arg19) :=
  (show W1 m ρ c (Proc.devRef .tc main_arg19) = W0 m ρ c (Proc.devRef .tc main_arg19) by unwritten hostOps0).trans rfl

/-! ## Across the three stretches between the regions -/

/-- No operation between the two regions writes `main_v1`: at the second region's entry it holds what it held at the
    first region's exit. -/
theorem W5_eq_W2_v1 (c : Dev nD) :
    W5 m ρ c (Proc.devRef .tc main_v1) = W2 m ρ c (Proc.devRef .tc main_v1) :=
  calc W5 m ρ c (Proc.devRef .tc main_v1)
    _ = W4 m ρ c (Proc.devRef .tc main_v1) := by unwritten hostOps1_2
    _ = W3 m ρ c (Proc.devRef .tc main_v1) := by unwritten hostOps1_1
    _ = W2 m ρ c (Proc.devRef .tc main_v1) := by unwritten hostOps1

/-- No operation between the two regions writes `main_v3`: at the second region's entry it holds what it held at the
    first region's exit. -/
theorem W5_eq_W2_v3 (c : Dev nD) :
    W5 m ρ c (Proc.devRef .tc main_v3) = W2 m ρ c (Proc.devRef .tc main_v3) :=
  calc W5 m ρ c (Proc.devRef .tc main_v3)
    _ = W4 m ρ c (Proc.devRef .tc main_v3) := by unwritten hostOps1_2
    _ = W3 m ρ c (Proc.devRef .tc main_v3) := by unwritten hostOps1_1
    _ = W2 m ρ c (Proc.devRef .tc main_v3) := by unwritten hostOps1

/-- No operation between the two regions writes `main_arg2`: at the second region's entry it holds what it held at the
    first region's exit. -/
theorem W5_eq_W2_arg2 (c : Dev nD) :
    W5 m ρ c (Proc.devRef .tc main_arg2) = W2 m ρ c (Proc.devRef .tc main_arg2) :=
  calc W5 m ρ c (Proc.devRef .tc main_arg2)
    _ = W4 m ρ c (Proc.devRef .tc main_arg2) := by unwritten hostOps1_2
    _ = W3 m ρ c (Proc.devRef .tc main_arg2) := by unwritten hostOps1_1
    _ = W2 m ρ c (Proc.devRef .tc main_arg2) := by unwritten hostOps1

/-- No operation between the two regions writes `main_arg3`: at the second region's entry it holds what it held at the
    first region's exit. -/
theorem W5_eq_W2_arg3 (c : Dev nD) :
    W5 m ρ c (Proc.devRef .tc main_arg3) = W2 m ρ c (Proc.devRef .tc main_arg3) :=
  calc W5 m ρ c (Proc.devRef .tc main_arg3)
    _ = W4 m ρ c (Proc.devRef .tc main_arg3) := by unwritten hostOps1_2
    _ = W3 m ρ c (Proc.devRef .tc main_arg3) := by unwritten hostOps1_1
    _ = W2 m ρ c (Proc.devRef .tc main_arg3) := by unwritten hostOps1

/-- No operation between the two regions writes `main_arg14`: at the second region's entry it holds what it held at the
    first region's exit. -/
theorem W5_eq_W2_arg14 (c : Dev nD) :
    W5 m ρ c (Proc.devRef .tc main_arg14) = W2 m ρ c (Proc.devRef .tc main_arg14) :=
  calc W5 m ρ c (Proc.devRef .tc main_arg14)
    _ = W4 m ρ c (Proc.devRef .tc main_arg14) := by unwritten hostOps1_2
    _ = W3 m ρ c (Proc.devRef .tc main_arg14) := by unwritten hostOps1_1
    _ = W2 m ρ c (Proc.devRef .tc main_arg14) := by unwritten hostOps1

/-- No operation between the two regions writes `main_arg15`: at the second region's entry it holds what it held at the
    first region's exit. -/
theorem W5_eq_W2_arg15 (c : Dev nD) :
    W5 m ρ c (Proc.devRef .tc main_arg15) = W2 m ρ c (Proc.devRef .tc main_arg15) :=
  calc W5 m ρ c (Proc.devRef .tc main_arg15)
    _ = W4 m ρ c (Proc.devRef .tc main_arg15) := by unwritten hostOps1_2
    _ = W3 m ρ c (Proc.devRef .tc main_arg15) := by unwritten hostOps1_1
    _ = W2 m ρ c (Proc.devRef .tc main_arg15) := by unwritten hostOps1

/-- No operation between the two regions writes `main_arg16`: at the second region's entry it holds what it held at the
    first region's exit. -/
theorem W5_eq_W2_arg16 (c : Dev nD) :
    W5 m ρ c (Proc.devRef .tc main_arg16) = W2 m ρ c (Proc.devRef .tc main_arg16) :=
  calc W5 m ρ c (Proc.devRef .tc main_arg16)
    _ = W4 m ρ c (Proc.devRef .tc main_arg16) := by unwritten hostOps1_2
    _ = W3 m ρ c (Proc.devRef .tc main_arg16) := by unwritten hostOps1_1
    _ = W2 m ρ c (Proc.devRef .tc main_arg16) := by unwritten hostOps1

/-- No operation between the two regions writes `main_arg17`: at the second region's entry it holds what it held at the
    first region's exit. -/
theorem W5_eq_W2_arg17 (c : Dev nD) :
    W5 m ρ c (Proc.devRef .tc main_arg17) = W2 m ρ c (Proc.devRef .tc main_arg17) :=
  calc W5 m ρ c (Proc.devRef .tc main_arg17)
    _ = W4 m ρ c (Proc.devRef .tc main_arg17) := by unwritten hostOps1_2
    _ = W3 m ρ c (Proc.devRef .tc main_arg17) := by unwritten hostOps1_1
    _ = W2 m ρ c (Proc.devRef .tc main_arg17) := by unwritten hostOps1

/-- No operation between the two regions writes `main_arg18`: at the second region's entry it holds what it held at the
    first region's exit. -/
theorem W5_eq_W2_arg18 (c : Dev nD) :
    W5 m ρ c (Proc.devRef .tc main_arg18) = W2 m ρ c (Proc.devRef .tc main_arg18) :=
  calc W5 m ρ c (Proc.devRef .tc main_arg18)
    _ = W4 m ρ c (Proc.devRef .tc main_arg18) := by unwritten hostOps1_2
    _ = W3 m ρ c (Proc.devRef .tc main_arg18) := by unwritten hostOps1_1
    _ = W2 m ρ c (Proc.devRef .tc main_arg18) := by unwritten hostOps1

/-- No operation between the two regions writes `main_arg19`: at the second region's entry it holds what it held at the
    first region's exit. -/
theorem W5_eq_W2_arg19 (c : Dev nD) :
    W5 m ρ c (Proc.devRef .tc main_arg19) = W2 m ρ c (Proc.devRef .tc main_arg19) :=
  calc W5 m ρ c (Proc.devRef .tc main_arg19)
    _ = W4 m ρ c (Proc.devRef .tc main_arg19) := by unwritten hostOps1_2
    _ = W3 m ρ c (Proc.devRef .tc main_arg19) := by unwritten hostOps1_1
    _ = W2 m ρ c (Proc.devRef .tc main_arg19) := by unwritten hostOps1

/-! ## The argument arrays at the first region's exit -/

/-- `main_arg0` at the first region's exit: its launch contents. -/
theorem W2_arg0 (c : Dev nD) :
    W2 m ρ c (Proc.devRef .tc main_arg0) = m ((c.tc : Thread nD τ).loc main_arg0) :=
  (W2_keep_main_arg0 m ρ c).trans (W1_arg0 m ρ c)

/-- `main_arg8` at the first region's exit: its launch contents. -/
theorem W2_arg8 (c : Dev nD) :
    W2 m ρ c (Proc.devRef .tc main_arg8) = m ((c.tc : Thread nD τ).loc main_arg8) :=
  (W2_keep_main_arg8 m ρ c).trans (W1_arg8 m ρ c)

/-- `main_arg9` at the first region's exit: its launch contents. -/
theorem W2_arg9 (c : Dev nD) :
    W2 m ρ c (Proc.devRef .tc main_arg9) = m ((c.tc : Thread nD τ).loc main_arg9) :=
  (W2_keep_main_arg9 m ρ c).trans (W1_arg9 m ρ c)

/-- `main_arg10` at the first region's exit: its launch contents. -/
theorem W2_arg10 (c : Dev nD) :
    W2 m ρ c (Proc.devRef .tc main_arg10) = m ((c.tc : Thread nD τ).loc main_arg10) :=
  (W2_keep_main_arg10 m ρ c).trans (W1_arg10 m ρ c)

/-- `main_arg11` at the first region's exit: its launch contents. -/
theorem W2_arg11 (c : Dev nD) :
    W2 m ρ c (Proc.devRef .tc main_arg11) = m ((c.tc : Thread nD τ).loc main_arg11) :=
  (W2_keep_main_arg11 m ρ c).trans (W1_arg11 m ρ c)

/-- `main_arg12` at the first region's exit: its launch contents. -/
theorem W2_arg12 (c : Dev nD) :
    W2 m ρ c (Proc.devRef .tc main_arg12) = m ((c.tc : Thread nD τ).loc main_arg12) :=
  (W2_keep_main_arg12 m ρ c).trans (W1_arg12 m ρ c)

/-- `main_arg13` at the first region's exit: its launch contents. -/
theorem W2_arg13 (c : Dev nD) :
    W2 m ρ c (Proc.devRef .tc main_arg13) = m ((c.tc : Thread nD τ).loc main_arg13) :=
  (W2_keep_main_arg13 m ρ c).trans (W1_arg13 m ρ c)

/-! ## The shared input array and the index vectors at the second region's entry -/

/-- The shared input array at the second region's entry: its launch contents. -/
theorem W5_arg2 (c : Dev nD) :
    W5 m ρ c (Proc.devRef .tc main_arg2) = m ((c.tc : Thread nD τ).loc main_arg2) :=
  ((W5_eq_W2_arg2 m ρ c).trans (W2_keep_main_arg2 m ρ c)).trans (W1_arg2 m ρ c)

/-- The first index vector at the second region's entry is what it was at the first region's entry. -/
theorem W5_v1 (c : Dev nD) :
    W5 m ρ c (Proc.devRef .tc main_v1) = W1 m ρ c (Proc.devRef .tc main_v1) :=
  (W5_eq_W2_v1 m ρ c).trans (W2_keep_main_v1 m ρ c)

/-- The second index vector at the second region's entry is what it was at the first region's entry. -/
theorem W5_v3 (c : Dev nD) :
    W5 m ρ c (Proc.devRef .tc main_v3) = W1 m ρ c (Proc.devRef .tc main_v3) :=
  (W5_eq_W2_v3 m ρ c).trans (W2_keep_main_v3 m ρ c)

/-! ## The argument arrays at the second region's exit -/

/-- `main_arg3` at the second region's exit: its launch contents. -/
theorem W6_arg3 (c : Dev nD) :
    W6 m ρ c (Proc.devRef .tc main_arg3) = m ((c.tc : Thread nD τ).loc main_arg3) :=
  (((W6_keep_main_arg3 m ρ c).trans (W5_eq_W2_arg3 m ρ c)).trans (W2_keep_main_arg3 m ρ c)).trans (W1_arg3 m ρ c)

/-- `main_arg14` at the second region's exit: its launch contents. -/
theorem W6_arg14 (c : Dev nD) :
    W6 m ρ c (Proc.devRef .tc main_arg14) = m ((c.tc : Thread nD τ).loc main_arg14) :=
  (((W6_keep_main_arg14 m ρ c).trans (W5_eq_W2_arg14 m ρ c)).trans (W2_keep_main_arg14 m ρ c)).trans (W1_arg14 m ρ c)

/-- `main_arg15` at the second region's exit: its launch contents. -/
theorem W6_arg15 (c : Dev nD) :
    W6 m ρ c (Proc.devRef .tc main_arg15) = m ((c.tc : Thread nD τ).loc main_arg15) :=
  (((W6_keep_main_arg15 m ρ c).trans (W5_eq_W2_arg15 m ρ c)).trans (W2_keep_main_arg15 m ρ c)).trans (W1_arg15 m ρ c)

/-- `main_arg16` at the second region's exit: its launch contents. -/
theorem W6_arg16 (c : Dev nD) :
    W6 m ρ c (Proc.devRef .tc main_arg16) = m ((c.tc : Thread nD τ).loc main_arg16) :=
  (((W6_keep_main_arg16 m ρ c).trans (W5_eq_W2_arg16 m ρ c)).trans (W2_keep_main_arg16 m ρ c)).trans (W1_arg16 m ρ c)

/-- `main_arg17` at the second region's exit: its launch contents. -/
theorem W6_arg17 (c : Dev nD) :
    W6 m ρ c (Proc.devRef .tc main_arg17) = m ((c.tc : Thread nD τ).loc main_arg17) :=
  (((W6_keep_main_arg17 m ρ c).trans (W5_eq_W2_arg17 m ρ c)).trans (W2_keep_main_arg17 m ρ c)).trans (W1_arg17 m ρ c)

/-- `main_arg18` at the second region's exit: its launch contents. -/
theorem W6_arg18 (c : Dev nD) :
    W6 m ρ c (Proc.devRef .tc main_arg18) = m ((c.tc : Thread nD τ).loc main_arg18) :=
  (((W6_keep_main_arg18 m ρ c).trans (W5_eq_W2_arg18 m ρ c)).trans (W2_keep_main_arg18 m ρ c)).trans (W1_arg18 m ρ c)

/-- `main_arg19` at the second region's exit: its launch contents. -/
theorem W6_arg19 (c : Dev nD) :
    W6 m ρ c (Proc.devRef .tc main_arg19) = m ((c.tc : Thread nD τ).loc main_arg19) :=
  (((W6_keep_main_arg19 m ρ c).trans (W5_eq_W2_arg19 m ρ c)).trans (W2_keep_main_arg19 m ρ c)).trans (W1_arg19 m ρ c)

end Cert.KernelIdeal.KernelRun

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.KWeights.lean ====
import proofs.«128043_j25649544692460_2_alg».proof.Proof.KPass
import proofs.«128043_j25649544692460_2_alg».proof.Proof.LibHostRows
import Idealize.ShloMosaic.Lib.ValueIdx
import Idealize.ShloMosaic.Lib.Pipeline.Value

/-! # The weight blocks and bias rows the two regions read

Each layer's two weight matrices arrive as 26 × 11 argument arrays. Before a region the host cuts each into three
row blocks — rows 0–10, rows 11–21 and rows 22–25 — and narrows each block's element type; at the exact values the
narrowing is the identity, so entry (k, j) of a block is entry (offset + k, j) of the argument. Each bias vector of
length 11 is re-laid as a 1 × 11 row: entry (0, j) of the row is entry j of the vector. The first layer's blocks are
read at the first region's entry; the second layer's at the second region's entry, where the arguments still hold
their launch contents. -/

set_option maxRecDepth 16384

noncomputable section

namespace Cert.KernelIdeal.KernelRun

open Idealize.ShloMosaic Idealize.ShloMosaic.TcCoe Idealize.ShloMosaic.Tactic Idealize.ShloMosaic.ValueIdx
open Cert.KernelIdeal.Gen

/-- A block of `R'` consecutive rows of an `R × C` matrix starting at row `off`, all columns: entry `(k, j)` of the
    block is entry `(off + k, j)` of the matrix. -/
theorem sliceRows_apply {α : Type} {R R' C off : ℕ} (x : (⟨2, ![R, C]⟩ : Shape).Idx → α)
    (h : (⟨2, ![R, C]⟩ : Shape).Slices ![off, 0] ⟨2, ![R', C]⟩) (k : Fin R') (j : Fin C) (r : Fin R)
    (hr : r.val = off + k.val) :
    extractStridedSlice ⟨2, ![R', C]⟩ ![off, 0] x h (ix2 k j) = x (ix2 r j) :=
  extractStridedSlice_apply ![off, 0] x h (ix2 k j) (ix2 r j) fun a => match a with
    | ⟨0, _⟩ => hr
    | ⟨1, _⟩ => (Nat.zero_add _).symm

variable (m : (ℓ : Loc nD τ sig) → Buf (Elt Ideal) ℓ) (ρ : Dev nD → PrngReg)

/-! ## The first layer, at the first region's entry -/

/-- First layer, first weight matrix, rows 0–10. -/
theorem wfd0 (c : Dev nD) (k : Fin 11) (j : Fin 11) :
    (W1 m ρ c (Proc.devRef .tc main_v19) : (⟨2, ![11, 11]⟩ : Shape).Idx → EReal) (ix2 k j)
      = (m ((c.tc : Thread nD τ).loc main_arg4) : (⟨2, ![26, 11]⟩ : Shape).Idx → EReal) (ix2 (⟨k.val, by omega⟩ : Fin 26) j) := by
  dsimp only [W1]
  after_results_simp
  rw [truncf_apply]
  exact sliceRows_apply _ _ k j _ (Nat.zero_add _).symm

/-- First layer, first weight matrix, rows 11–21. -/
theorem wfs0 (c : Dev nD) (k : Fin 11) (j : Fin 11) :
    (W1 m ρ c (Proc.devRef .tc main_v21) : (⟨2, ![11, 11]⟩ : Shape).Idx → EReal) (ix2 k j)
      = (m ((c.tc : Thread nD τ).loc main_arg4) : (⟨2, ![26, 11]⟩ : Shape).Idx → EReal) (ix2 (⟨11 + k.val, by omega⟩ : Fin 26) j) := by
  dsimp only [W1]
  after_results_simp
  rw [truncf_apply]
  exact sliceRows_apply _ _ k j _ rfl

/-- First layer, first weight matrix, rows 22–25. -/
theorem wfe0 (c : Dev nD) (k : Fin 4) (j : Fin 11) :
    (W1 m ρ c (Proc.devRef .tc main_v23) : (⟨2, ![4, 11]⟩ : Shape).Idx → EReal) (ix2 k j)
      = (m ((c.tc : Thread nD τ).loc main_arg4) : (⟨2, ![26, 11]⟩ : Shape).Idx → EReal) (ix2 (⟨22 + k.val, by omega⟩ : Fin 26) j) := by
  dsimp only [W1]
  after_results_simp
  rw [truncf_apply]
  exact sliceRows_apply _ _ k j _ rfl

/-- First layer, second weight matrix, rows 0–10. -/
theorem wsd0 (c : Dev nD) (k : Fin 11) (j : Fin 11) :
    (W1 m ρ c (Proc.devRef .tc main_v25) : (⟨2, ![11, 11]⟩ : Shape).Idx → EReal) (ix2 k j)
      = (m ((c.tc : Thread nD τ).loc main_arg6) : (⟨2, ![26, 11]⟩ : Shape).Idx → EReal) (ix2 (⟨k.val, by omega⟩ : Fin 26) j) := by
  dsimp only [W1]
  after_results_simp
  rw [truncf_apply]
  exact sliceRows_apply _ _ k j _ (Nat.zero_add _).symm

/-- First layer, second weight matrix, rows 11–21. -/
theorem wss0 (c : Dev nD) (k : Fin 11) (j : Fin 11) :
    (W1 m ρ c (Proc.devRef .tc main_v27) : (⟨2, ![11, 11]⟩ : Shape).Idx → EReal) (ix2 k j)
      = (m ((c.tc : Thread nD τ).loc main_arg6) : (⟨2, ![26, 11]⟩ : Shape).Idx → EReal) (ix2 (⟨11 + k.val, by omega⟩ : Fin 26) j) := by
  dsimp only [W1]
  after_results_simp
  rw [truncf_apply]
  exact sliceRows_apply _ _ k j _ rfl

/-- First layer, second weight matrix, rows 22–25. -/
theorem wse0 (c : Dev nD) (k : Fin 4) (j : Fin 11) :
    (W1 m ρ c (Proc.devRef .tc main_v29) : (⟨2, ![4, 11]⟩ : Shape).Idx → EReal) (ix2 k j)
      = (m ((c.tc : Thread nD τ).loc main_arg6) : (⟨2, ![26, 11]⟩ : Shape).Idx → EReal) (ix2 (⟨22 + k.val, by omega⟩ : Fin 26) j) := by
  dsimp only [W1]
  after_results_simp
  rw [truncf_apply]
  exact sliceRows_apply _ _ k j _ rfl

/-- First layer, first bias vector as a row. -/
theorem bf0 (c : Dev nD) (j : Fin 11) :
    (W1 m ρ c (Proc.devRef .tc main_v30) : (⟨2, ![1, 11]⟩ : Shape).Idx → EReal) (ix2 (0 : Fin 1) j)
      = (m ((c.tc : Thread nD τ).loc main_arg5) : (⟨1, ![11]⟩ : Shape).Idx → EReal) (ix1 j) := by
  dsimp only [W1]
  after_results_simp
  exact Cert.LibHostRows.rowOfVec_cast_apply _ _ j

/-- First layer, second bias vector as a row. -/
theorem bs0 (c : Dev nD) (j : Fin 11) :
    (W1 m ρ c (Proc.devRef .tc main_v31) : (⟨2, ![1, 11]⟩ : Shape).Idx → EReal) (ix2 (0 : Fin 1) j)
      = (m ((c.tc : Thread nD τ).loc main_arg7) : (⟨1, ![11]⟩ : Shape).Idx → EReal) (ix1 j) := by
  dsimp only [W1]
  after_results_simp
  exact Cert.LibHostRows.rowOfVec_cast_apply _ _ j

/-! ## The second layer, at the second region's entry -/

/-- Second layer, first weight matrix, rows 0–10. -/
theorem wfd1 (c : Dev nD) (k : Fin 11) (j : Fin 11) :
    (W5 m ρ c (Proc.devRef .tc main_v71) : (⟨2, ![11, 11]⟩ : Shape).Idx → EReal) (ix2 k j)
      = (m ((c.tc : Thread nD τ).loc main_arg10) : (⟨2, ![26, 11]⟩ : Shape).Idx → EReal) (ix2 (⟨k.val, by omega⟩ : Fin 26) j) := by
  dsimp only [W5, W4, W3]
  after_results_simp
  rw [truncf_apply, W2_arg10 m ρ c]
  exact sliceRows_apply _ _ k j _ (Nat.zero_add _).symm

/-- Second layer, first weight matrix, rows 11–21. -/
theorem wfs1 (c : Dev nD) (k : Fin 11) (j : Fin 11) :
    (W5 m ρ c (Proc.devRef .tc main_v73) : (⟨2, ![11, 11]⟩ : Shape).Idx → EReal) (ix2 k j)
      = (m ((c.tc : Thread nD τ).loc main_arg10) : (⟨2, ![26, 11]⟩ : Shape).Idx → EReal) (ix2 (⟨11 + k.val, by omega⟩ : Fin 26) j) := by
  dsimp only [W5, W4, W3]
  after_results_simp
  rw [truncf_apply, W2_arg10 m ρ c]
  exact sliceRows_apply _ _ k j _ rfl

/-- Second layer, first weight matrix, rows 22–25. -/
theorem wfe1 (c : Dev nD) (k : Fin 4) (j : Fin 11) :
    (W5 m ρ c (Proc.devRef .tc main_v75) : (⟨2, ![4, 11]⟩ : Shape).Idx → EReal) (ix2 k j)
      = (m ((c.tc : Thread nD τ).loc main_arg10) : (⟨2, ![26, 11]⟩ : Shape).Idx → EReal) (ix2 (⟨22 + k.val, by omega⟩ : Fin 26) j) := by
  dsimp only [W5, W4, W3]
  after_results_simp
  rw [truncf_apply, W2_arg10 m ρ c]
  exact sliceRows_apply _ _ k j _ rfl

/-- Second layer, second weight matrix, rows 0–10. -/
theorem wsd1 (c : Dev nD) (k : Fin 11) (j : Fin 11) :
    (W5 m ρ c (Proc.devRef .tc main_v77) : (⟨2, ![11, 11]⟩ : Shape).Idx → EReal) (ix2 k j)
      = (m ((c.tc : Thread nD τ).loc main_arg12) : (⟨2, ![26, 11]⟩ : Shape).Idx → EReal) (ix2 (⟨k.val, by omega⟩ : Fin 26) j) := by
  dsimp only [W5, W4, W3]
  after_results_simp
  rw [truncf_apply, W2_arg12 m ρ c]
  exact sliceRows_apply _ _ k j _ (Nat.zero_add _).symm

/-- Second layer, second weight matrix, rows 11–21. -/
theorem wss1 (c : Dev nD) (k : Fin 11) (j : Fin 11) :
    (W5 m ρ c (Proc.devRef .tc main_v79) : (⟨2, ![11, 11]⟩ : Shape).Idx → EReal) (ix2 k j)
      = (m ((c.tc : Thread nD τ).loc main_arg12) : (⟨2, ![26, 11]⟩ : Shape).Idx → EReal) (ix2 (⟨11 + k.val, by omega⟩ : Fin 26) j) := by
  dsimp only [W5, W4, W3]
  after_results_simp
  rw [truncf_apply, W2_arg12 m ρ c]
  exact sliceRows_apply _ _ k j _ rfl

/-- Second layer, second weight matrix, rows 22–25. -/
theorem wse1 (c : Dev nD) (k : Fin 4) (j : Fin 11) :
    (W5 m ρ c (Proc.devRef .tc main_v81) : (⟨2, ![4, 11]⟩ : Shape).Idx → EReal) (ix2 k j)
      = (m ((c.tc : Thread nD τ).loc main_arg12) : (⟨2, ![26, 11]⟩ : Shape).Idx → EReal) (ix2 (⟨22 + k.val, by omega⟩ : Fin 26) j) := by
  dsimp only [W5, W4, W3]
  after_results_simp
  rw [truncf_apply, W2_arg12 m ρ c]
  exact sliceRows_apply _ _ k j _ rfl

/-- Second layer, first bias vector as a row. -/
theorem bf1 (c : Dev nD) (j : Fin 11) :
    (W5 m ρ c (Proc.devRef .tc main_v82) : (⟨2, ![1, 11]⟩ : Shape).Idx → EReal) (ix2 (0 : Fin 1) j)
      = (m ((c.tc : Thread nD τ).loc main_arg11) : (⟨1, ![11]⟩ : Shape).Idx → EReal) (ix1 j) := by
  dsimp only [W5, W4, W3]
  after_results_simp
  rw [W2_arg11 m ρ c]
  exact Cert.LibHostRows.rowOfVec_cast_apply _ _ j

/-- Second layer, second bias vector as a row. -/
theorem bs1 (c : Dev nD) (j : Fin 11) :
    (W5 m ρ c (Proc.devRef .tc main_v83) : (⟨2, ![1, 11]⟩ : Shape).Idx → EReal) (ix2 (0 : Fin 1) j)
      = (m ((c.tc : Thread nD τ).loc main_arg13) : (⟨1, ![11]⟩ : Shape).Idx → EReal) (ix1 j) := by
  dsimp only [W5, W4, W3]
  after_results_simp
  rw [W2_arg13 m ρ c]
  exact Cert.LibHostRows.rowOfVec_cast_apply _ _ j

end Cert.KernelIdeal.KernelRun

end
-- ==== Proof.Spec.lean ====
/-
  The edge message of one graph-convolution layer, as one function of the arrays a layer consumes, index by index.

  For edge `r` and output feature `j` the two linear forms are
      z(r, j) = (Σ_k xd[r,k]·wd[k,j] + Σ_k xs[r,k]·ws[k,j] + Σ_k e[r,k]·we[k,j]) + b[0,j]
  (the destination node's features, the source node's features and the edge's own features, each against its own
  block of rows of the layer's weight matrix), and the message is `logistic (z_f) · softplus (z_s)`, the softplus in
  the guarded form `max z 0 + log1p (exp (−|z − 0|))`, all on the extended reals.
-/
import Idealize.ShloMosaic.PureOps.Ideal
import Idealize.ShloMosaic.Lib.ValueIdx

noncomputable section

namespace Cert.Spec

open Idealize.ShloMosaic Idealize.ShloMosaic.ValueIdx

/-- Arrays as functions of their index, on the extended reals. -/
abbrev Arr (a b : Nat) : Type := (⟨2, ![a, b]⟩ : Shape).Idx → EReal

/-- The float zero, as the kernel and the reference both spell it. -/
abbrev z0 : EReal := Ideal.ofBits .f32 0x00000000#32

/-- One linear form at edge `r`, feature `j`: three partial products, summed left to right, then the bias row. -/
def lin (xd xs : Arr 3200000 11) (e : Arr 3200000 4) (wd ws : Arr 11 11) (we : Arr 4 11) (b : Arr 1 11)
    (r : Fin 3200000) (j : Fin 11) : EReal :=
  ((∑ k : Fin 11, xd (ix2 r k) * wd (ix2 k j)) + (∑ k : Fin 11, xs (ix2 r k) * ws (ix2 k j))
    + (∑ k : Fin 4, e (ix2 r k) * we (ix2 k j))) + b (ix2 0 j)

/-- The guarded softplus `log (e^z + e^0)` on the extended reals: the guard `z − 0 ≠ z − 0` never fires there. -/
def softplus (z : EReal) : EReal :=
  Scalar.select (Ideal.cmp .one (z - z0) (z - z0)) (z + z0)
    (max z z0 + Ideal.log1p (Ideal.exp (z0 - max (z - z0) (-(z - z0)))))

/-- The gate: `logistic zf · softplus zs`. -/
def gate (zf zs : EReal) : EReal := Ideal.logistic zf * softplus zs

/-- The whole message array of a layer. -/
def edgeMsg (xd xs : Arr 3200000 11) (e : Arr 3200000 4)
    (wfd wfs : Arr 11 11) (wfe : Arr 4 11) (bf : Arr 1 11)
    (wsd wss : Arr 11 11) (wse : Arr 4 11) (bs : Arr 1 11) : Arr 3200000 11 :=
  fun i => gate (lin xd xs e wfd wfs wfe bf (i 0) (i 1)) (lin xd xs e wsd wss wse bs (i 0) (i 1))

end Cert.Spec

end
-- ==== Proof.Payload.lean ====
/-
  The edge kernel's stored block, entry by entry, on the extended reals.

  The body multiplies each of its three row blocks (destination features, source features, edge features) against the
  matching weight block into a zero accumulator, adds the three products left to right, adds the bias row, and does so
  twice: once for the gate's logistic argument and once for its softplus argument.  Read at row `p` and feature `q` of
  the block this is `Spec.gate` of the two linear forms `blockLin` below: the same sums as `Spec.lin`, over the rows of a
  block instead of the rows of the whole array.
-/
import proofs.«128043_j25649544692460_2_alg».proof.Proof.Spec
import proofs.«128043_j25649544692460_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.RegionValue

open Idealize.ShloMosaic Idealize.ShloMosaic.ValueIdx Cert.KernelIdeal Cert.KernelIdeal.Gen

/-- One linear form at row `p` of a block and feature `q`: three partial products summed left to right, then the bias. -/
def blockLin (xd xs : S8000x11.Idx → EReal) (e : S8000x4.Idx → EReal) (wd ws : S11x11.Idx → EReal)
    (we : S4x11.Idx → EReal) (b : S1x11.Idx → EReal) (p : Fin 8000) (q : Fin 11) : EReal :=
  ((∑ k : Fin 11, xd (ix2 p k) * wd (ix2 k q)) + (∑ k : Fin 11, xs (ix2 p k) * ws (ix2 k q))
    + (∑ k : Fin 4, e (ix2 p k) * we (ix2 k q))) + b (ix2 0 q)

/-- An [8000,11] by [11,11] product into the zero accumulator, at an entry: the sum over the contracted coordinate. -/
theorem mm11_apply (A : FVec Ideal S8000x11 .bf16) (B : FVec Ideal S11x11 .bf16) (p : Fin 8000) (q : Fin 11) :
    FloatOps.matmul dot_S8000x11_S11x11_S8000x11_1_0_0_1_n_n none A B (constant (F := Ideal) S8000x11 .f32 0x00000000#32) (ix2 p q)
      = ∑ k : Fin 11, A (ix2 p k) * B (ix2 k q) := by
  rw [Ideal.matmul_constant_zero_apply,
    ← Equiv.sum_comp (contrEquiv1 dot_S8000x11_S11x11_S8000x11_1_0_0_1_n_n 11 rfl rfl).symm]
  refine Finset.sum_congr rfl fun c _ => ?_
  have c2 := contrEquiv1_symm_val dot_S8000x11_S11x11_S8000x11_1_0_0_1_n_n 11 rfl rfl c
  have l2 : dot_S8000x11_S11x11_S8000x11_1_0_0_1_n_n.lhsIdx (ix2 p q) ((contrEquiv1 _ 11 rfl rfl).symm c) = ix2 p c := by
    funext ax; apply Fin.ext
    match ax with
    | ⟨0, _⟩ => simp [DotDims.lhsIdx, dot_S8000x11_S11x11_S8000x11_1_0_0_1_n_n]; rfl
    | ⟨1, _⟩ => simp [DotDims.lhsIdx, dot_S8000x11_S11x11_S8000x11_1_0_0_1_n_n]; exact c2
  have r2 : dot_S8000x11_S11x11_S8000x11_1_0_0_1_n_n.rhsIdx (ix2 p q) ((contrEquiv1 _ 11 rfl rfl).symm c) = ix2 c q := by
    funext ax; apply Fin.ext
    match ax with
    | ⟨0, _⟩ => simp [DotDims.rhsIdx, dot_S8000x11_S11x11_S8000x11_1_0_0_1_n_n]; exact c2
    | ⟨1, _⟩ => simp [DotDims.rhsIdx, dot_S8000x11_S11x11_S8000x11_1_0_0_1_n_n]; rfl
  rw [l2, r2]

/-- An [8000,4] by [4,11] product into the zero accumulator, at an entry. -/
theorem mm4_apply (A : FVec Ideal S8000x4 .bf16) (B : FVec Ideal S4x11 .bf16) (p : Fin 8000) (q : Fin 11) :
    FloatOps.matmul dot_S8000x4_S4x11_S8000x11_1_0_0_1_n_n none A B (constant (F := Ideal) S8000x11 .f32 0x00000000#32) (ix2 p q)
      = ∑ k : Fin 4, A (ix2 p k) * B (ix2 k q) := by
  rw [Ideal.matmul_constant_zero_apply,
    ← Equiv.sum_comp (contrEquiv1 dot_S8000x4_S4x11_S8000x11_1_0_0_1_n_n 4 rfl rfl).symm]
  refine Finset.sum_congr rfl fun c _ => ?_
  have c2 := contrEquiv1_symm_val dot_S8000x4_S4x11_S8000x11_1_0_0_1_n_n 4 rfl rfl c
  have l2 : dot_S8000x4_S4x11_S8000x11_1_0_0_1_n_n.lhsIdx (ix2 p q) ((contrEquiv1 _ 4 rfl rfl).symm c) = ix2 p c := by
    funext ax; apply Fin.ext
    match ax with
    | ⟨0, _⟩ => simp [DotDims.lhsIdx, dot_S8000x4_S4x11_S8000x11_1_0_0_1_n_n]; rfl
    | ⟨1, _⟩ => simp [DotDims.lhsIdx, dot_S8000x4_S4x11_S8000x11_1_0_0_1_n_n]; exact c2
  have r2 : dot_S8000x4_S4x11_S8000x11_1_0_0_1_n_n.rhsIdx (ix2 p q) ((contrEquiv1 _ 4 rfl rfl).symm c) = ix2 c q := by
    funext ax; apply Fin.ext
    match ax with
    | ⟨0, _⟩ => simp [DotDims.rhsIdx, dot_S8000x4_S4x11_S8000x11_1_0_0_1_n_n]; exact c2
    | ⟨1, _⟩ => simp [DotDims.rhsIdx, dot_S8000x4_S4x11_S8000x11_1_0_0_1_n_n]; rfl
  rw [l2, r2]

/-- The bias row spread over the block's rows, at an entry: the row's entry in that column. -/
theorem bias_apply (b : Vec Ideal S1x11 .f32) (p : Fin 8000) (q : Fin 11) :
    broadcastTo S8000x11 b broadcasts_S1x11_S8000x11 (ix2 p q) = b (ix2 0 q) := by
  refine broadcastTo_apply b _ (ix2 p q) (ix2 0 q) fun a => ?_
  match a with
  | ⟨0, _⟩ => rfl
  | ⟨1, _⟩ => rfl

/-- Narrowing a block to the matrix unit's input format changes nothing on the extended reals. -/
theorem pay2_eq (x : Vec Ideal S8000x11 .f32) : (k0_pay2 (F := Ideal) x : S8000x11.Idx → EReal) = x := by
  unfold k0_pay2
  exact shapeCast_self x _

theorem pay3_eq (x : Vec Ideal S8000x11 .f32) : (k0_pay3 (F := Ideal) x : S8000x11.Idx → EReal) = x := by
  unfold k0_pay3
  exact shapeCast_self x _

theorem pay4_eq (x : Vec Ideal S8000x4 .f32) : (k0_pay4 (F := Ideal) x : S8000x4.Idx → EReal) = x := rfl

/-- The logistic argument at an entry: the linear form of the block's rows against the first weight set. -/
theorem pay5_apply (x0 x1 : Vec Ideal S8000x11 .f32) (x2 : Vec Ideal S8000x4 .f32) (x3 x4 : Vec Ideal S11x11 .bf16)
    (x5 : Vec Ideal S4x11 .bf16) (x6 : Vec Ideal S1x11 .f32) (p : Fin 8000) (q : Fin 11) :
    k0_pay5 (F := Ideal) x0 x1 x2 x3 x4 x5 x6 (ix2 p q) = blockLin x0 x1 x2 x3 x4 x5 x6 p q := by
  unfold k0_pay5 blockLin
  rw [pay2_eq, pay3_eq, pay4_eq]
  simp only [shapeCast_self]
  exact congrArg₂ (· + ·) (congrArg₂ (· + ·) (congrArg₂ (· + ·) (mm11_apply x0 x3 p q) (mm11_apply x1 x4 p q))
    (mm4_apply x2 x5 p q)) (bias_apply x6 p q)

/-- The two node products of the softplus argument, added, at an entry. -/
theorem pay6_apply (x0 x1 : Vec Ideal S8000x11 .f32) (x7 x8 : Vec Ideal S11x11 .bf16) (p : Fin 8000) (q : Fin 11) :
    k0_pay6 (F := Ideal) x0 x1 x7 x8 (ix2 p q)
      = (∑ k : Fin 11, x0 (ix2 p k) * x7 (ix2 k q)) + (∑ k : Fin 11, x1 (ix2 p k) * x8 (ix2 k q)) := by
  unfold k0_pay6
  rw [pay2_eq, pay3_eq]
  simp only [shapeCast_self]
  exact congrArg₂ (· + ·) (mm11_apply x0 x7 p q) (mm11_apply x1 x8 p q)

/-- The edge product of the softplus argument, at an entry. -/
theorem pay7_apply (x2 : Vec Ideal S8000x4 .f32) (x9 : Vec Ideal S4x11 .bf16) (p : Fin 8000) (q : Fin 11) :
    k0_pay7 (F := Ideal) x2 x9 (ix2 p q) = ∑ k : Fin 4, x2 (ix2 p k) * x9 (ix2 k q) := by
  unfold k0_pay7
  rw [pay4_eq]
  simp only [shapeCast_self]
  exact mm4_apply x2 x9 p q

/-- The stored value at an entry, from the logistic argument `a` and the softplus argument's three parts: the gate of
    `a` and `(b + c) + bias`. -/
theorem pay1_apply (a b c : FVec Ideal S8000x11 .f32) (x10 : Vec Ideal S1x11 .f32) (p : Fin 8000) (q : Fin 11) :
    k0_pay1 (F := Ideal) a b c x10 (ix2 p q)
      = Spec.gate (a (ix2 p q)) ((b (ix2 p q) + c (ix2 p q)) + x10 (ix2 0 q)) := by
  unfold k0_pay1
  rw [shapeCast_self]
  have hb := bias_apply x10 p q
  show Spec.gate (a (ix2 p q)) ((b (ix2 p q) + c (ix2 p q)) + broadcastTo S8000x11 x10 broadcasts_S1x11_S8000x11 (ix2 p q)) = _
  rw [hb]

/-- THE STORED BLOCK AT AN ENTRY: the gate of the two linear forms of the block's rows. -/
theorem payload_apply (x0 x1 : Vec Ideal S8000x11 .f32) (x2 : Vec Ideal S8000x4 .f32) (x3 x4 : Vec Ideal S11x11 .bf16)
    (x5 : Vec Ideal S4x11 .bf16) (x6 : Vec Ideal S1x11 .f32) (x7 x8 : Vec Ideal S11x11 .bf16)
    (x9 : Vec Ideal S4x11 .bf16) (x10 : Vec Ideal S1x11 .f32) (p : Fin 8000) (q : Fin 11) :
    k0_pay1 (F := Ideal) (k0_pay5 x0 x1 x2 x3 x4 x5 x6) (k0_pay6 x0 x1 x7 x8) (k0_pay7 x2 x9) x10 (ix2 p q)
      = Spec.gate (blockLin x0 x1 x2 x3 x4 x5 x6 p q) (blockLin x0 x1 x2 x7 x8 x9 x10 p q) := by
  rw [pay1_apply, pay5_apply, pay6_apply, pay7_apply]
  rfl

/-- The second region runs the same body on its own blocks: its payload is the first region's, operation for operation. -/
theorem payload1_apply (x0 x1 : Vec Ideal S8000x11 .f32) (x2 : Vec Ideal S8000x4 .f32) (x3 x4 : Vec Ideal S11x11 .bf16)
    (x5 : Vec Ideal S4x11 .bf16) (x6 : Vec Ideal S1x11 .f32) (x7 x8 : Vec Ideal S11x11 .bf16)
    (x9 : Vec Ideal S4x11 .bf16) (x10 : Vec Ideal S1x11 .f32) (p : Fin 8000) (q : Fin 11) :
    k1_pay1 (F := Ideal) (k1_pay5 x0 x1 x2 x3 x4 x5 x6) (k1_pay6 x0 x1 x7 x8) (k1_pay7 x2 x9) x10 (ix2 p q)
      = Spec.gate (blockLin x0 x1 x2 x3 x4 x5 x6 p q) (blockLin x0 x1 x2 x7 x8 x9 x10 p q) :=
  payload_apply x0 x1 x2 x3 x4 x5 x6 x7 x8 x9 x10 p q

/-- When row `p` of the three row blocks is row `r` of the three arrays, and the weight and bias blocks are the weight
    and bias arrays, the gate of the block's linear forms at `(p, q)` is the layer's message at `(r, q)`. -/
theorem block_entry (x0 x1 : Vec Ideal S8000x11 .f32) (x2 : Vec Ideal S8000x4 .f32) (x3 x4 : Vec Ideal S11x11 .bf16)
    (x5 : Vec Ideal S4x11 .bf16) (x6 : Vec Ideal S1x11 .f32) (x7 x8 : Vec Ideal S11x11 .bf16)
    (x9 : Vec Ideal S4x11 .bf16) (x10 : Vec Ideal S1x11 .f32)
    (xd xs : Spec.Arr 3200000 11) (e : Spec.Arr 3200000 4) (wfd wfs : Spec.Arr 11 11) (wfe : Spec.Arr 4 11)
    (bf : Spec.Arr 1 11) (wsd wss : Spec.Arr 11 11) (wse : Spec.Arr 4 11) (bs : Spec.Arr 1 11)
    (p : Fin 8000) (q : Fin 11) (r : Fin 3200000)
    (h0 : ∀ k : Fin 11, x0 (ix2 p k) = xd (ix2 r k)) (h1 : ∀ k : Fin 11, x1 (ix2 p k) = xs (ix2 r k))
    (h2 : ∀ k : Fin 4, x2 (ix2 p k) = e (ix2 r k))
    (h3 : ∀ k : Fin 11, x3 (ix2 k q) = wfd (ix2 k q)) (h4 : ∀ k : Fin 11, x4 (ix2 k q) = wfs (ix2 k q))
    (h5 : ∀ k : Fin 4, x5 (ix2 k q) = wfe (ix2 k q)) (h6 : x6 (ix2 0 q) = bf (ix2 0 q))
    (h7 : ∀ k : Fin 11, x7 (ix2 k q) = wsd (ix2 k q)) (h8 : ∀ k : Fin 11, x8 (ix2 k q) = wss (ix2 k q))
    (h9 : ∀ k : Fin 4, x9 (ix2 k q) = wse (ix2 k q)) (h10 : x10 (ix2 0 q) = bs (ix2 0 q)) :
    Spec.gate (blockLin x0 x1 x2 x3 x4 x5 x6 p q) (blockLin x0 x1 x2 x7 x8 x9 x10 p q)
      = Spec.edgeMsg xd xs e wfd wfs wfe bf wsd wss wse bs (ix2 r q) := by
  unfold blockLin Spec.edgeMsg Spec.lin
  simp only [h0, h1, h2, h3, h4, h5, h6, h7, h8, h9, h10]

end Cert.KernelIdeal.RegionValue

end
-- ==== Proof.RegionValue.lean ====
/-
  What each of the two edge regions leaves in its output array: the layer's message `Spec.edgeMsg` of the arrays the
  region reads, index by index.

  Per region: the stored block is the body's payload of the loaded blocks; at grid point `t` the three row windows and
  the output hold rows `8000 t … 8000 t + 7999` of their arrays, the weight and bias windows their whole arrays; so the
  block point `t` writes back is block `t` of the message array, and the 400 blocks cover all 3200000 rows.
-/
import proofs.«128043_j25649544692460_2_alg».proof.Proof.Payload
import proofs.«128043_j25649544692460_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- What region 0's output array ends holding: the layer's message of the arrays the region reads. -/
abbrev G0 (c : Dev nD) : Spec.Arr 3200000 11 :=
  Spec.edgeMsg (V c main_v10) (V c main_v17) (V c main_arg2) (V c main_v19) (V c main_v21) (V c main_v23) (V c main_v30) (V c main_v25) (V c main_v27) (V c main_v29) (V c main_v31)

/-- The body's stored block is its payload of the loaded blocks: the one store covers the buffer, and every load reads a
    whole block. -/
theorem out0_eq (x0 x1 : Vec Ideal S8000x11 .f32) (x2 : Vec Ideal S8000x4 .f32) (x3 x4 : Vec Ideal S11x11 .bf16)
    (x5 : Vec Ideal S4x11 .bf16) (x6 : Vec Ideal S1x11 .f32) (x7 x8 : Vec Ideal S11x11 .bf16)
    (x9 : Vec Ideal S4x11 .bf16) (x10 : Vec Ideal S1x11 .f32) :
    out0_11 (F := Ideal) x0 x1 x2 x3 x4 x5 x6 x7 x8 x9 x10
      = k0_pay1 (k0_pay5 x0 x1 x2 x3 x4 x5 x6) (k0_pay6 x0 x1 x7 x8) (k0_pay7 x2 x9) x10 := by
  unfold out0_11
  rw [View.canon_unit_zero hz]
  simp only [View.ld_unit_zero (S := S8000x11) hz, View.ld_unit_zero (S := S8000x4) hz,
    View.ld_unit_zero (S := S11x11) hz, View.ld_unit_zero (S := S4x11) hz, View.ld_unit_zero (S := S1x11) hz]

/-- The stored block at an entry, given which rows and which weights the loaded blocks hold. -/
theorem out0_entry (x0 x1 : Vec Ideal S8000x11 .f32) (x2 : Vec Ideal S8000x4 .f32) (x3 x4 : Vec Ideal S11x11 .bf16)
    (x5 : Vec Ideal S4x11 .bf16) (x6 : Vec Ideal S1x11 .f32) (x7 x8 : Vec Ideal S11x11 .bf16)
    (x9 : Vec Ideal S4x11 .bf16) (x10 : Vec Ideal S1x11 .f32)
    (xd xs : Spec.Arr 3200000 11) (e : Spec.Arr 3200000 4) (wfd wfs : Spec.Arr 11 11) (wfe : Spec.Arr 4 11)
    (bf : Spec.Arr 1 11) (wsd wss : Spec.Arr 11 11) (wse : Spec.Arr 4 11) (bs : Spec.Arr 1 11)
    (p : Fin 8000) (q : Fin 11) (r : Fin 3200000)
    (h0 : ∀ k : Fin 11, x0 (ix2 p k) = xd (ix2 r k)) (h1 : ∀ k : Fin 11, x1 (ix2 p k) = xs (ix2 r k))
    (h2 : ∀ k : Fin 4, x2 (ix2 p k) = e (ix2 r k))
    (h3 : ∀ k : Fin 11, x3 (ix2 k q) = wfd (ix2 k q)) (h4 : ∀ k : Fin 11, x4 (ix2 k q) = wfs (ix2 k q))
    (h5 : ∀ k : Fin 4, x5 (ix2 k q) = wfe (ix2 k q)) (h6 : x6 (ix2 0 q) = bf (ix2 0 q))
    (h7 : ∀ k : Fin 11, x7 (ix2 k q) = wsd (ix2 k q)) (h8 : ∀ k : Fin 11, x8 (ix2 k q) = wss (ix2 k q))
    (h9 : ∀ k : Fin 4, x9 (ix2 k q) = wse (ix2 k q)) (h10 : x10 (ix2 0 q) = bs (ix2 0 q)) :
    out0_11 (F := Ideal) x0 x1 x2 x3 x4 x5 x6 x7 x8 x9 x10 (ix2 p q)
      = Spec.edgeMsg xd xs e wfd wfs wfe bf wsd wss wse bs (ix2 r q) :=
  (congrFun (out0_eq x0 x1 x2 x3 x4 x5 x6 x7 x8 x9 x10) (ix2 p q)).trans
    ((payload_apply x0 x1 x2 x3 x4 x5 x6 x7 x8 x9 x10 p q).trans
      (block_entry x0 x1 x2 x3 x4 x5 x6 x7 x8 x9 x10 xd xs e wfd wfs wfe bf wsd wss wse bs p q r
        h0 h1 h2 h3 h4 h5 h6 h7 h8 h9 h10))

/-- The printed index maps over the grid: the three row windows and the output move one block of 8000 rows per point,
    the weight and bias windows stay at block (0, 0). -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- WHAT POINT `t` WRITES BACK is block `t` of the layer's message: rows `8000 t … 8000 t + 7999`. -/
theorem flushed0_eq (c : Dev nD) (t : Fin cfg0.N) :
    (dat0 (F := Ideal) V c).flushed 11 t = ((cfg0.win 11).blk t).view.read (Elt Ideal) (G0 V c) := by
  show (cfg0.win 11).cut (grid0.coords t) ((dat0 (F := Ideal) V c).after 11 t) = _
  rw [after0_11]
  obtain ⟨e0r, e0c, e1r, e1c, e2r, e2c, e3r, e3c, e4r, e4c, e5r, e5c, e6r, e6c, e7r, e7c, e8r, e8c, e9r, e9c, e10r, e10c, e11r, e11c⟩ := idx_facts0 t
  have hN : cfg0.N = 400 := N_0
  have ht := t.isLt
  funext j
  obtain ⟨p, q, rfl⟩ : ∃ (p : Fin 8000) (q : Fin 11), j = ix2 p q := ⟨j 0, j 1, eq_ix2 j⟩
  have hp := p.isLt
  have hq := q.isLt
  obtain ⟨r, hr⟩ : ∃ r : Fin 3200000, r.val = 8000 * t.val + p.val := ⟨⟨8000 * t.val + p.val, by omega⟩, rfl⟩
  have hemb : ((cfg0.win 11).blk t).view.emb (ix2 p q) = ix2 r q := by
    funext a; apply Fin.ext
    match a with
    | ⟨0, _⟩ => show win0_11.index t (0 : Fin 2) * 8000 + 1 * p.val = r.val; rw [e11r, hr]; omega
    | ⟨1, _⟩ => show win0_11.index t (1 : Fin 2) * 11 + 1 * q.val = q.val; rw [e11c]; omega
  show out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q)
    = Spec.edgeMsg (V c main_v10) (V c main_v17) (V c main_arg2) (V c main_v19) (V c main_v21) (V c main_v23) (V c main_v30) (V c main_v25) (V c main_v27) (V c main_v29) (V c main_v31) (((cfg0.win 11).blk t).view.emb (ix2 p q))
  rw [hemb]
  exact out0_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (V c main_v10) (V c main_v17) (V c main_arg2) (V c main_v19) (V c main_v21) (V c main_v23) (V c main_v30) (V c main_v25) (V c main_v27) (V c main_v29) (V c main_v31) p q r
    (fun k => by
      show V c main_v10 (((cfg0.win 0).blk t).view.emb (ix2 p k)) = V c main_v10 (ix2 r k)
      refine congrArg (V c main_v10) (funext fun a => Fin.ext ?_)
      match a with
      | ⟨0, _⟩ => show win0_0.index t (0 : Fin 2) * 8000 + 1 * p.val = r.val; rw [e0r, hr]; omega
      | ⟨1, _⟩ => show win0_0.index t (1 : Fin 2) * 11 + 1 * k.val = k.val; rw [e0c]; omega)
    (fun k => by
      show V c main_v17 (((cfg0.win 1).blk t).view.emb (ix2 p k)) = V c main_v17 (ix2 r k)
      refine congrArg (V c main_v17) (funext fun a => Fin.ext ?_)
      match a with
      | ⟨0, _⟩ => show win0_1.index t (0 : Fin 2) * 8000 + 1 * p.val = r.val; rw [e1r, hr]; omega
      | ⟨1, _⟩ => show win0_1.index t (1 : Fin 2) * 11 + 1 * k.val = k.val; rw [e1c]; omega)
    (fun k => by
      show V c main_arg2 (((cfg0.win 2).blk t).view.emb (ix2 p k)) = V c main_arg2 (ix2 r k)
      refine congrArg (V c main_arg2) (funext fun a => Fin.ext ?_)
      match a with
      | ⟨0, _⟩ => show win0_2.index t (0 : Fin 2) * 8000 + 1 * p.val = r.val; rw [e2r, hr]; omega
      | ⟨1, _⟩ => show win0_2.index t (1 : Fin 2) * 4 + 1 * k.val = k.val; rw [e2c]; omega)
    (fun k => by
      show V c main_v19 (((cfg0.win 3).blk t).view.emb (ix2 k q)) = V c main_v19 (ix2 k q)
      refine congrArg (V c main_v19) (funext fun a => Fin.ext ?_)
      match a with
      | ⟨0, _⟩ => show win0_3.index t (0 : Fin 2) * 11 + 1 * k.val = k.val; rw [e3r]; omega
      | ⟨1, _⟩ => show win0_3.index t (1 : Fin 2) * 11 + 1 * q.val = q.val; rw [e3c]; omega)
    (fun k => by
      show V c main_v21 (((cfg0.win 4).blk t).view.emb (ix2 k q)) = V c main_v21 (ix2 k q)
      refine congrArg (V c main_v21) (funext fun a => Fin.ext ?_)
      match a with
      | ⟨0, _⟩ => show win0_4.index t (0 : Fin 2) * 11 + 1 * k.val = k.val; rw [e4r]; omega
      | ⟨1, _⟩ => show win0_4.index t (1 : Fin 2) * 11 + 1 * q.val = q.val; rw [e4c]; omega)
    (fun k => by
      show V c main_v23 (((cfg0.win 5).blk t).view.emb (ix2 k q)) = V c main_v23 (ix2 k q)
      refine congrArg (V c main_v23) (funext fun a => Fin.ext ?_)
      match a with
      | ⟨0, _⟩ => show win0_5.index t (0 : Fin 2) * 4 + 1 * k.val = k.val; rw [e5r]; omega
      | ⟨1, _⟩ => show win0_5.index t (1 : Fin 2) * 11 + 1 * q.val = q.val; rw [e5c]; omega)
    (by
      show V c main_v30 (((cfg0.win 6).blk t).view.emb (ix2 0 q)) = V c main_v30 (ix2 0 q)
      refine congrArg (V c main_v30) (funext fun a => Fin.ext ?_)
      match a with
      | ⟨0, _⟩ => show win0_6.index t (0 : Fin 2) * 1 + 1 * 0 = 0; rw [e6r]
      | ⟨1, _⟩ => show win0_6.index t (1 : Fin 2) * 11 + 1 * q.val = q.val; rw [e6c]; omega)
    (fun k => by
      show V c main_v25 (((cfg0.win 7).blk t).view.emb (ix2 k q)) = V c main_v25 (ix2 k q)
      refine congrArg (V c main_v25) (funext fun a => Fin.ext ?_)
      match a with
      | ⟨0, _⟩ => show win0_7.index t (0 : Fin 2) * 11 + 1 * k.val = k.val; rw [e7r]; omega
      | ⟨1, _⟩ => show win0_7.index t (1 : Fin 2) * 11 + 1 * q.val = q.val; rw [e7c]; omega)
    (fun k => by
      show V c main_v27 (((cfg0.win 8).blk t).view.emb (ix2 k q)) = V c main_v27 (ix2 k q)
      refine congrArg (V c main_v27) (funext fun a => Fin.ext ?_)
      match a with
      | ⟨0, _⟩ => show win0_8.index t (0 : Fin 2) * 11 + 1 * k.val = k.val; rw [e8r]; omega
      | ⟨1, _⟩ => show win0_8.index t (1 : Fin 2) * 11 + 1 * q.val = q.val; rw [e8c]; omega)
    (fun k => by
      show V c main_v29 (((cfg0.win 9).blk t).view.emb (ix2 k q)) = V c main_v29 (ix2 k q)
      refine congrArg (V c main_v29) (funext fun a => Fin.ext ?_)
      match a with
      | ⟨0, _⟩ => show win0_9.index t (0 : Fin 2) * 4 + 1 * k.val = k.val; rw [e9r]; omega
      | ⟨1, _⟩ => show win0_9.index t (1 : Fin 2) * 11 + 1 * q.val = q.val; rw [e9c]; omega)
    (by
      show V c main_v31 (((cfg0.win 10).blk t).view.emb (ix2 0 q)) = V c main_v31 (ix2 0 q)
      refine congrArg (V c main_v31) (funext fun a => Fin.ext ?_)
      match a with
      | ⟨0, _⟩ => show win0_10.index t (0 : Fin 2) * 1 + 1 * 0 = 0; rw [e10r]
      | ⟨1, _⟩ => show win0_10.index t (1 : Fin 2) * 11 + 1 * q.val = q.val; rw [e10c]; omega)

/-- An index of the array is in point `t`'s block iff each coordinate is in the block's range on its axis. -/
theorem mem_blk0 (t : Fin cfg0.N) (i : S3200000x11.Idx) :
    i ∈ ((cfg0.win 11).blk t).view.set ↔ ∀ a : Fin 2, win0_11.index t a * S8000x11.size a ≤ (i a).val ∧ (i a).val < win0_11.index t a * S8000x11.size a + S8000x11.size a := by
  show i ∈ ((View.whole main_v32).slice (win0_11.rect t)).set ↔ _
  rw [View.set_slice_whole, Rect.mem_set_unit]
  exact Iff.rfl

/-- Row `r` of the output is written by point `r / 8000`. -/
theorem cover0 (i : S3200000x11.Idx) :
    ∃ t : Fin cfg0.N, (cfg0.win 11).flush t = true ∧ i ∈ ((cfg0.win 11).blk t).view.set := by
  have hN : cfg0.N = 400 := N_0
  have hi0 : (i 0).val < 3200000 := (i 0).isLt
  have hi1 : (i 1).val < 11 := (i 1).isLt
  refine ⟨⟨(i 0).val / 8000, by omega⟩, flush0_11 _, ?_⟩
  obtain ⟨e0r, e0c, e1r, e1c, e2r, e2c, e3r, e3c, e4r, e4c, e5r, e5c, e6r, e6c, e7r, e7c, e8r, e8c, e9r, e9c, e10r, e10c, e11r, e11c⟩ := idx_facts0 ⟨(i 0).val / 8000, by omega⟩
  rw [mem_blk0]
  intro a
  match a with
  | ⟨0, _⟩ => show win0_11.index _ (0 : Fin 2) * 8000 ≤ (i 0).val ∧ (i 0).val < win0_11.index _ (0 : Fin 2) * 8000 + 8000; rw [e11r]; show (i 0).val / 8000 * 8000 ≤ (i 0).val ∧ (i 0).val < (i 0).val / 8000 * 8000 + 8000; omega
  | ⟨1, _⟩ => show win0_11.index _ (1 : Fin 2) * 11 ≤ (i 1).val ∧ (i 1).val < win0_11.index _ (1 : Fin 2) * 11 + 11; rw [e11c]; omega

/-- THE OUTPUT ARRAY after region 0: the layer's message of the arrays the region reads, at every index. -/
theorem region0_value (c : Dev nD) :
    (dat0 (F := Ideal) V c).arrAt 11 cfg0.N
      = Cert.Spec.edgeMsg (V c main_v10) (V c main_v17) (V c main_arg2) (V c main_v19) (V c main_v21) (V c main_v23) (V c main_v30) (V c main_v25) (V c main_v27) (V c main_v29) (V c main_v31) :=
  (dat0 (F := Ideal) V c).arrAt_eq_of_cover 11 (G0 V c) (fun t _ => flushed0_eq V c t) (cover0)

/-! ## Region 1 -/

/-- What region 1's output array ends holding: the layer's message of the arrays the region reads. -/
abbrev G1 (c : Dev nD) : Spec.Arr 3200000 11 :=
  Spec.edgeMsg (V c main_v62) (V c main_v69) (V c main_arg2) (V c main_v71) (V c main_v73) (V c main_v75) (V c main_v82) (V c main_v77) (V c main_v79) (V c main_v81) (V c main_v83)

/-- The body's stored block is its payload of the loaded blocks: the one store covers the buffer, and every load reads a
    whole block. -/
theorem out1_eq (x0 x1 : Vec Ideal S8000x11 .f32) (x2 : Vec Ideal S8000x4 .f32) (x3 x4 : Vec Ideal S11x11 .bf16)
    (x5 : Vec Ideal S4x11 .bf16) (x6 : Vec Ideal S1x11 .f32) (x7 x8 : Vec Ideal S11x11 .bf16)
    (x9 : Vec Ideal S4x11 .bf16) (x10 : Vec Ideal S1x11 .f32) :
    out1_11 (F := Ideal) x0 x1 x2 x3 x4 x5 x6 x7 x8 x9 x10
      = k1_pay1 (k1_pay5 x0 x1 x2 x3 x4 x5 x6) (k1_pay6 x0 x1 x7 x8) (k1_pay7 x2 x9) x10 := by
  unfold out1_11
  rw [View.canon_unit_zero hz]
  simp only [View.ld_unit_zero (S := S8000x11) hz, View.ld_unit_zero (S := S8000x4) hz,
    View.ld_unit_zero (S := S11x11) hz, View.ld_unit_zero (S := S4x11) hz, View.ld_unit_zero (S := S1x11) hz]

/-- The stored block at an entry, given which rows and which weights the loaded blocks hold. -/
theorem out1_entry (x0 x1 : Vec Ideal S8000x11 .f32) (x2 : Vec Ideal S8000x4 .f32) (x3 x4 : Vec Ideal S11x11 .bf16)
    (x5 : Vec Ideal S4x11 .bf16) (x6 : Vec Ideal S1x11 .f32) (x7 x8 : Vec Ideal S11x11 .bf16)
    (x9 : Vec Ideal S4x11 .bf16) (x10 : Vec Ideal S1x11 .f32)
    (xd xs : Spec.Arr 3200000 11) (e : Spec.Arr 3200000 4) (wfd wfs : Spec.Arr 11 11) (wfe : Spec.Arr 4 11)
    (bf : Spec.Arr 1 11) (wsd wss : Spec.Arr 11 11) (wse : Spec.Arr 4 11) (bs : Spec.Arr 1 11)
    (p : Fin 8000) (q : Fin 11) (r : Fin 3200000)
    (h0 : ∀ k : Fin 11, x0 (ix2 p k) = xd (ix2 r k)) (h1 : ∀ k : Fin 11, x1 (ix2 p k) = xs (ix2 r k))
    (h2 : ∀ k : Fin 4, x2 (ix2 p k) = e (ix2 r k))
    (h3 : ∀ k : Fin 11, x3 (ix2 k q) = wfd (ix2 k q)) (h4 : ∀ k : Fin 11, x4 (ix2 k q) = wfs (ix2 k q))
    (h5 : ∀ k : Fin 4, x5 (ix2 k q) = wfe (ix2 k q)) (h6 : x6 (ix2 0 q) = bf (ix2 0 q))
    (h7 : ∀ k : Fin 11, x7 (ix2 k q) = wsd (ix2 k q)) (h8 : ∀ k : Fin 11, x8 (ix2 k q) = wss (ix2 k q))
    (h9 : ∀ k : Fin 4, x9 (ix2 k q) = wse (ix2 k q)) (h10 : x10 (ix2 0 q) = bs (ix2 0 q)) :
    out1_11 (F := Ideal) x0 x1 x2 x3 x4 x5 x6 x7 x8 x9 x10 (ix2 p q)
      = Spec.edgeMsg xd xs e wfd wfs wfe bf wsd wss wse bs (ix2 r q) :=
  (congrFun (out1_eq x0 x1 x2 x3 x4 x5 x6 x7 x8 x9 x10) (ix2 p q)).trans
    ((payload1_apply x0 x1 x2 x3 x4 x5 x6 x7 x8 x9 x10 p q).trans
      (block_entry x0 x1 x2 x3 x4 x5 x6 x7 x8 x9 x10 xd xs e wfd wfs wfe bf wsd wss wse bs p q r
        h0 h1 h2 h3 h4 h5 h6 h7 h8 h9 h10))

/-- The printed index maps over the grid: the three row windows and the output move one block of 8000 rows per point,
    the weight and bias windows stay at block (0, 0). -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

/-- WHAT POINT `t` WRITES BACK is block `t` of the layer's message: rows `8000 t … 8000 t + 7999`. -/
theorem flushed1_eq (c : Dev nD) (t : Fin cfg1.N) :
    (dat1 (F := Ideal) V c).flushed 11 t = ((cfg1.win 11).blk t).view.read (Elt Ideal) (G1 V c) := by
  show (cfg1.win 11).cut (grid1.coords t) ((dat1 (F := Ideal) V c).after 11 t) = _
  rw [after1_11]
  obtain ⟨e0r, e0c, e1r, e1c, e2r, e2c, e3r, e3c, e4r, e4c, e5r, e5c, e6r, e6c, e7r, e7c, e8r, e8c, e9r, e9c, e10r, e10c, e11r, e11c⟩ := idx_facts1 t
  have hN : cfg1.N = 400 := N_1
  have ht := t.isLt
  funext j
  obtain ⟨p, q, rfl⟩ : ∃ (p : Fin 8000) (q : Fin 11), j = ix2 p q := ⟨j 0, j 1, eq_ix2 j⟩
  have hp := p.isLt
  have hq := q.isLt
  obtain ⟨r, hr⟩ : ∃ r : Fin 3200000, r.val = 8000 * t.val + p.val := ⟨⟨8000 * t.val + p.val, by omega⟩, rfl⟩
  have hemb : ((cfg1.win 11).blk t).view.emb (ix2 p q) = ix2 r q := by
    funext a; apply Fin.ext
    match a with
    | ⟨0, _⟩ => show win1_11.index t (0 : Fin 2) * 8000 + 1 * p.val = r.val; rw [e11r, hr]; omega
    | ⟨1, _⟩ => show win1_11.index t (1 : Fin 2) * 11 + 1 * q.val = q.val; rw [e11c]; omega
  show out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q)
    = Spec.edgeMsg (V c main_v62) (V c main_v69) (V c main_arg2) (V c main_v71) (V c main_v73) (V c main_v75) (V c main_v82) (V c main_v77) (V c main_v79) (V c main_v81) (V c main_v83) (((cfg1.win 11).blk t).view.emb (ix2 p q))
  rw [hemb]
  exact out1_entry (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    (V c main_v62) (V c main_v69) (V c main_arg2) (V c main_v71) (V c main_v73) (V c main_v75) (V c main_v82) (V c main_v77) (V c main_v79) (V c main_v81) (V c main_v83) p q r
    (fun k => by
      show V c main_v62 (((cfg1.win 0).blk t).view.emb (ix2 p k)) = V c main_v62 (ix2 r k)
      refine congrArg (V c main_v62) (funext fun a => Fin.ext ?_)
      match a with
      | ⟨0, _⟩ => show win1_0.index t (0 : Fin 2) * 8000 + 1 * p.val = r.val; rw [e0r, hr]; omega
      | ⟨1, _⟩ => show win1_0.index t (1 : Fin 2) * 11 + 1 * k.val = k.val; rw [e0c]; omega)
    (fun k => by
      show V c main_v69 (((cfg1.win 1).blk t).view.emb (ix2 p k)) = V c main_v69 (ix2 r k)
      refine congrArg (V c main_v69) (funext fun a => Fin.ext ?_)
      match a with
      | ⟨0, _⟩ => show win1_1.index t (0 : Fin 2) * 8000 + 1 * p.val = r.val; rw [e1r, hr]; omega
      | ⟨1, _⟩ => show win1_1.index t (1 : Fin 2) * 11 + 1 * k.val = k.val; rw [e1c]; omega)
    (fun k => by
      show V c main_arg2 (((cfg1.win 2).blk t).view.emb (ix2 p k)) = V c main_arg2 (ix2 r k)
      refine congrArg (V c main_arg2) (funext fun a => Fin.ext ?_)
      match a with
      | ⟨0, _⟩ => show win1_2.index t (0 : Fin 2) * 8000 + 1 * p.val = r.val; rw [e2r, hr]; omega
      | ⟨1, _⟩ => show win1_2.index t (1 : Fin 2) * 4 + 1 * k.val = k.val; rw [e2c]; omega)
    (fun k => by
      show V c main_v71 (((cfg1.win 3).blk t).view.emb (ix2 k q)) = V c main_v71 (ix2 k q)
      refine congrArg (V c main_v71) (funext fun a => Fin.ext ?_)
      match a with
      | ⟨0, _⟩ => show win1_3.index t (0 : Fin 2) * 11 + 1 * k.val = k.val; rw [e3r]; omega
      | ⟨1, _⟩ => show win1_3.index t (1 : Fin 2) * 11 + 1 * q.val = q.val; rw [e3c]; omega)
    (fun k => by
      show V c main_v73 (((cfg1.win 4).blk t).view.emb (ix2 k q)) = V c main_v73 (ix2 k q)
      refine congrArg (V c main_v73) (funext fun a => Fin.ext ?_)
      match a with
      | ⟨0, _⟩ => show win1_4.index t (0 : Fin 2) * 11 + 1 * k.val = k.val; rw [e4r]; omega
      | ⟨1, _⟩ => show win1_4.index t (1 : Fin 2) * 11 + 1 * q.val = q.val; rw [e4c]; omega)
    (fun k => by
      show V c main_v75 (((cfg1.win 5).blk t).view.emb (ix2 k q)) = V c main_v75 (ix2 k q)
      refine congrArg (V c main_v75) (funext fun a => Fin.ext ?_)
      match a with
      | ⟨0, _⟩ => show win1_5.index t (0 : Fin 2) * 4 + 1 * k.val = k.val; rw [e5r]; omega
      | ⟨1, _⟩ => show win1_5.index t (1 : Fin 2) * 11 + 1 * q.val = q.val; rw [e5c]; omega)
    (by
      show V c main_v82 (((cfg1.win 6).blk t).view.emb (ix2 0 q)) = V c main_v82 (ix2 0 q)
      refine congrArg (V c main_v82) (funext fun a => Fin.ext ?_)
      match a with
      | ⟨0, _⟩ => show win1_6.index t (0 : Fin 2) * 1 + 1 * 0 = 0; rw [e6r]
      | ⟨1, _⟩ => show win1_6.index t (1 : Fin 2) * 11 + 1 * q.val = q.val; rw [e6c]; omega)
    (fun k => by
      show V c main_v77 (((cfg1.win 7).blk t).view.emb (ix2 k q)) = V c main_v77 (ix2 k q)
      refine congrArg (V c main_v77) (funext fun a => Fin.ext ?_)
      match a with
      | ⟨0, _⟩ => show win1_7.index t (0 : Fin 2) * 11 + 1 * k.val = k.val; rw [e7r]; omega
      | ⟨1, _⟩ => show win1_7.index t (1 : Fin 2) * 11 + 1 * q.val = q.val; rw [e7c]; omega)
    (fun k => by
      show V c main_v79 (((cfg1.win 8).blk t).view.emb (ix2 k q)) = V c main_v79 (ix2 k q)
      refine congrArg (V c main_v79) (funext fun a => Fin.ext ?_)
      match a with
      | ⟨0, _⟩ => show win1_8.index t (0 : Fin 2) * 11 + 1 * k.val = k.val; rw [e8r]; omega
      | ⟨1, _⟩ => show win1_8.index t (1 : Fin 2) * 11 + 1 * q.val = q.val; rw [e8c]; omega)
    (fun k => by
      show V c main_v81 (((cfg1.win 9).blk t).view.emb (ix2 k q)) = V c main_v81 (ix2 k q)
      refine congrArg (V c main_v81) (funext fun a => Fin.ext ?_)
      match a with
      | ⟨0, _⟩ => show win1_9.index t (0 : Fin 2) * 4 + 1 * k.val = k.val; rw [e9r]; omega
      | ⟨1, _⟩ => show win1_9.index t (1 : Fin 2) * 11 + 1 * q.val = q.val; rw [e9c]; omega)
    (by
      show V c main_v83 (((cfg1.win 10).blk t).view.emb (ix2 0 q)) = V c main_v83 (ix2 0 q)
      refine congrArg (V c main_v83) (funext fun a => Fin.ext ?_)
      match a with
      | ⟨0, _⟩ => show win1_10.index t (0 : Fin 2) * 1 + 1 * 0 = 0; rw [e10r]
      | ⟨1, _⟩ => show win1_10.index t (1 : Fin 2) * 11 + 1 * q.val = q.val; rw [e10c]; omega)

/-- An index of the array is in point `t`'s block iff each coordinate is in the block's range on its axis. -/
theorem mem_blk1 (t : Fin cfg1.N) (i : S3200000x11.Idx) :
    i ∈ ((cfg1.win 11).blk t).view.set ↔ ∀ a : Fin 2, win1_11.index t a * S8000x11.size a ≤ (i a).val ∧ (i a).val < win1_11.index t a * S8000x11.size a + S8000x11.size a := by
  show i ∈ ((View.whole main_v84).slice (win1_11.rect t)).set ↔ _
  rw [View.set_slice_whole, Rect.mem_set_unit]
  exact Iff.rfl

/-- Row `r` of the output is written by point `r / 8000`. -/
theorem cover1 (i : S3200000x11.Idx) :
    ∃ t : Fin cfg1.N, (cfg1.win 11).flush t = true ∧ i ∈ ((cfg1.win 11).blk t).view.set := by
  have hN : cfg1.N = 400 := N_1
  have hi0 : (i 0).val < 3200000 := (i 0).isLt
  have hi1 : (i 1).val < 11 := (i 1).isLt
  refine ⟨⟨(i 0).val / 8000, by omega⟩, flush1_11 _, ?_⟩
  obtain ⟨e0r, e0c, e1r, e1c, e2r, e2c, e3r, e3c, e4r, e4c, e5r, e5c, e6r, e6c, e7r, e7c, e8r, e8c, e9r, e9c, e10r, e10c, e11r, e11c⟩ := idx_facts1 ⟨(i 0).val / 8000, by omega⟩
  rw [mem_blk1]
  intro a
  match a with
  | ⟨0, _⟩ => show win1_11.index _ (0 : Fin 2) * 8000 ≤ (i 0).val ∧ (i 0).val < win1_11.index _ (0 : Fin 2) * 8000 + 8000; rw [e11r]; show (i 0).val / 8000 * 8000 ≤ (i 0).val ∧ (i 0).val < (i 0).val / 8000 * 8000 + 8000; omega
  | ⟨1, _⟩ => show win1_11.index _ (1 : Fin 2) * 11 ≤ (i 1).val ∧ (i 1).val < win1_11.index _ (1 : Fin 2) * 11 + 11; rw [e11c]; omega

/-- THE OUTPUT ARRAY after region 1: the layer's message of the arrays the region reads, at every index. -/
theorem region1_value (c : Dev nD) :
    (dat1 (F := Ideal) V c).arrAt 11 cfg1.N
      = Cert.Spec.edgeMsg (V c main_v62) (V c main_v69) (V c main_arg2) (V c main_v71) (V c main_v73) (V c main_v75) (V c main_v82) (V c main_v77) (V c main_v79) (V c main_v81) (V c main_v83) :=
  (dat1 (F := Ideal) V c).arrAt_eq_of_cover 11 (G1 V c) (fun t _ => flushed1_eq V c t) (cover1)

end Cert.KernelIdeal.RegionValue

end
-- ==== Proof.RefMsg.lean ====
/-
  The reference's edge message, index by index, is the specification's.

  The reference forms, per layer, the 26-wide row `[x[dst] | x[src] | e]` of every edge and multiplies it by the whole
  26 × 11 weight matrix; the specification multiplies the three pieces by the three row-blocks of that matrix and adds
  the three partial products. A sum over 26 consecutive positions is the sum over its first 11, its next 11 and its
  last 4, in any commutative additive monoid — the extended reals under `+` are one — so no finiteness is used.
  The logistic is spelt `1 / (1 + exp (−z))` by the reference, which is its definition; the softplus differs only in
  `−|d|` against `0 − |d|`.
-/
import proofs.«128043_j25649544692460_2_alg».proof.Proof.Gen.ReferenceIdeal
import proofs.«128043_j25649544692460_2_alg».proof.Proof.Spec
import proofs.«128043_j25649544692460_2_alg».proof.Proof.LibHostRows
import Idealize.ShloMosaic.Lib.Pipeline.Value
import Idealize.ShloMosaic.Lib.ValueIdx
import Idealize.ShloMosaic.PureOps.Ideal.Laws

noncomputable section

open scoped BigOperators

namespace Cert.ReferenceIdeal.RefMsg

open Idealize.ShloMosaic Idealize.ShloMosaic.ValueIdx Cert.ReferenceIdeal Cert.ReferenceIdeal.Facts₀ Cert.Spec

/-- A sum over 26 positions, split 11 + 11 + 4. -/
theorem sum26 {M : Type} [AddCommMonoid M] (f : Fin 26 → M) :
    ∑ k, f k = (∑ k : Fin 11, f ⟨k.val, by omega⟩) + (∑ k : Fin 11, f ⟨11 + k.val, by omega⟩)
      + (∑ k : Fin 4, f ⟨22 + k.val, by omega⟩) := by
  have h1 := Fin.sum_univ_add (a := 22) (b := 4) f
  have h2 := Fin.sum_univ_add (a := 11) (b := 11) (fun i : Fin 22 => f (Fin.castAdd 4 i))
  rw [h1, h2]
  rfl

/-- The float one denotes the real one. -/
theorem ofBits_one : Ideal.ofBits .f32 0x3F800000#32 = 1 := by
  simp [Ideal.ofBits, Ideal.ieee, -EReal.coe_mul]; norm_num

/-- The 26-wide row at column `k` of each of its three spans. -/
theorem cat_left (xd xs : FVec Ideal S3200000x11 .f32) (e : FVec Ideal S3200000x4 .f32) (r : Fin 3200000) (k : Fin 11) :
    concatenate S3200000x26 1 [⟨S3200000x11, xd⟩, ⟨S3200000x11, xs⟩, ⟨S3200000x4, e⟩]
      concatenates_S3200000x11_S3200000x11_S3200000x4_S3200000x26_d1 (ix2 r (⟨k.val, by omega⟩ : Fin 26)) = xd (ix2 r k) :=
  concatenate_apply_piece (t := S3200000x26) (1 : Fin 2) [⟨S3200000x11, xd⟩, ⟨S3200000x11, xs⟩, ⟨S3200000x4, e⟩] concatenates_S3200000x11_S3200000x11_S3200000x4_S3200000x26_d1 (ix2 r (⟨k.val, by omega⟩ : Fin 26)) 0 (by simp) S3200000x11 xd rfl rfl 0 rfl (ix2 r k)
    (fun b hb => by match b with | ⟨0, _⟩ => rfl | ⟨1, _⟩ => exact absurd rfl hb) (by show 0 + k.val = k.val; omega)

theorem cat_mid (xd xs : FVec Ideal S3200000x11 .f32) (e : FVec Ideal S3200000x4 .f32) (r : Fin 3200000) (k : Fin 11) :
    concatenate S3200000x26 1 [⟨S3200000x11, xd⟩, ⟨S3200000x11, xs⟩, ⟨S3200000x4, e⟩]
      concatenates_S3200000x11_S3200000x11_S3200000x4_S3200000x26_d1 (ix2 r (⟨11 + k.val, by omega⟩ : Fin 26)) = xs (ix2 r k) :=
  concatenate_apply_piece (t := S3200000x26) (1 : Fin 2) [⟨S3200000x11, xd⟩, ⟨S3200000x11, xs⟩, ⟨S3200000x4, e⟩] concatenates_S3200000x11_S3200000x11_S3200000x4_S3200000x26_d1 (ix2 r (⟨11 + k.val, by omega⟩ : Fin 26)) 1 (by simp) S3200000x11 xs rfl rfl 11 rfl (ix2 r k)
    (fun b hb => by match b with | ⟨0, _⟩ => rfl | ⟨1, _⟩ => exact absurd rfl hb) (by rfl)

theorem cat_right (xd xs : FVec Ideal S3200000x11 .f32) (e : FVec Ideal S3200000x4 .f32) (r : Fin 3200000) (k : Fin 4) :
    concatenate S3200000x26 1 [⟨S3200000x11, xd⟩, ⟨S3200000x11, xs⟩, ⟨S3200000x4, e⟩]
      concatenates_S3200000x11_S3200000x11_S3200000x4_S3200000x26_d1 (ix2 r (⟨22 + k.val, by omega⟩ : Fin 26)) = e (ix2 r k) :=
  concatenate_apply_piece (t := S3200000x26) (1 : Fin 2) [⟨S3200000x11, xd⟩, ⟨S3200000x11, xs⟩, ⟨S3200000x4, e⟩] concatenates_S3200000x11_S3200000x11_S3200000x4_S3200000x26_d1 (ix2 r (⟨22 + k.val, by omega⟩ : Fin 26)) 2 (by simp) S3200000x4 e rfl rfl 22 rfl (ix2 r k)
    (fun b hb => by match b with | ⟨0, _⟩ => rfl | ⟨1, _⟩ => exact absurd rfl hb) (by rfl)

/-- One linear form of the reference at an entry: the product of the 26-wide row with the whole weight matrix plus the
    bias row is the specification's three partial products plus the bias, for any three blocks `wd ws we` that are the
    weight matrix's rows 0–10, 11–21, 22–25 and any one-row block `br` that is the bias. -/
theorem lin_eq (xd xs : FVec Ideal S3200000x11 .f32) (e : FVec Ideal S3200000x4 .f32) (W : FVec Ideal S26x11 .f32)
    (b : FVec Ideal S11 .f32) (wd ws : Arr 11 11) (we : Arr 4 11) (br : Arr 1 11)
    (hd : ∀ (k : Fin 11) (j : Fin 11), wd (ix2 k j) = W (ix2 (⟨k.val, by omega⟩ : Fin 26) j))
    (hs : ∀ (k : Fin 11) (j : Fin 11), ws (ix2 k j) = W (ix2 (⟨11 + k.val, by omega⟩ : Fin 26) j))
    (he : ∀ (k : Fin 4) (j : Fin 11), we (ix2 k j) = W (ix2 (⟨22 + k.val, by omega⟩ : Fin 26) j))
    (hb : ∀ j : Fin 11, br (ix2 0 j) = b (ix1 j)) (r : Fin 3200000) (j : Fin 11) :
    addf (Host.dotGeneral (F := Ideal) dot_S3200000x26_S26x11_S3200000x11_1_0_0_1_n_n none
        (concatenate S3200000x26 1 [⟨S3200000x11, xd⟩, ⟨S3200000x11, xs⟩, ⟨S3200000x4, e⟩]
          concatenates_S3200000x11_S3200000x11_S3200000x4_S3200000x26_d1) W)
      (broadcastInDim S3200000x11 ![0, 1] bcast_S1x11_S3200000x11_0_1 (broadcastInDim S1x11 ![1] bcast_S11_S1x11_1 b)) (ix2 r j)
    = lin xd xs e wd ws we br r j := by
  rw [addf_apply]
  rw [Cert.LibHostRows.hostDot_apply dot_S3200000x26_S26x11_S3200000x11_1_0_0_1_n_n rfl rfl
    (fun _ _ => rfl) (fun _ _ => rfl) (fun _ _ => rfl) (fun _ _ => rfl) none _ W r j]
  rw [Cert.LibHostRows.rowOfVec_spread_apply (by decide) b bcast_S11_S1x11_1 bcast_S1x11_S3200000x11_0_1 r j]
  rw [sum26]
  unfold lin
  simp only [cat_left, cat_mid, cat_right, hd, hs, he, hb]

/-- The reference's gate at an entry is the specification's. -/
theorem gate_eq (zf zs : FVec Ideal S3200000x11 .f32) (i : S3200000x11.Idx) :
    mulf
      (Host.divf (broadcastInDim S3200000x11 ![] bcast_S_S3200000x11 (constant (F := Ideal) S_ .f32 0x3F800000#32))
        (addf (broadcastInDim S3200000x11 ![] bcast_S_S3200000x11 (constant (F := Ideal) S_ .f32 0x3F800000#32))
          (Host.exp (Host.negf zf))))
      (select
        (cmpf .une (subf zs (broadcastInDim S3200000x11 ![] bcast_S_S3200000x11 (constant (F := Ideal) S_ .f32 0x00000000#32)))
          (subf zs (broadcastInDim S3200000x11 ![] bcast_S_S3200000x11 (constant (F := Ideal) S_ .f32 0x00000000#32))))
        (addf zs (broadcastInDim S3200000x11 ![] bcast_S_S3200000x11 (constant (F := Ideal) S_ .f32 0x00000000#32)))
        (addf (maximumf zs (broadcastInDim S3200000x11 ![] bcast_S_S3200000x11 (constant (F := Ideal) S_ .f32 0x00000000#32)))
          (Host.log1p (Host.exp (Host.negf (Host.absf
            (subf zs (broadcastInDim S3200000x11 ![] bcast_S_S3200000x11 (constant (F := Ideal) S_ .f32 0x00000000#32))))))))) i
    = gate (zf i) (zs i) := by
  have e0 : ∀ (i : S3200000x11.Idx) (w : BitVec 32),
      broadcastInDim S3200000x11 ![] bcast_S_S3200000x11 (constant (F := Ideal) S_ .f32 w) i = Ideal.ofBits .f32 w := fun _ _ => rfl
  show Ideal.div _ (_ + Ideal.exp (-(zf i))) * Scalar.select _ _ _ = _
  unfold gate softplus Ideal.logistic
  simp only [e0, ofBits_one]
  congr 2
  show (max (zs i - z0) (-(zs i - z0))) |> fun a => max (zs i) z0 + Ideal.log1p (Ideal.exp (-a)) = _
  simp only [z0, Ideal.ofBits_zero_f32, zero_sub]

end Cert.ReferenceIdeal.RefMsg

end
-- ==== Proof.Msg.lean ====
/-
  The reference's two message stretches against the specification.

  Each layer of the reference forms, for every edge, the 26-wide row `[x[dst] | x[src] | e]`, two affine maps of it
  (the whole 26 × 11 weight matrix, then the bias row spread over the edges), and the product of the logistic of the
  first with the softplus of the second. Evaluated over any contents of the buffers it reads, the stretch's last
  buffer holds exactly that array; entry by entry the gate is the specification's gate, and each affine map is the
  specification's three partial products plus the bias, once the weight matrix's rows 0–10, 11–21 and 22–25 are named
  as three blocks.
-/
import proofs.«128043_j25649544692460_2_alg».proof.Proof.RefRun
import proofs.«128043_j25649544692460_2_alg».proof.Proof.RefMsg
import proofs.«128043_j25649544692460_2_alg».proof.Proof.Spec
import Idealize.ShloMosaic.Lib.StableHlo.Run

noncomputable section

namespace Cert.Bridge

open Idealize.ShloMosaic Idealize.ShloMosaic.StableHlo Idealize.ShloMosaic.ValueIdx Idealize.SL.Sem

variable (VR : Valuation Cert.ReferenceIdeal.τ Cert.ReferenceIdeal.sig (Elt Ideal))
variable (xd xs : Cert.Spec.Arr 3200000 11) (e : Cert.Spec.Arr 3200000 4) (wfd wfs wsd wss : Cert.Spec.Arr 11 11)
  (wfe wse : Cert.Spec.Arr 4 11) (bfr bsr : Cert.Spec.Arr 1 11)

/-- Reading a typed reference's buffer back at the value's type undoes writing it there: the two transports are along
    one equation and its inverse. -/
theorem ofBuf_toBuf {sig : RefSig} {T : BufTy} {Val : EltTy → Type} (x : StableHlo.TRef sig T) (v : T.Contents Val) :
    x.ofBuf (x.toBuf v) = v := by
  obtain ⟨r, h, h2, h3⟩ := x
  subst h
  rfl

set_option maxHeartbeats 1000000 in
set_option maxRecDepth 8192 in
/-- Layer 1: the reference's message array — what the buffer of the message product holds after the message stretch — is the
    specification's edge message of the gathered rows, the edge attributes, and the row blocks of the two weight
    matrices with their biases. The stretch evaluates to `logistic-form · softplus-form` of two affine maps of the
    26-wide concatenated row; entry by entry the gate is the specification's gate and each affine map is the
    specification's three partial products plus the bias. -/
theorem msg1
    (hxd : VR (Proc.devRef .tc Cert.ReferenceIdeal.main_v10) = xd) (hxs : VR (Proc.devRef .tc Cert.ReferenceIdeal.main_v17) = xs)
    (he : VR (Proc.devRef .tc Cert.ReferenceIdeal.main_arg2) = e)
    (hfd : ∀ k j : Fin 11, wfd (ix2 k j) = (VR (Proc.devRef .tc Cert.ReferenceIdeal.main_arg4) : Cert.Spec.Arr 26 11) (ix2 (⟨k.val, by omega⟩ : Fin 26) j))
    (hfs : ∀ k j : Fin 11, wfs (ix2 k j) = (VR (Proc.devRef .tc Cert.ReferenceIdeal.main_arg4) : Cert.Spec.Arr 26 11) (ix2 (⟨11 + k.val, by omega⟩ : Fin 26) j))
    (hfe : ∀ (k : Fin 4) (j : Fin 11), wfe (ix2 k j) = (VR (Proc.devRef .tc Cert.ReferenceIdeal.main_arg4) : Cert.Spec.Arr 26 11) (ix2 (⟨22 + k.val, by omega⟩ : Fin 26) j))
    (hbf : ∀ j : Fin 11, bfr (ix2 0 j) = (VR (Proc.devRef .tc Cert.ReferenceIdeal.main_arg5) : (⟨1, ![11]⟩ : Shape).Idx → EReal) (ix1 j))
    (hsd : ∀ k j : Fin 11, wsd (ix2 k j) = (VR (Proc.devRef .tc Cert.ReferenceIdeal.main_arg6) : Cert.Spec.Arr 26 11) (ix2 (⟨k.val, by omega⟩ : Fin 26) j))
    (hss : ∀ k j : Fin 11, wss (ix2 k j) = (VR (Proc.devRef .tc Cert.ReferenceIdeal.main_arg6) : Cert.Spec.Arr 26 11) (ix2 (⟨11 + k.val, by omega⟩ : Fin 26) j))
    (hse : ∀ (k : Fin 4) (j : Fin 11), wse (ix2 k j) = (VR (Proc.devRef .tc Cert.ReferenceIdeal.main_arg6) : Cert.Spec.Arr 26 11) (ix2 (⟨22 + k.val, by omega⟩ : Fin 26) j))
    (hbs : ∀ j : Fin 11, bsr (ix2 0 j) = (VR (Proc.devRef .tc Cert.ReferenceIdeal.main_arg7) : (⟨1, ![11]⟩ : Shape).Idx → EReal) (ix1 j)) :
    after Cert.ReferenceIdeal.RefRun.opsM1 VR (Proc.devRef .tc Cert.ReferenceIdeal.main_v34)
      = Cert.Spec.edgeMsg xd xs e wfd wfs wfe bfr wsd wss wse bsr := by
  have h0 : VR (Proc.devRef .tc ((![Cert.ReferenceIdeal.main_v10, Cert.ReferenceIdeal.main_v17, Cert.ReferenceIdeal.main_arg2] : Fin 3 → Ref Cert.ReferenceIdeal.sig .tc) 0)) = xd := hxd
  have h1 : VR (Proc.devRef .tc ((![Cert.ReferenceIdeal.main_v10, Cert.ReferenceIdeal.main_v17, Cert.ReferenceIdeal.main_arg2] : Fin 3 → Ref Cert.ReferenceIdeal.sig .tc) 1)) = xs := hxs
  have h2 : VR (Proc.devRef .tc ((![Cert.ReferenceIdeal.main_v10, Cert.ReferenceIdeal.main_v17, Cert.ReferenceIdeal.main_arg2] : Fin 3 → Ref Cert.ReferenceIdeal.sig .tc) 2)) = e := he
  have e1 : ∀ v, (StableHlo.TRef.of (T := ⟨Cert.ReferenceIdeal.S3200000x11, .f32⟩) Cert.ReferenceIdeal.main_v33).toBuf (Val := Elt Ideal) v = v := fun _ => rfl
  have e2 : ∀ v, (StableHlo.TRef.of (T := ⟨Cert.ReferenceIdeal.S3200000x11, .f32⟩) Cert.ReferenceIdeal.main_v32).ofBuf (Val := Elt Ideal) v = v := fun _ => rfl
  after_results_simp
  simp only [ofBuf_toBuf, e1, e2]
  rw [h0, h1, h2]
  funext i
  obtain ⟨r, j, rfl⟩ : ∃ r j, i = ix2 r j := ⟨i 0, i 1, eq_ix2 i⟩
  show _ = Cert.Spec.gate (Cert.Spec.lin xd xs e wfd wfs wfe bfr r j) (Cert.Spec.lin xd xs e wsd wss wse bsr r j)
  rw [Cert.ReferenceIdeal.RefMsg.gate_eq,
    Cert.ReferenceIdeal.RefMsg.lin_eq xd xs e _ _ wfd wfs wfe bfr hfd hfs hfe hbf,
    Cert.ReferenceIdeal.RefMsg.lin_eq xd xs e _ _ wsd wss wse bsr hsd hss hse hbs]

set_option maxHeartbeats 1000000 in
set_option maxRecDepth 8192 in
/-- Layer 2: the same statement over the second message stretch, its inputs the rows gathered from layer 1's output
    and the second pair of weight matrices and biases. -/
theorem msg2
    (hxd : VR (Proc.devRef .tc Cert.ReferenceIdeal.main_v64) = xd) (hxs : VR (Proc.devRef .tc Cert.ReferenceIdeal.main_v71) = xs)
    (he : VR (Proc.devRef .tc Cert.ReferenceIdeal.main_arg2) = e)
    (hfd : ∀ k j : Fin 11, wfd (ix2 k j) = (VR (Proc.devRef .tc Cert.ReferenceIdeal.main_arg10) : Cert.Spec.Arr 26 11) (ix2 (⟨k.val, by omega⟩ : Fin 26) j))
    (hfs : ∀ k j : Fin 11, wfs (ix2 k j) = (VR (Proc.devRef .tc Cert.ReferenceIdeal.main_arg10) : Cert.Spec.Arr 26 11) (ix2 (⟨11 + k.val, by omega⟩ : Fin 26) j))
    (hfe : ∀ (k : Fin 4) (j : Fin 11), wfe (ix2 k j) = (VR (Proc.devRef .tc Cert.ReferenceIdeal.main_arg10) : Cert.Spec.Arr 26 11) (ix2 (⟨22 + k.val, by omega⟩ : Fin 26) j))
    (hbf : ∀ j : Fin 11, bfr (ix2 0 j) = (VR (Proc.devRef .tc Cert.ReferenceIdeal.main_arg11) : (⟨1, ![11]⟩ : Shape).Idx → EReal) (ix1 j))
    (hsd : ∀ k j : Fin 11, wsd (ix2 k j) = (VR (Proc.devRef .tc Cert.ReferenceIdeal.main_arg12) : Cert.Spec.Arr 26 11) (ix2 (⟨k.val, by omega⟩ : Fin 26) j))
    (hss : ∀ k j : Fin 11, wss (ix2 k j) = (VR (Proc.devRef .tc Cert.ReferenceIdeal.main_arg12) : Cert.Spec.Arr 26 11) (ix2 (⟨11 + k.val, by omega⟩ : Fin 26) j))
    (hse : ∀ (k : Fin 4) (j : Fin 11), wse (ix2 k j) = (VR (Proc.devRef .tc Cert.ReferenceIdeal.main_arg12) : Cert.Spec.Arr 26 11) (ix2 (⟨22 + k.val, by omega⟩ : Fin 26) j))
    (hbs : ∀ j : Fin 11, bsr (ix2 0 j) = (VR (Proc.devRef .tc Cert.ReferenceIdeal.main_arg13) : (⟨1, ![11]⟩ : Shape).Idx → EReal) (ix1 j)) :
    after Cert.ReferenceIdeal.RefRun.opsM2 VR (Proc.devRef .tc Cert.ReferenceIdeal.main_v88)
      = Cert.Spec.edgeMsg xd xs e wfd wfs wfe bfr wsd wss wse bsr := by
  have h0 : VR (Proc.devRef .tc ((![Cert.ReferenceIdeal.main_v64, Cert.ReferenceIdeal.main_v71, Cert.ReferenceIdeal.main_arg2] : Fin 3 → Ref Cert.ReferenceIdeal.sig .tc) 0)) = xd := hxd
  have h1 : VR (Proc.devRef .tc ((![Cert.ReferenceIdeal.main_v64, Cert.ReferenceIdeal.main_v71, Cert.ReferenceIdeal.main_arg2] : Fin 3 → Ref Cert.ReferenceIdeal.sig .tc) 1)) = xs := hxs
  have h2 : VR (Proc.devRef .tc ((![Cert.ReferenceIdeal.main_v64, Cert.ReferenceIdeal.main_v71, Cert.ReferenceIdeal.main_arg2] : Fin 3 → Ref Cert.ReferenceIdeal.sig .tc) 2)) = e := he
  have e1 : ∀ v, (StableHlo.TRef.of (T := ⟨Cert.ReferenceIdeal.S3200000x11, .f32⟩) Cert.ReferenceIdeal.main_v87).toBuf (Val := Elt Ideal) v = v := fun _ => rfl
  have e2 : ∀ v, (StableHlo.TRef.of (T := ⟨Cert.ReferenceIdeal.S3200000x11, .f32⟩) Cert.ReferenceIdeal.main_v86).ofBuf (Val := Elt Ideal) v = v := fun _ => rfl
  after_results_simp
  simp only [ofBuf_toBuf, e1, e2]
  rw [h0, h1, h2]
  funext i
  obtain ⟨r, j, rfl⟩ : ∃ r j, i = ix2 r j := ⟨i 0, i 1, eq_ix2 i⟩
  show _ = Cert.Spec.gate (Cert.Spec.lin xd xs e wfd wfs wfe bfr r j) (Cert.Spec.lin xd xs e wsd wss wse bsr r j)
  rw [Cert.ReferenceIdeal.RefMsg.gate_eq,
    Cert.ReferenceIdeal.RefMsg.lin_eq xd xs e _ _ wfd wfs wfe bfr hfd hfs hfe hbf,
    Cert.ReferenceIdeal.RefMsg.lin_eq xd xs e _ _ wsd wss wse bsr hsd hss hse hbs]

end Cert.Bridge

end
-- ==== Proof.Stage1.lean ====
/-
  From the first layer's message to the second layer's gathers both programs apply the same operations — the sum of
  the messages over each node's incoming edges, the batch normalisation over the nodes (mean, variance, reciprocal
  square root), scale and shift, the residual, and the two row gathers of the result at the wrapped receiver and
  sender indices — so when the arrays going in agree, the arrays coming out agree.
-/
import proofs.«128043_j25649544692460_2_alg».proof.Proof.Gen.KernelIdeal.Frame
import proofs.«128043_j25649544692460_2_alg».proof.Proof.RefRun
import Idealize.ShloMosaic.Lib.StableHlo.Run
import Idealize.ShloMosaic.PureOps.Ideal

noncomputable section

namespace Cert.Bridge

open Idealize.ShloMosaic Idealize.SL.Sem

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal))

set_option maxHeartbeats 4000000 in
/-- The first layer's output — the normalised, scaled and shifted aggregate added onto the node features — is the same array in both programs. -/
theorem s1_h
    (h_msg : Cert.KernelIdeal.Gen.W2 m ρ c (Proc.devRef .tc Cert.KernelIdeal.main_v32) = VR (Proc.devRef .tc Cert.ReferenceIdeal.main_v34))
    (h_v3 : Cert.KernelIdeal.Gen.W2 m ρ c (Proc.devRef .tc Cert.KernelIdeal.main_v3) = VR (Proc.devRef .tc Cert.ReferenceIdeal.main_v3))
    (h_v1 : Cert.KernelIdeal.Gen.W2 m ρ c (Proc.devRef .tc Cert.KernelIdeal.main_v1) = VR (Proc.devRef .tc Cert.ReferenceIdeal.main_v1))
    (h_a0 : Cert.KernelIdeal.Gen.W2 m ρ c (Proc.devRef .tc Cert.KernelIdeal.main_arg0) = VR (Proc.devRef .tc Cert.ReferenceIdeal.main_arg0))
    (h_a8 : Cert.KernelIdeal.Gen.W2 m ρ c (Proc.devRef .tc Cert.KernelIdeal.main_arg8) = VR (Proc.devRef .tc Cert.ReferenceIdeal.main_arg8))
    (h_a9 : Cert.KernelIdeal.Gen.W2 m ρ c (Proc.devRef .tc Cert.KernelIdeal.main_arg9) = VR (Proc.devRef .tc Cert.ReferenceIdeal.main_arg9)) :
    Cert.KernelIdeal.Gen.W5 m ρ c (Proc.devRef .tc Cert.KernelIdeal.main_v55)
      = StableHlo.after Cert.ReferenceIdeal.RefRun.opsB VR (Proc.devRef .tc Cert.ReferenceIdeal.main_v57) := by
  dsimp only [Cert.KernelIdeal.Gen.W5, Cert.KernelIdeal.Gen.W4, Cert.KernelIdeal.Gen.W3]
  after_results_simp
  simp only [h_msg, h_v3, h_a0, h_a8, h_a9]
  rfl

set_option maxHeartbeats 4000000 in
/-- Its rows gathered at the wrapped receiver indices are the same array in both programs. -/
theorem s1_xd
    (h_msg : Cert.KernelIdeal.Gen.W2 m ρ c (Proc.devRef .tc Cert.KernelIdeal.main_v32) = VR (Proc.devRef .tc Cert.ReferenceIdeal.main_v34))
    (h_v3 : Cert.KernelIdeal.Gen.W2 m ρ c (Proc.devRef .tc Cert.KernelIdeal.main_v3) = VR (Proc.devRef .tc Cert.ReferenceIdeal.main_v3))
    (h_v1 : Cert.KernelIdeal.Gen.W2 m ρ c (Proc.devRef .tc Cert.KernelIdeal.main_v1) = VR (Proc.devRef .tc Cert.ReferenceIdeal.main_v1))
    (h_a0 : Cert.KernelIdeal.Gen.W2 m ρ c (Proc.devRef .tc Cert.KernelIdeal.main_arg0) = VR (Proc.devRef .tc Cert.ReferenceIdeal.main_arg0))
    (h_a8 : Cert.KernelIdeal.Gen.W2 m ρ c (Proc.devRef .tc Cert.KernelIdeal.main_arg8) = VR (Proc.devRef .tc Cert.ReferenceIdeal.main_arg8))
    (h_a9 : Cert.KernelIdeal.Gen.W2 m ρ c (Proc.devRef .tc Cert.KernelIdeal.main_arg9) = VR (Proc.devRef .tc Cert.ReferenceIdeal.main_arg9)) :
    Cert.KernelIdeal.Gen.W5 m ρ c (Proc.devRef .tc Cert.KernelIdeal.main_v62)
      = StableHlo.after Cert.ReferenceIdeal.RefRun.opsB VR (Proc.devRef .tc Cert.ReferenceIdeal.main_v64) := by
  dsimp only [Cert.KernelIdeal.Gen.W5, Cert.KernelIdeal.Gen.W4, Cert.KernelIdeal.Gen.W3]
  after_results_simp
  simp only [h_msg, h_v3, h_a0, h_a8, h_a9]
  rfl

set_option maxHeartbeats 4000000 in
/-- Its rows gathered at the wrapped sender indices are the same array in both programs. -/
theorem s1_xs
    (h_msg : Cert.KernelIdeal.Gen.W2 m ρ c (Proc.devRef .tc Cert.KernelIdeal.main_v32) = VR (Proc.devRef .tc Cert.ReferenceIdeal.main_v34))
    (h_v3 : Cert.KernelIdeal.Gen.W2 m ρ c (Proc.devRef .tc Cert.KernelIdeal.main_v3) = VR (Proc.devRef .tc Cert.ReferenceIdeal.main_v3))
    (h_v1 : Cert.KernelIdeal.Gen.W2 m ρ c (Proc.devRef .tc Cert.KernelIdeal.main_v1) = VR (Proc.devRef .tc Cert.ReferenceIdeal.main_v1))
    (h_a0 : Cert.KernelIdeal.Gen.W2 m ρ c (Proc.devRef .tc Cert.KernelIdeal.main_arg0) = VR (Proc.devRef .tc Cert.ReferenceIdeal.main_arg0))
    (h_a8 : Cert.KernelIdeal.Gen.W2 m ρ c (Proc.devRef .tc Cert.KernelIdeal.main_arg8) = VR (Proc.devRef .tc Cert.ReferenceIdeal.main_arg8))
    (h_a9 : Cert.KernelIdeal.Gen.W2 m ρ c (Proc.devRef .tc Cert.KernelIdeal.main_arg9) = VR (Proc.devRef .tc Cert.ReferenceIdeal.main_arg9)) :
    Cert.KernelIdeal.Gen.W5 m ρ c (Proc.devRef .tc Cert.KernelIdeal.main_v69)
      = StableHlo.after Cert.ReferenceIdeal.RefRun.opsB VR (Proc.devRef .tc Cert.ReferenceIdeal.main_v71) := by
  dsimp only [Cert.KernelIdeal.Gen.W5, Cert.KernelIdeal.Gen.W4, Cert.KernelIdeal.Gen.W3]
  after_results_simp
  simp only [h_msg, h_v3, h_v1, h_a0, h_a8, h_a9]
  rfl

end Cert.Bridge

end
-- ==== Proof.Stage2.lean ====
import proofs.«128043_j25649544692460_2_alg».proof.Proof.Gen.KernelIdeal.Frame
import proofs.«128043_j25649544692460_2_alg».proof.Proof.RefRun
import Idealize.ShloMosaic.Lib.StableHlo.Run
import Idealize.ShloMosaic.PureOps.Ideal

/-!
  # The last shared stretch

  From the second layer's message to the result both programs apply the same operations in the same order: the
  second layer's aggregation by scatter-add at the receivers, its batch normalisation (mean and variance over the
  nodes, scale and shift) and the residual sum; the mean over each graph's nodes (a scatter-add of the rows and of
  ones at the graph indices, the count clamped below by one, the quotient); and the two dense layers with a softplus
  between them. The result of such a line is a function of the arrays it reads before writing — the message, the
  receiver indices, the residual input, the graph indices and the six parameter arrays. When the two programs hold
  equal arrays there, their results are the same array.
-/

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (VR : Valuation Cert.ReferenceIdeal.τ Cert.ReferenceIdeal.sig (Elt Ideal))

set_option maxHeartbeats 8000000 in
/-- If, after the second region, the kernel program's message, receiver indices, residual input, graph indices and
    parameter arrays equal the reference's at the corresponding buffers, then the kernel program's result at the last
    boundary is the reference's last chunk folded over the reference's contents, read at its result buffer. -/
theorem s2
    (h_msg : Cert.KernelIdeal.Gen.W6 m ρ c (Proc.devRef .tc Cert.KernelIdeal.main_v84) = VR (Proc.devRef .tc Cert.ReferenceIdeal.main_v88))
    (h_v3 : Cert.KernelIdeal.Gen.W6 m ρ c (Proc.devRef .tc Cert.KernelIdeal.main_v3) = VR (Proc.devRef .tc Cert.ReferenceIdeal.main_v3))
    (h_h : Cert.KernelIdeal.Gen.W6 m ρ c (Proc.devRef .tc Cert.KernelIdeal.main_v55) = VR (Proc.devRef .tc Cert.ReferenceIdeal.main_v57))
    (h_a3 : Cert.KernelIdeal.Gen.W6 m ρ c (Proc.devRef .tc Cert.KernelIdeal.main_arg3) = VR (Proc.devRef .tc Cert.ReferenceIdeal.main_arg3))
    (h_a14 : Cert.KernelIdeal.Gen.W6 m ρ c (Proc.devRef .tc Cert.KernelIdeal.main_arg14) = VR (Proc.devRef .tc Cert.ReferenceIdeal.main_arg14))
    (h_a15 : Cert.KernelIdeal.Gen.W6 m ρ c (Proc.devRef .tc Cert.KernelIdeal.main_arg15) = VR (Proc.devRef .tc Cert.ReferenceIdeal.main_arg15))
    (h_a16 : Cert.KernelIdeal.Gen.W6 m ρ c (Proc.devRef .tc Cert.KernelIdeal.main_arg16) = VR (Proc.devRef .tc Cert.ReferenceIdeal.main_arg16))
    (h_a17 : Cert.KernelIdeal.Gen.W6 m ρ c (Proc.devRef .tc Cert.KernelIdeal.main_arg17) = VR (Proc.devRef .tc Cert.ReferenceIdeal.main_arg17))
    (h_a18 : Cert.KernelIdeal.Gen.W6 m ρ c (Proc.devRef .tc Cert.KernelIdeal.main_arg18) = VR (Proc.devRef .tc Cert.ReferenceIdeal.main_arg18))
    (h_a19 : Cert.KernelIdeal.Gen.W6 m ρ c (Proc.devRef .tc Cert.KernelIdeal.main_arg19) = VR (Proc.devRef .tc Cert.ReferenceIdeal.main_arg19)) :
    Cert.KernelIdeal.Gen.W11 m ρ c (Proc.devRef .tc Cert.KernelIdeal.main_v128)
      = StableHlo.after Cert.ReferenceIdeal.RefRun.opsC VR (Proc.devRef .tc Cert.ReferenceIdeal.main_v132) := by
  dsimp only [Cert.KernelIdeal.Gen.W11, Cert.KernelIdeal.Gen.W10, Cert.KernelIdeal.Gen.W9, Cert.KernelIdeal.Gen.W8,
    Cert.KernelIdeal.Gen.W7]
  after_results_simp
  simp only [h_msg, h_v3, h_h, h_a3, h_a14, h_a15, h_a16, h_a17, h_a18, h_a19]
  rfl

end Cert.Bridge

end
-- ==== Proof.Bridge.lean ====
/-
  The two programs hold the same arrays at every cut: the pieces put together.

  At each cut the kernel program's buffer contents and the reference's agree on everything later operations read —
  the gathered features, the index vectors, the argument arrays, the message. The message stretch is the one place
  where the programs differ: there the blocked kernel leaves the specification's message array of its operands, and the
  reference's concatenate–multiply–gate chain is the specification's message array of ITS operands, whose weight blocks
  and bias rows are the corresponding rows of the same argument arrays.
-/
import proofs.«128043_j25649544692460_2_alg».proof.Proof.Gen.KernelIdeal.Frame
import proofs.«128043_j25649544692460_2_alg».proof.Proof.Agree
import proofs.«128043_j25649544692460_2_alg».proof.Proof.Stage0
import proofs.«128043_j25649544692460_2_alg».proof.Proof.RPass
import proofs.«128043_j25649544692460_2_alg».proof.Proof.KernelLeaves
import proofs.«128043_j25649544692460_2_alg».proof.Proof.KPass
import proofs.«128043_j25649544692460_2_alg».proof.Proof.KWeights
import proofs.«128043_j25649544692460_2_alg».proof.Proof.RegionValue
import proofs.«128043_j25649544692460_2_alg».proof.Proof.Msg
import proofs.«128043_j25649544692460_2_alg».proof.Proof.Stage1
import proofs.«128043_j25649544692460_2_alg».proof.Proof.Stage2
import Idealize.ShloMosaic.Lib.ValueIdx

noncomputable section

namespace Cert.Bridge

open Idealize.ShloMosaic Idealize.SL.Sem Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem e_RA_arg4 (hag : Agree m m') : m ((c.tc : Thread Cert.KernelIdeal.nD Cert.KernelIdeal.τ).loc Cert.KernelIdeal.main_arg4) = RA m' c (Proc.devRef .tc Cert.ReferenceIdeal.main_arg4) :=
  ((RA_arg4 m' c).trans (hag.a4 c)).symm

theorem e_RA_arg5 (hag : Agree m m') : m ((c.tc : Thread Cert.KernelIdeal.nD Cert.KernelIdeal.τ).loc Cert.KernelIdeal.main_arg5) = RA m' c (Proc.devRef .tc Cert.ReferenceIdeal.main_arg5) :=
  ((RA_arg5 m' c).trans (hag.a5 c)).symm

theorem e_RA_arg6 (hag : Agree m m') : m ((c.tc : Thread Cert.KernelIdeal.nD Cert.KernelIdeal.τ).loc Cert.KernelIdeal.main_arg6) = RA m' c (Proc.devRef .tc Cert.ReferenceIdeal.main_arg6) :=
  ((RA_arg6 m' c).trans (hag.a6 c)).symm

theorem e_RA_arg7 (hag : Agree m m') : m ((c.tc : Thread Cert.KernelIdeal.nD Cert.KernelIdeal.τ).loc Cert.KernelIdeal.main_arg7) = RA m' c (Proc.devRef .tc Cert.ReferenceIdeal.main_arg7) :=
  ((RA_arg7 m' c).trans (hag.a7 c)).symm

theorem e_RB_arg10 (hag : Agree m m') : m ((c.tc : Thread Cert.KernelIdeal.nD Cert.KernelIdeal.τ).loc Cert.KernelIdeal.main_arg10) = RB m' c (Proc.devRef .tc Cert.ReferenceIdeal.main_arg10) :=
  ((RB_arg10 m' c).trans (hag.a10 c)).symm

theorem e_RB_arg11 (hag : Agree m m') : m ((c.tc : Thread Cert.KernelIdeal.nD Cert.KernelIdeal.τ).loc Cert.KernelIdeal.main_arg11) = RB m' c (Proc.devRef .tc Cert.ReferenceIdeal.main_arg11) :=
  ((RB_arg11 m' c).trans (hag.a11 c)).symm

theorem e_RB_arg12 (hag : Agree m m') : m ((c.tc : Thread Cert.KernelIdeal.nD Cert.KernelIdeal.τ).loc Cert.KernelIdeal.main_arg12) = RB m' c (Proc.devRef .tc Cert.ReferenceIdeal.main_arg12) :=
  ((RB_arg12 m' c).trans (hag.a12 c)).symm

theorem e_RB_arg13 (hag : Agree m m') : m ((c.tc : Thread Cert.KernelIdeal.nD Cert.KernelIdeal.τ).loc Cert.KernelIdeal.main_arg13) = RB m' c (Proc.devRef .tc Cert.ReferenceIdeal.main_arg13) :=
  ((RB_arg13 m' c).trans (hag.a13 c)).symm

/-! ## The first layer's message -/

theorem m1 (hag : Agree m m') : Cert.KernelIdeal.Gen.W2 m ρ c (Proc.devRef .tc Cert.KernelIdeal.main_v32) = RM1 m' c (Proc.devRef .tc Cert.ReferenceIdeal.main_v34) := by
  rw [Cert.KernelIdeal.KernelRun.W2_out m ρ c, Cert.KernelIdeal.RegionValue.region0_value (Cert.KernelIdeal.Gen.V1 m ρ) c]
  unfold RM1
  refine (msg1 (RA m' c) _ _ _ _ _ _ _ _ _ _ _
    (s0_xd m ρ m' c hag).symm (s0_xs m ρ m' c hag).symm
    ((RA_arg2 m' c).trans ((hag.a2 c).trans (Cert.KernelIdeal.KernelRun.W1_arg2 m ρ c).symm))
    (fun k j => (Cert.KernelIdeal.KernelRun.wfd0 m ρ c k j).trans (congrFun (e_RA_arg4 m m' c hag) _))
    (fun k j => (Cert.KernelIdeal.KernelRun.wfs0 m ρ c k j).trans (congrFun (e_RA_arg4 m m' c hag) _))
    (fun k j => (Cert.KernelIdeal.KernelRun.wfe0 m ρ c k j).trans (congrFun (e_RA_arg4 m m' c hag) _))
    (fun j => (Cert.KernelIdeal.KernelRun.bf0 m ρ c j).trans (congrFun (e_RA_arg5 m m' c hag) _))
    (fun k j => (Cert.KernelIdeal.KernelRun.wsd0 m ρ c k j).trans (congrFun (e_RA_arg6 m m' c hag) _))
    (fun k j => (Cert.KernelIdeal.KernelRun.wss0 m ρ c k j).trans (congrFun (e_RA_arg6 m m' c hag) _))
    (fun k j => (Cert.KernelIdeal.KernelRun.wse0 m ρ c k j).trans (congrFun (e_RA_arg6 m m' c hag) _))
    (fun j => (Cert.KernelIdeal.KernelRun.bs0 m ρ c j).trans (congrFun (e_RA_arg7 m m' c hag) _))).symm

/-! ## What the first shared stretch reads -/

theorem L1_v3 (hag : Agree m m') : Cert.KernelIdeal.Gen.W2 m ρ c (Proc.devRef .tc Cert.KernelIdeal.main_v3) = RM1 m' c (Proc.devRef .tc Cert.ReferenceIdeal.main_v3) :=
  (Cert.KernelIdeal.KernelRun.W2_keep_main_v3 m ρ c).trans ((s0_dst m ρ m' c hag).trans (RM1_v3 m' c).symm)

theorem L1_v1 (hag : Agree m m') : Cert.KernelIdeal.Gen.W2 m ρ c (Proc.devRef .tc Cert.KernelIdeal.main_v1) = RM1 m' c (Proc.devRef .tc Cert.ReferenceIdeal.main_v1) :=
  (Cert.KernelIdeal.KernelRun.W2_keep_main_v1 m ρ c).trans ((s0_src m ρ m' c hag).trans (RM1_v1 m' c).symm)

theorem L1_arg0 (hag : Agree m m') : Cert.KernelIdeal.Gen.W2 m ρ c (Proc.devRef .tc Cert.KernelIdeal.main_arg0) = RM1 m' c (Proc.devRef .tc Cert.ReferenceIdeal.main_arg0) :=
  (Cert.KernelIdeal.KernelRun.W2_arg0 m ρ c).trans ((hag.a0 c).symm.trans (RM1_arg0 m' c).symm)

theorem L1_arg8 (hag : Agree m m') : Cert.KernelIdeal.Gen.W2 m ρ c (Proc.devRef .tc Cert.KernelIdeal.main_arg8) = RM1 m' c (Proc.devRef .tc Cert.ReferenceIdeal.main_arg8) :=
  (Cert.KernelIdeal.KernelRun.W2_arg8 m ρ c).trans ((hag.a8 c).symm.trans (RM1_arg8 m' c).symm)

theorem L1_arg9 (hag : Agree m m') : Cert.KernelIdeal.Gen.W2 m ρ c (Proc.devRef .tc Cert.KernelIdeal.main_arg9) = RM1 m' c (Proc.devRef .tc Cert.ReferenceIdeal.main_arg9) :=
  (Cert.KernelIdeal.KernelRun.W2_arg9 m ρ c).trans ((hag.a9 c).symm.trans (RM1_arg9 m' c).symm)

/-! ## The first layer's output and the second layer's gathered features -/

theorem x_h (hag : Agree m m') : Cert.KernelIdeal.Gen.W5 m ρ c (Proc.devRef .tc Cert.KernelIdeal.main_v55) = RB m' c (Proc.devRef .tc Cert.ReferenceIdeal.main_v57) := by
  unfold RB
  exact s1_h m ρ c (RM1 m' c) (m1 m ρ m' c hag) (L1_v3 m ρ m' c hag) (L1_v1 m ρ m' c hag) (L1_arg0 m ρ m' c hag) (L1_arg8 m ρ m' c hag) (L1_arg9 m ρ m' c hag)

theorem x_xd (hag : Agree m m') : Cert.KernelIdeal.Gen.W5 m ρ c (Proc.devRef .tc Cert.KernelIdeal.main_v62) = RB m' c (Proc.devRef .tc Cert.ReferenceIdeal.main_v64) := by
  unfold RB
  exact s1_xd m ρ c (RM1 m' c) (m1 m ρ m' c hag) (L1_v3 m ρ m' c hag) (L1_v1 m ρ m' c hag) (L1_arg0 m ρ m' c hag) (L1_arg8 m ρ m' c hag) (L1_arg9 m ρ m' c hag)

theorem x_xs (hag : Agree m m') : Cert.KernelIdeal.Gen.W5 m ρ c (Proc.devRef .tc Cert.KernelIdeal.main_v69) = RB m' c (Proc.devRef .tc Cert.ReferenceIdeal.main_v71) := by
  unfold RB
  exact s1_xs m ρ c (RM1 m' c) (m1 m ρ m' c hag) (L1_v3 m ρ m' c hag) (L1_v1 m ρ m' c hag) (L1_arg0 m ρ m' c hag) (L1_arg8 m ρ m' c hag) (L1_arg9 m ρ m' c hag)

/-! ## The second layer's message -/

theorem m2 (hag : Agree m m') : Cert.KernelIdeal.Gen.W6 m ρ c (Proc.devRef .tc Cert.KernelIdeal.main_v84) = RM2 m' c (Proc.devRef .tc Cert.ReferenceIdeal.main_v88) := by
  rw [Cert.KernelIdeal.KernelRun.W6_out m ρ c, Cert.KernelIdeal.RegionValue.region1_value (Cert.KernelIdeal.Gen.V5 m ρ) c]
  unfold RM2
  refine (msg2 (RB m' c) _ _ _ _ _ _ _ _ _ _ _
    (x_xd m ρ m' c hag).symm (x_xs m ρ m' c hag).symm
    ((RB_arg2 m' c).trans ((hag.a2 c).trans (Cert.KernelIdeal.KernelRun.W5_arg2 m ρ c).symm))
    (fun k j => (Cert.KernelIdeal.KernelRun.wfd1 m ρ c k j).trans (congrFun (e_RB_arg10 m m' c hag) _))
    (fun k j => (Cert.KernelIdeal.KernelRun.wfs1 m ρ c k j).trans (congrFun (e_RB_arg10 m m' c hag) _))
    (fun k j => (Cert.KernelIdeal.KernelRun.wfe1 m ρ c k j).trans (congrFun (e_RB_arg10 m m' c hag) _))
    (fun j => (Cert.KernelIdeal.KernelRun.bf1 m ρ c j).trans (congrFun (e_RB_arg11 m m' c hag) _))
    (fun k j => (Cert.KernelIdeal.KernelRun.wsd1 m ρ c k j).trans (congrFun (e_RB_arg12 m m' c hag) _))
    (fun k j => (Cert.KernelIdeal.KernelRun.wss1 m ρ c k j).trans (congrFun (e_RB_arg12 m m' c hag) _))
    (fun k j => (Cert.KernelIdeal.KernelRun.wse1 m ρ c k j).trans (congrFun (e_RB_arg12 m m' c hag) _))
    (fun j => (Cert.KernelIdeal.KernelRun.bs1 m ρ c j).trans (congrFun (e_RB_arg13 m m' c hag) _))).symm

/-! ## What the last shared stretch reads, and the result -/

theorem L2_v3 (hag : Agree m m') : Cert.KernelIdeal.Gen.W6 m ρ c (Proc.devRef .tc Cert.KernelIdeal.main_v3) = RM2 m' c (Proc.devRef .tc Cert.ReferenceIdeal.main_v3) :=
  (Cert.KernelIdeal.KernelRun.W6_keep_main_v3 m ρ c).trans ((Cert.KernelIdeal.KernelRun.W5_v3 m ρ c).trans ((s0_dst m ρ m' c hag).trans (RM2_v3 m' c).symm))

theorem L2_h (hag : Agree m m') : Cert.KernelIdeal.Gen.W6 m ρ c (Proc.devRef .tc Cert.KernelIdeal.main_v55) = RM2 m' c (Proc.devRef .tc Cert.ReferenceIdeal.main_v57) :=
  (Cert.KernelIdeal.KernelRun.W6_keep_main_v55 m ρ c).trans ((x_h m ρ m' c hag).trans (RM2_v57 m' c).symm)

theorem L2_arg3 (hag : Agree m m') : Cert.KernelIdeal.Gen.W6 m ρ c (Proc.devRef .tc Cert.KernelIdeal.main_arg3) = RM2 m' c (Proc.devRef .tc Cert.ReferenceIdeal.main_arg3) :=
  (Cert.KernelIdeal.KernelRun.W6_arg3 m ρ c).trans ((hag.a3 c).symm.trans (RM2_arg3 m' c).symm)

theorem L2_arg14 (hag : Agree m m') : Cert.KernelIdeal.Gen.W6 m ρ c (Proc.devRef .tc Cert.KernelIdeal.main_arg14) = RM2 m' c (Proc.devRef .tc Cert.ReferenceIdeal.main_arg14) :=
  (Cert.KernelIdeal.KernelRun.W6_arg14 m ρ c).trans ((hag.a14 c).symm.trans (RM2_arg14 m' c).symm)

theorem L2_arg15 (hag : Agree m m') : Cert.KernelIdeal.Gen.W6 m ρ c (Proc.devRef .tc Cert.KernelIdeal.main_arg15) = RM2 m' c (Proc.devRef .tc Cert.ReferenceIdeal.main_arg15) :=
  (Cert.KernelIdeal.KernelRun.W6_arg15 m ρ c).trans ((hag.a15 c).symm.trans (RM2_arg15 m' c).symm)

theorem L2_arg16 (hag : Agree m m') : Cert.KernelIdeal.Gen.W6 m ρ c (Proc.devRef .tc Cert.KernelIdeal.main_arg16) = RM2 m' c (Proc.devRef .tc Cert.ReferenceIdeal.main_arg16) :=
  (Cert.KernelIdeal.KernelRun.W6_arg16 m ρ c).trans ((hag.a16 c).symm.trans (RM2_arg16 m' c).symm)

theorem L2_arg17 (hag : Agree m m') : Cert.KernelIdeal.Gen.W6 m ρ c (Proc.devRef .tc Cert.KernelIdeal.main_arg17) = RM2 m' c (Proc.devRef .tc Cert.ReferenceIdeal.main_arg17) :=
  (Cert.KernelIdeal.KernelRun.W6_arg17 m ρ c).trans ((hag.a17 c).symm.trans (RM2_arg17 m' c).symm)

theorem L2_arg18 (hag : Agree m m') : Cert.KernelIdeal.Gen.W6 m ρ c (Proc.devRef .tc Cert.KernelIdeal.main_arg18) = RM2 m' c (Proc.devRef .tc Cert.ReferenceIdeal.main_arg18) :=
  (Cert.KernelIdeal.KernelRun.W6_arg18 m ρ c).trans ((hag.a18 c).symm.trans (RM2_arg18 m' c).symm)

theorem L2_arg19 (hag : Agree m m') : Cert.KernelIdeal.Gen.W6 m ρ c (Proc.devRef .tc Cert.KernelIdeal.main_arg19) = RM2 m' c (Proc.devRef .tc Cert.ReferenceIdeal.main_arg19) :=
  (Cert.KernelIdeal.KernelRun.W6_arg19 m ρ c).trans ((hag.a19 c).symm.trans (RM2_arg19 m' c).symm)

/-- The two programs' results are the same array. -/
theorem result_eq (hag : Agree m m') : Cert.KernelIdeal.Gen.W11 m ρ c (Proc.devRef .tc Cert.KernelIdeal.main_v128) = RC m' c (Proc.devRef .tc Cert.ReferenceIdeal.main_v132) := by
  unfold RC
  exact s2 m ρ c (RM2 m' c) (m2 m ρ m' c hag) (L2_v3 m ρ m' c hag) (L2_h m ρ m' c hag)
    (L2_arg3 m ρ m' c hag) (L2_arg14 m ρ m' c hag) (L2_arg15 m ρ m' c hag) (L2_arg16 m ρ m' c hag) (L2_arg17 m ρ m' c hag) (L2_arg18 m ρ m' c hag) (L2_arg19 m ρ m' c hag)

end Cert.Bridge

end
-- ==== Proof.lean ====
/-
  The certificate of a two-layer graph convolution with a graph-level mean pool and a two-layer head.

  The kernel program computes each layer's edge messages in a blocked kernel: for every block of 8000 edges it multiplies
  the gathered destination features, source features and edge features by three row-blocks of the layer's two weight
  matrices, adds the three partial products and the bias, and stores `logistic (z_f) · softplus (z_s)`. The reference
  concatenates the three feature rows into one 26-wide row and multiplies by the whole matrices. On the extended reals
  a sum over 26 positions is the sum over its three spans, whatever the order, so the two message arrays are equal
  entry by entry, with no appeal to finiteness. Everything else — the wrap-around of indices, the row gathers, the sum
  of messages over incoming edges, the batch normalisation, the residual, the mean pool and the head — is the same
  chain of host operations in both programs, applied to arrays already shown equal; it is carried along and never
  opened.

  The three frames: the kernel programs' are the generated ones; the reference's is its run with every buffer named,
  read at the argument arrays, which no operation writes. The idealization rewrote nothing, so `preserves` is `True`.
-/
import proofs.«128043_j25649544692460_2_alg».proof.Defs
import proofs.«128043_j25649544692460_2_alg».proof.Proof.Gen.Kernel
import proofs.«128043_j25649544692460_2_alg».proof.Proof.Gen.Kernel.Frame
import proofs.«128043_j25649544692460_2_alg».proof.Proof.Gen.KernelIdeal
import proofs.«128043_j25649544692460_2_alg».proof.Proof.Gen.KernelIdeal.Frame
import proofs.«128043_j25649544692460_2_alg».proof.Proof.Gen.ReferenceIdeal
import proofs.«128043_j25649544692460_2_alg».proof.Proof.Gen.Pre_finite_inputs
import proofs.«128043_j25649544692460_2_alg».proof.Proof.KernelRun
import proofs.«128043_j25649544692460_2_alg».proof.Proof.RefRun
import proofs.«128043_j25649544692460_2_alg».proof.Proof.Agree
import proofs.«128043_j25649544692460_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs to the fold of its operations over the launch memory; no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _),
     (h c Cert.ReferenceIdeal.main_arg8).trans (Cert.ReferenceIdeal.RefRun.kept_arg8 _),
     (h c Cert.ReferenceIdeal.main_arg9).trans (Cert.ReferenceIdeal.RefRun.kept_arg9 _),
     (h c Cert.ReferenceIdeal.main_arg10).trans (Cert.ReferenceIdeal.RefRun.kept_arg10 _),
     (h c Cert.ReferenceIdeal.main_arg11).trans (Cert.ReferenceIdeal.RefRun.kept_arg11 _),
     (h c Cert.ReferenceIdeal.main_arg12).trans (Cert.ReferenceIdeal.RefRun.kept_arg12 _),
     (h c Cert.ReferenceIdeal.main_arg13).trans (Cert.ReferenceIdeal.RefRun.kept_arg13 _),
     (h c Cert.ReferenceIdeal.main_arg14).trans (Cert.ReferenceIdeal.RefRun.kept_arg14 _),
     (h c Cert.ReferenceIdeal.main_arg15).trans (Cert.ReferenceIdeal.RefRun.kept_arg15 _),
     (h c Cert.ReferenceIdeal.main_arg16).trans (Cert.ReferenceIdeal.RefRun.kept_arg16 _),
     (h c Cert.ReferenceIdeal.main_arg17).trans (Cert.ReferenceIdeal.RefRun.kept_arg17 _),
     (h c Cert.ReferenceIdeal.main_arg18).trans (Cert.ReferenceIdeal.RefRun.kept_arg18 _),
     (h c Cert.ReferenceIdeal.main_arg19).trans (Cert.ReferenceIdeal.RefRun.kept_arg19 _)⟩)
    (Cert.ReferenceIdeal.RefRun.run (F := Ideal) m ρ)

theorem preserves : Cert.preserves_Kernel_KernelIdeal := trivial

/-- Both programs run; the kernel program's result is the last boundary's contents at its result buffer, the
    reference's is its fold at its result buffer, and the two are the same array. -/
theorem algebraic : Cert.algebraic_KernelIdeal_ReferenceIdeal := by
  intro m ρ m' ρ' _ hagree
  refine ⟨fun c => Cert.KernelIdeal.Gen.W11 m ρ c (Proc.devRef .tc Cert.KernelIdeal.main_v128), Cert.KernelIdeal.KernelRun.run (F := Ideal) m ρ, ?_⟩
  refine (θ_run Cert.ReferenceIdeal.defs _ _).mono (fun r h c => ⟨?_,
     (h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _),
     (h c Cert.ReferenceIdeal.main_arg8).trans (Cert.ReferenceIdeal.RefRun.kept_arg8 _),
     (h c Cert.ReferenceIdeal.main_arg9).trans (Cert.ReferenceIdeal.RefRun.kept_arg9 _),
     (h c Cert.ReferenceIdeal.main_arg10).trans (Cert.ReferenceIdeal.RefRun.kept_arg10 _),
     (h c Cert.ReferenceIdeal.main_arg11).trans (Cert.ReferenceIdeal.RefRun.kept_arg11 _),
     (h c Cert.ReferenceIdeal.main_arg12).trans (Cert.ReferenceIdeal.RefRun.kept_arg12 _),
     (h c Cert.ReferenceIdeal.main_arg13).trans (Cert.ReferenceIdeal.RefRun.kept_arg13 _),
     (h c Cert.ReferenceIdeal.main_arg14).trans (Cert.ReferenceIdeal.RefRun.kept_arg14 _),
     (h c Cert.ReferenceIdeal.main_arg15).trans (Cert.ReferenceIdeal.RefRun.kept_arg15 _),
     (h c Cert.ReferenceIdeal.main_arg16).trans (Cert.ReferenceIdeal.RefRun.kept_arg16 _),
     (h c Cert.ReferenceIdeal.main_arg17).trans (Cert.ReferenceIdeal.RefRun.kept_arg17 _),
     (h c Cert.ReferenceIdeal.main_arg18).trans (Cert.ReferenceIdeal.RefRun.kept_arg18 _),
     (h c Cert.ReferenceIdeal.main_arg19).trans (Cert.ReferenceIdeal.RefRun.kept_arg19 _)⟩)
    (Cert.ReferenceIdeal.RefRun.run (F := Ideal) m' ρ')
  rw [h c Cert.ReferenceIdeal.main_v132, Cert.Bridge.after_ops m' c]
  exact (Cert.Bridge.result_eq m ρ m' c hagree).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
